-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.sign_bit.Statement Cert.KernelIdeal.S200x5 .f32
  ∧ IdealRules.sign_bit.Statement Cert.KernelIdeal.S200x5 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000 : Shape := ⟨1, ![10000]⟩
abbrev S10000x10000 : Shape := ⟨2, ![10000, 10000]⟩
abbrev S128x261 : Shape := ⟨2, ![128, 261]⟩
abbrev S128 : Shape := ⟨1, ![128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000 : S_.BroadcastsInDim S10000 (![] : Fin 0 → Fin S10000.rank)
  reducesTo_S10000_S_d0 : S10000.ReducesTo [0] S_
  bcast_S_S10000x10000 : S_.BroadcastsInDim S10000x10000 (![] : Fin 0 → Fin S10000x10000.rank)
  reducesTo_S10000x10000_S_d0_1 : S10000x10000.ReducesTo [0, 1] S_
  bcast_S_S128x261 : S_.BroadcastsInDim S128x261 (![] : Fin 0 → Fin S128x261.rank)
  reducesTo_S128x261_S_d0_1 : S128x261.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x261 .f32) (main_arg8 : FVec F S128 .f32) (main_arg9 : FVec F S128x128 .f32) (main_arg10 : FVec F S128 .f32) (main_arg11 : FVec F S128 .f32) (main_arg12 : FVec F S128 .f32) (main_v33 : IVec S_ 1) : IVec S_ 1 :=
  let main_v34 : FVec F S128x261 .f32 := Host.absf main_arg7
  let main_cst_12 : FVec F S_ .f32 := constant S_ .f32 0x7F800000#32
  let main_v35 : FVec F S128x261 .f32 := broadcastInDim S128x261 ![] bcast_S_S128x261 main_cst_12
  let main_v36 : IVec S128x261 1 := cmpf .olt main_v34 main_v35
  let main_c_13 : IVec S_ 1 := constantI S_ 1 1#1
  let main_v37 : IVec S_ 1 := (fun x v => Host.reduce IntOp.andi x v reducesTo_S128x261_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S10000 .f32) (main_arg5 : FVec F S10000 .f32) (main_arg6 : FVec F S10000x10000 .f32) (main_arg7 : FVec F S128x261 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S10000 1) : IVec S_ 1 :=
  let main_c_5 : IVec S_ 1 := constantI S_ 1 1#1
  let main_v17 : IVec S_ 1 := (fun x v => Host.reduce IntOp.andi x v reducesTo_S10000_S_d0 h_S_) main_v16 main_c_5
  let main_v18 : IVec S_ 1 := andi main_v13 main_v17
  let main_v19 : FVec F S10000 .f32 := Host.absf main_arg4
  let main_cst_6 : FVec F S_ .f32 := constant S_ .f32 0x7F800000#32
  let main_v20 : FVec F S10000 .f32 := broadcastInDim S10000 ![] bcast_S_S10000 main_cst_6
  let main_v21 : IVec S10000 1 := cmpf .olt main_v19 main_v20
  let main_c_7 : IVec S_ 1 := constantI S_ 1 1#1
  let main_v22 : IVec S_ 1 := (fun x v => Host.reduce IntOp.andi x v reducesTo_S10000_S_d0 h_S_) main_v21 main_c_7
  let main_v23 : IVec S_ 1 := andi main_v18 main_v22
  let main_v24 : FVec F S10000 .f32 := Host.absf main_arg5
  let main_cst_8 : FVec F S_ .f32 := constant S_ .f32 0x7F800000#32
  let main_v25 : FVec F S10000 .f32 := broadcastInDim S10000 ![] bcast_S_S10000 main_cst_8
  let main_v26 : IVec S10000 1 := cmpf .olt main_v24 main_v25
  let main_c_9 : IVec S_ 1 := constantI S_ 1 1#1
  let main_v27 : IVec S_ 1 := (fun x v => Host.reduce IntOp.andi x v reducesTo_S10000_S_d0 h_S_) main_v26 main_c_9
  let main_v28 : IVec S_ 1 := andi main_v23 main_v27
  let main_v29 : FVec F S10000x10000 .f32 := Host.absf main_arg6
  let main_cst_10 : FVec F S_ .f32 := constant S_ .f32 0x7F800000#32
  let main_v30 : FVec F S10000x10000 .f32 := broadcastInDim S10000x10000 ![] bcast_S_S10000x10000 main_cst_10
  let main_v31 : IVec S10000x10000 1 := cmpf .olt main_v29 main_v30
  let main_c_11 : IVec S_ 1 := constantI S_ 1 1#1
  let main_v32 : IVec S_ 1 := (fun x v => Host.reduce IntOp.andi x v reducesTo_S10000x10000_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x128 .f32) (main_arg1 : FVec F S10000 .f32) (main_arg2 : FVec F S10000 .f32) (main_arg3 : FVec F S10000 .f32) (main_arg4 : FVec F S10000 .f32) (main_arg5 : FVec F S10000 .f32) (main_arg6 : FVec F S10000x10000 .f32) (main_arg7 : FVec F S128x261 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_v9 : FVec F S10000 .f32 := Host.absf main_arg2
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S10000 .f32 := Host.absf main_arg3
  let main_cst_4 : FVec F S_ .f32 := constant S_ .f32 0x7F800000#32
  let main_v15 : FVec F S10000 .f32 := broadcastInDim S10000 ![] bcast_S_S10000 main_cst_4
  let main_v16 : IVec S10000 1 := cmpf .olt main_v14 main_v15
  fn_part1 (F := F) main_arg4 main_arg5 main_arg6 main_arg7 main_arg8 main_arg9 main_arg10 main_arg11 main_arg12 main_v13 main_v16
-- ==== Kernel.lean ====
abbrev S10000x128 : Shape := ⟨2, ![10000, 128]⟩
abbrev S10000 : Shape := ⟨1, ![10000]⟩
abbrev S10000x10000 : Shape := ⟨2, ![10000, 10000]⟩
abbrev S128x261 : Shape := ⟨2, ![128, 261]⟩
abbrev S128 : Shape := ⟨1, ![128]⟩
abbrev S128x128 : Shape := ⟨2, ![128, 128]⟩
abbrev S10000x1 : Shape := ⟨2, ![10000, 1]⟩
abbrev S10000x5 : Shape := ⟨2, ![10000, 5]⟩
abbrev S128x5 : Shape := ⟨2, ![128, 5]⟩
abbrev S5x128 : Shape := ⟨2, ![5, 128]⟩
abbrev S1x128 : Shape := ⟨2, ![1, 128]⟩
abbrev S5000x128 : Shape := ⟨2, ![5000, 128]⟩
abbrev S200x10000 : Shape := ⟨2, ![200, 10000]⟩
abbrev S200x128 : Shape := ⟨2, ![200, 128]⟩
abbrev S200x5 : Shape := ⟨2, ![200, 5]⟩
abbrev S200x1 : Shape := ⟨2, ![200, 1]⟩
abbrev S200 : Shape := ⟨1, ![200]⟩

abbrev nBuf : Space → Nat
  | .hbm => 33
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S10000, .f32⟩
  | .hbm, ⟨3, _⟩ => ⟨S10000, .f32⟩
  | .hbm, ⟨4, _⟩ => ⟨S10000, .f32⟩
  | .hbm, ⟨5, _⟩ => ⟨S10000, .f32⟩
  | .hbm, ⟨6, _⟩ => ⟨S10000x10000, .f32⟩
  | .hbm, ⟨7, _⟩ => ⟨S128x261, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S10000x1, .f32⟩
  | .hbm, ⟨14, _⟩ => ⟨S10000x1, .f32⟩
  | .hbm, ⟨15, _⟩ => ⟨S10000x1, .f32⟩
  | .hbm, ⟨16, _⟩ => ⟨S10000x1, .f32⟩
  | .hbm, ⟨17, _⟩ => ⟨S10000x1, .f32⟩
  | .hbm, ⟨18, _⟩ => ⟨S10000x5, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x5, .f32⟩
  | .hbm, ⟨24, _⟩ => ⟨S5x128, .f32⟩
  | .hbm, ⟨25, _⟩ => ⟨S128x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S5000x128, .f32⟩
  | .hbm, ⟨31, _⟩ => ⟨S5000x128, .f32⟩
  | .hbm, ⟨32, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S200x128, .f32⟩
  | .local _ .vmem, ⟨6, _⟩ => ⟨S200x128, .f32⟩
  | .local _ .vmem, ⟨7, _⟩ => ⟨S200x128, .f32⟩
  | .local _ .vmem, ⟨8, _⟩ => ⟨S200x128, .f32⟩
  | .local _ .vmem, ⟨9, _⟩ => ⟨S200x5, .f32⟩
  | .local _ .vmem, ⟨10, _⟩ => ⟨S200x5, .f32⟩
  | .local _ .vmem, ⟨11, _⟩ => ⟨S200x5, .f32⟩
  | .local _ .vmem, ⟨12, _⟩ => ⟨S200x5, .f32⟩
  | .local _ .vmem, ⟨13, _⟩ => ⟨S128x128, .f32⟩
  | .local _ .vmem, ⟨14, _⟩ => ⟨S128x128, .f32⟩
  | .local _ .vmem, ⟨15, _⟩ => ⟨S5x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S200x128, .f32⟩
  | .local _ .vmem, ⟨22, _⟩ => ⟨S200x128, .f32⟩
  | .local _ .vmem, ⟨23, _⟩ => ⟨S200x128, .f32⟩
  | .local _ .vmem, ⟨24, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [BitOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x5 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S200x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S200x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S10000_S10000x1_0 : S10000.BroadcastsInDim S10000x1 (![0] : Fin 1 → Fin S10000x1.rank)
  concatenates_S10000x1_S10000x1_S10000x1_S10000x1_S10000x1_S10000x5_d1 : Shape.Concatenates [S10000x1, S10000x1, S10000x1, S10000x1, S10000x1] S10000x5 1
  slices_S128x261_S128x128_0_0 : S128x261.Slices ![0, 0] S128x128
  transposes_S128x128_S128x128_1_0 : S128x128.Transposes [1, 0] S128x128
  slices_S128x261_S128x128_0_128 : S128x261.Slices ![0, 128] S128x128
  slices_S128x261_S128x5_0_256 : S128x261.Slices ![0, 256] S128x5
  transposes_S128x5_S5x128_1_0 : S128x5.Transposes [1, 0] S5x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x10000_S200x10000_0_0 : ∀ a, (![0, 0] : Fin 2 → Nat) a + S200x10000.size a ≤ S200x10000.size a
  h_S200x10000 : 0 < S200x10000.numel
  inb_S200x128_S200x128_0_0 : ∀ a, (![0, 0] : Fin 2 → Nat) a + S200x128.size a ≤ S200x128.size a
  h_S200x128 : 0 < S200x128.numel
  inb_S200x5_S200x5_0_0 : ∀ a, (![0, 0] : Fin 2 → Nat) a + S200x5.size a ≤ S200x5.size a
  h_S200x5 : 0 < S200x5.numel
  shapeCasts_S200x5_S200x5 : S200x5.ShapeCasts S200x5
  slices_S200x5_o0_0_S200x1 : S200x5.Slices ![0, 0] S200x1
  shapeCasts_S200x1_S200 : S200x1.ShapeCasts S200
  shapeCasts_S200_S200x1 : S200.ShapeCasts S200x1
  slices_S5x128_o0_0_S1x128 : S5x128.Slices ![0, 0] S1x128
  shapeCasts_S1x128_S128 : S1x128.ShapeCasts S128
  broadcasts_S200x1_S200x128 : S200x1.Broadcasts S200x128
  broadcasts_S1x128_S200x128 : S1x128.Broadcasts S200x128
  slices_S200x5_o0_1_S200x1 : S200x5.Slices ![0, 1] S200x1
  slices_S5x128_o1_0_S1x128 : S5x128.Slices ![1, 0] S1x128
  slices_S200x5_o0_2_S200x1 : S200x5.Slices ![0, 2] S200x1
  slices_S5x128_o2_0_S1x128 : S5x128.Slices ![2, 0] S1x128
  slices_S200x5_o0_3_S200x1 : S200x5.Slices ![0, 3] S200x1
  slices_S5x128_o3_0_S1x128 : S5x128.Slices ![3, 0] S1x128
  slices_S200x5_o0_4_S200x1 : S200x5.Slices ![0, 4] S200x1
  slices_S5x128_o4_0_S1x128 : S5x128.Slices ![4, 0] S1x128
  reduces_S200x128_S200 : S200x128.Reduces [1] S200
  concatenates_S5000x128_S5000x128_S10000x128_d0 : Shape.Concatenates [S5000x128, S5000x128] S10000x128 0
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x5.size a ≤ S10000x5.size a
  hwx0_5 : ∀ i : grid0.Coords, EltTy.bits .f32 = 32 ∨ (Rect.block (s := S10000x5) S200x5.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x5.size a ≤ S10000x5.size a
  hwx0_6 : ∀ i : grid0.Coords, EltTy.bits .f32 = 32 ∨ (Rect.block (s := S10000x5) S200x5.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x128.size a ≤ S5x128.size a
  hwx0_9 : ∀ i : grid0.Coords, EltTy.bits .f32 = 32 ∨ (Rect.block (s := S5x128) S5x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S200x128.size a ≤ S5000x128.size a
  hwx0_15 : ∀ i : grid0.Coords, EltTy.bits .f32 = 32 ∨ (Rect.block (s := S5000x128) S200x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S200x128.size a ≤ S5000x128.size a
  hwx0_16 : ∀ i : grid0.Coords, EltTy.bits .f32 = 32 ∨ (Rect.block (s := S5000x128) S200x128.size (cc0_transform_16 i) (hinb0_16 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg6) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S200x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S200x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S200x5.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S200x5.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S5x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v16) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v17_0) S200x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v17_1) S200x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000 : Shape := ⟨1, ![10000]⟩
abbrev S10000x10000 : Shape := ⟨2, ![10000, 10000]⟩
abbrev S128x261 : Shape := ⟨2, ![128, 261]⟩
abbrev S128 : Shape := ⟨1, ![128]⟩
abbrev S128x128 : Shape := ⟨2, ![128, 128]⟩
abbrev S_ : Shape := ⟨0, ![]⟩
abbrev S10000x1 : Shape := ⟨2, ![10000, 1]⟩
abbrev S10000x5 : Shape := ⟨2, ![10000, 5]⟩
abbrev S10000x261 : Shape := ⟨2, ![10000, 261]⟩
abbrev S261x128 : Shape := ⟨2, ![261, 128]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S10000, .f32⟩
  | .hbm, ⟨3, _⟩ => ⟨S10000, .f32⟩
  | .hbm, ⟨4, _⟩ => ⟨S10000, .f32⟩
  | .hbm, ⟨5, _⟩ => ⟨S10000, .f32⟩
  | .hbm, ⟨6, _⟩ => ⟨S10000x10000, .f32⟩
  | .hbm, ⟨7, _⟩ => ⟨S128x261, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S10000x128, .f32⟩
  | .hbm, ⟨14, _⟩ => ⟨S10000, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S10000, .f32⟩
  | .hbm, ⟨20, _⟩ => ⟨S10000, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000, .f32⟩
  | .hbm, ⟨27, _⟩ => ⟨S10000, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000, .f32⟩
  | .hbm, ⟨34, _⟩ => ⟨S10000, .f32⟩
  | .hbm, ⟨35, _⟩ => ⟨S10000, .f32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000, .f32⟩
  | .hbm, ⟨41, _⟩ => ⟨S10000, .f32⟩
  | .hbm, ⟨42, _⟩ => ⟨S10000, .f32⟩
  | .hbm, ⟨43, _⟩ => ⟨S10000, .f32⟩
  | .hbm, ⟨44, _⟩ => ⟨S_, .f32⟩
  | .hbm, ⟨45, _⟩ => ⟨S10000, .f32⟩
  | .hbm, ⟨46, _⟩ => ⟨S10000, .f32⟩
  | .hbm, ⟨47, _⟩ => ⟨S10000, .f32⟩
  | .hbm, ⟨48, _⟩ => ⟨S10000, .f32⟩
  | .hbm, ⟨49, _⟩ => ⟨S10000x1, .f32⟩
  | .hbm, ⟨50, _⟩ => ⟨S10000x1, .f32⟩
  | .hbm, ⟨51, _⟩ => ⟨S10000x1, .f32⟩
  | .hbm, ⟨52, _⟩ => ⟨S10000x1, .f32⟩
  | .hbm, ⟨53, _⟩ => ⟨S10000x1, .f32⟩
  | .hbm, ⟨54, _⟩ => ⟨S10000x5, .f32⟩
  | .hbm, ⟨55, _⟩ => ⟨S10000x261, .f32⟩
  | .hbm, ⟨56, _⟩ => ⟨S261x128, .f32⟩
  | .hbm, ⟨57, _⟩ => ⟨S10000x128, .f32⟩
  | .hbm, ⟨58, _⟩ => ⟨S1x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x128, .f32⟩
  | .hbm, ⟨70, _⟩ => ⟨S128x128, .f32⟩
  | .hbm, ⟨71, _⟩ => ⟨S10000x128, .f32⟩
  | .hbm, ⟨72, _⟩ => ⟨S1x128, .f32⟩
  | .hbm, ⟨73, _⟩ => ⟨S10000x128, .f32⟩
  | .hbm, ⟨74, _⟩ => ⟨S10000x128, .f32⟩
  | .hbm, ⟨75, _⟩ => ⟨S10000x128, .f32⟩
  | .hbm, ⟨76, _⟩ => ⟨S_, .f32⟩
  | .hbm, ⟨77, _⟩ => ⟨S10000, .f32⟩
  | .hbm, ⟨78, _⟩ => ⟨S10000x1, .f32⟩
  | .hbm, ⟨79, _⟩ => ⟨S_, .f32⟩
  | .hbm, ⟨80, _⟩ => ⟨S10000x1, .f32⟩
  | .hbm, ⟨81, _⟩ => ⟨S10000x1, .f32⟩
  | .hbm, ⟨82, _⟩ => ⟨S10000x128, .f32⟩
  | .hbm, ⟨83, _⟩ => ⟨S10000x128, .f32⟩
  | .hbm, ⟨84, _⟩ => ⟨S10000x128, .f32⟩
  | .hbm, ⟨85, _⟩ => ⟨S_, .f32⟩
  | .hbm, ⟨86, _⟩ => ⟨S10000, .f32⟩
  | .hbm, ⟨87, _⟩ => ⟨S10000x1, .f32⟩
  | .hbm, ⟨88, _⟩ => ⟨S_, .f32⟩
  | .hbm, ⟨89, _⟩ => ⟨S10000x1, .f32⟩
  | .hbm, ⟨90, _⟩ => ⟨S10000x1, .f32⟩
  | .hbm, ⟨91, _⟩ => ⟨S10000x128, .f32⟩
  | .hbm, ⟨92, _⟩ => ⟨S10000x128, .f32⟩
  | .hbm, ⟨93, _⟩ => ⟨S1x128, .f32⟩
  | .hbm, ⟨94, _⟩ => ⟨S10000x128, .f32⟩
  | .hbm, ⟨95, _⟩ => ⟨S10000x128, .f32⟩
  | .hbm, ⟨96, _⟩ => ⟨S_, .f32⟩
  | .hbm, ⟨97, _⟩ => ⟨S10000x1, .f32⟩
  | .hbm, ⟨98, _⟩ => ⟨S10000x1, .f32⟩
  | .hbm, ⟨99, _⟩ => ⟨S10000x1, .f32⟩
  | .hbm, ⟨100, _⟩ => ⟨S10000x128, .f32⟩
  | .hbm, ⟨101, _⟩ => ⟨S10000x128, .f32⟩
  | .hbm, ⟨102, _⟩ => ⟨S1x128, .f32⟩
  | .hbm, ⟨103, _⟩ => ⟨S10000x128, .f32⟩
  | .hbm, ⟨104, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_4 : Ref sig .tc := ⟨.hbm, 76, rfl⟩
abbrev main_v50 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  concatenates_S10000x1_S10000x1_S10000x1_S10000x1_S10000x1_S10000x5_d1 : Shape.Concatenates [S10000x1, S10000x1, S10000x1, S10000x1, S10000x1] S10000x5 1
  concatenates_S10000x128_S10000x128_S10000x5_S10000x261_d1 : Shape.Concatenates [S10000x128, S10000x128, S10000x5] S10000x261 1
  transposes_S128x261_S261x128_1_0 : S128x261.Transposes [1, 0] S261x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S128x128_S128x128_1_0 : S128x128.Transposes [1, 0] S128x128
  reducesTo_S10000x128_S10000_d1 : S10000x128.ReducesTo [1] S10000
  h_S_ : 0 < S_.numel
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x261_S261x128_S10000x128_1_0_0_1_n_n_wf : DotDims.WF S10000x261 S261x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x261_S261x128_S10000x128_1_0_0_1_n_n : DotDims S10000x261 S261x128 S10000x128 where
  lhsContracting := [1]
  rhsContracting := [0]
  lhsNonContracting := [0]
  rhsNonContracting := [1]
  lhsBatch := []
  rhsBatch := []
  wf := dot_S10000x261_S261x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KBody.lean ====
/-
  The kernel body at one grid point, as a statement about the seventeen staging buffers it is called with.

  The body reads its fifteen input buffers whole, computes two blocks of 200 rows — the node update of the rows of the
  upper half and of the lower half that the point owns — and overwrites its two output buffers whole with them. So if
  the input buffers hold `x0 … x14` and the output buffers anything, it terminates with the inputs as they were and the
  outputs holding `blockTop x0 … x14` and `blockBot x0 … x14`: the two stored values written over the loaded ones.
-/
import proofs.«149784_g58171037057130_cont_9to1_m_483_14_alg».proof.Proof.Gen.Kernel.Launch
import proofs.«149784_g58171037057130_cont_9to1_m_483_14_alg».proof.Proof.Gen.Kernel.Skeleton
import proofs.«149784_g58171037057130_cont_9to1_m_483_14_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The whole-buffer rectangles the body loads and stores through -/

abbrev rS200x10000 : Rect S200x10000 := Rect.unit (s := S200x10000) ![0, 0] S200x10000.size inb_S200x10000_S200x10000_0_0
abbrev rS10000x128 : Rect S10000x128 := Rect.unit (s := S10000x128) ![0, 0] S10000x128.size inb_S10000x128_S10000x128_0_0
abbrev rS200x128 : Rect S200x128 := Rect.unit (s := S200x128) ![0, 0] S200x128.size inb_S200x128_S200x128_0_0
abbrev rS200x5 : Rect S200x5 := Rect.unit (s := S200x5) ![0, 0] S200x5.size inb_S200x5_S200x5_0_0
abbrev rS128x128 : Rect S128x128 := Rect.unit (s := S128x128) ![0, 0] S128x128.size inb_S128x128_S128x128_0_0
abbrev rS5x128 : Rect S5x128 := Rect.unit (s := S5x128) ![0, 0] S5x128.size inb_S5x128_S5x128_0_0
abbrev rS1x128 : Rect S1x128 := Rect.unit (s := S1x128) ![0, 0] S1x128.size inb_S1x128_S1x128_0_0

/-! ## What the body leaves in its two output buffers -/

/-- The block of the upper half: one store over the whole buffer. -/
def blockTop (x0 : Vec F S200x10000 .f32) (x1 : Vec F S200x10000 .f32) (x2 : Vec F S10000x128 .f32) (x3 : Vec F S200x128 .f32) (x4 : Vec F S200x128 .f32) (x5 : Vec F S200x5 .f32) (x6 : Vec F S200x5 .f32) (x7 : Vec F S128x128 .f32) (x8 : Vec F S128x128 .f32) (x9 : Vec F S5x128 .f32) (x10 : Vec F S1x128 .f32) (x11 : Vec F S128x128 .f32) (x12 : Vec F S1x128 .f32) (x13 : Vec F S1x128 .f32) (x14 : Vec F S1x128 .f32) : Vec F S200x128 .f32 :=
  View.canon [⟨rS200x128, k0_pay18 (k0_pay5 (View.ld x10 rS1x128)) (k0_pay6 (View.ld x11 rS128x128)) (k0_pay7 (View.ld x12 rS1x128)) (k0_pay8 (View.ld x13 rS1x128)) (k0_pay9 (View.ld x14 rS1x128)) (View.ld x3 rS200x128) (k0_pay15 (k0_pay2 (View.ld x7 rS128x128)) (k0_pay3 (View.ld x8 rS128x128)) (k0_pay4 (View.ld x9 rS5x128)) (k0_pay10 (View.ld x2 rS10000x128) (View.ld x0 rS200x10000)) (View.ld x3 rS200x128) (k0_pay11 (View.ld x5 rS200x5)) (k0_pay12 (View.ld x5 rS200x5)) (k0_pay13 (View.ld x5 rS200x5))) (k0_pay16 (k0_pay11 (View.ld x5 rS200x5)) (k0_pay12 (View.ld x5 rS200x5)) (k0_pay13 (View.ld x5 rS200x5))) (k0_pay17 (k0_pay4 (View.ld x9 rS5x128)))⟩]

/-- The block of the lower half: one store over the whole buffer. -/
def blockBot (x0 : Vec F S200x10000 .f32) (x1 : Vec F S200x10000 .f32) (x2 : Vec F S10000x128 .f32) (x3 : Vec F S200x128 .f32) (x4 : Vec F S200x128 .f32) (x5 : Vec F S200x5 .f32) (x6 : Vec F S200x5 .f32) (x7 : Vec F S128x128 .f32) (x8 : Vec F S128x128 .f32) (x9 : Vec F S5x128 .f32) (x10 : Vec F S1x128 .f32) (x11 : Vec F S128x128 .f32) (x12 : Vec F S1x128 .f32) (x13 : Vec F S1x128 .f32) (x14 : Vec F S1x128 .f32) : Vec F S200x128 .f32 :=
  View.canon [⟨rS200x128, k0_pay1 (k0_pay5 (View.ld x10 rS1x128)) (k0_pay6 (View.ld x11 rS128x128)) (k0_pay7 (View.ld x12 rS1x128)) (k0_pay8 (View.ld x13 rS1x128)) (k0_pay9 (View.ld x14 rS1x128)) (View.ld x4 rS200x128) (k0_pay23 (k0_pay2 (View.ld x7 rS128x128)) (k0_pay3 (View.ld x8 rS128x128)) (k0_pay4 (View.ld x9 rS5x128)) (k0_pay19 (View.ld x2 rS10000x128) (View.ld x1 rS200x10000)) (View.ld x4 rS200x128) (k0_pay20 (View.ld x6 rS200x5)) (k0_pay21 (View.ld x6 rS200x5))) (k0_pay24 (k0_pay20 (View.ld x6 rS200x5)) (k0_pay21 (View.ld x6 rS200x5))) (k0_pay25 (k0_pay4 (View.ld x9 rS5x128)))⟩]

/-- A store through the whole-buffer rectangle covers the buffer. -/
theorem cover_whole (p0 : Vec F S200x128 .f32) (y : S200x128.Idx) :
    ∃ pc ∈ ([⟨rS200x128, p0⟩] : List (View.Piece (Elt F) S200x128 .f32)), y ∈ pc.1.set :=
  View.cover_of_tiled [⟨rS200x128, p0⟩] S200x128.size (by rfl) y

/-! ## The body's triple -/

set_option maxHeartbeats 4000000 in
/-- The body on whole staging buffers: inputs at `x0 … x14`, outputs at anything; it runs to the continuation with the
    inputs unchanged and the outputs at `blockTop` and `blockBot` of the inputs. -/
theorem sound_kernel (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S200x128 .f32) (harg4 : arg4.IsWhole) (arg5 : Memref sig .tc .vmem S200x128 .f32) (harg5 : arg5.IsWhole) (arg6 : Memref sig .tc .vmem S200x5 .f32) (harg6 : arg6.IsWhole) (arg7 : Memref sig .tc .vmem S200x5 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S5x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S200x128 .f32) (harg16 : arg16.IsWhole) (arg17 : Memref sig .tc .vmem S200x128 .f32) (harg17 : arg17.IsWhole)
    (x0 : Vec F S200x10000 .f32) (x1 : Vec F S200x10000 .f32) (x2 : Vec F S10000x128 .f32) (x3 : Vec F S200x128 .f32) (x4 : Vec F S200x128 .f32) (x5 : Vec F S200x5 .f32) (x6 : Vec F S200x5 .f32) (x7 : Vec F S128x128 .f32) (x8 : Vec F S128x128 .f32) (x9 : Vec F S5x128 .f32) (x10 : Vec F S1x128 .f32) (x11 : Vec F S128x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (blockTop x0 x1 x2 x3 x4 x5 x6 x7 x8 x9 x10 x11 x12 x13 x14) ∗ owns (c : Thread nD τ) arg17 fullShare (blockBot x0 x1 x2 x3 x4 x5 x6 x7 x8 x9 x10 x11 x12 x13 x14)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover_whole _)
  iexists _; isplitr
  swap; · iexact H16
  ipureintro
  exact View.read_writes_eq_canon _ _ _ (cover_whole _)

end Cert.Kernel.Hand

end
-- ==== Proof.KData.lean ====
/-
  The proof data of the one pipeline and its body obligation.

  The grid has 25 points. At point `t` the pipeline hands the body, for each of its fifteen input windows, the block of
  the window's array the index map names — rows `200·t …` of the upper half or `200·(t+25) …` of the lower half of the
  adjacency matrix, of the features and of the five physical scalars; the whole feature matrix and the weights at every
  point — and takes back the two output blocks, which it writes to rows `200·t …` of the two result arrays. The arrays the
  windows read are what the host operations before the call left (`V`). The adjacency matrix, the feature matrix and the
  stacked scalars are each read through several windows, so each window holds its array at a part of the full share.
-/
import proofs.«149784_g58171037057130_cont_9to1_m_483_14_alg».proof.Proof.KBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ)

/-! ## The arrays as the call finds them -/

/-- Core `c`'s buffers at launch, as a valuation; -/
abbrev V₀ (c : Dev nD) : Valuation τ sig (Elt F) := fun b => m (c, b)
/-- and when the call is entered: the seventeen host operations before it have run. -/
abbrev V (c : Dev nD) (b : Ref sig .tc) : Buf (Elt F) ((c : Thread nD τ).loc b) := StableHlo.after hostOps0 (V₀ m c) b

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After the body at point `t` each input buffer still holds its block and the two output buffers hold the two
    computed blocks; nothing is kept between points beyond the scoped rest and the generator register; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => blockTop (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => blockBot (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 17, h⟩ => absurd h (Nat.not_lt.2 (Nat.le_add_left _ _))
  Φ _ := Pipeline.ΦA spec0 c
  q w := match w with
    | ⟨0, _⟩ => fullShare.left
    | ⟨1, _⟩ => fullShare.right
    | ⟨2, _⟩ => fullShare.left
    | ⟨3, _⟩ => fullShare.right.left
    | ⟨4, _⟩ => fullShare.right.right
    | ⟨5, _⟩ => fullShare.left
    | ⟨6, _⟩ => fullShare.right
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = blockTop (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = blockBot (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- An input buffer holds its window's block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KArr.lean ====
/-
  The arrays behind the windows, counted once and counted per window.

  Seventeen windows read thirteen distinct arrays: the adjacency matrix feeds two windows, the feature matrix three and
  the stacked scalars two. Holding each of the thirteen buffers whole is the same as every window holding its array at
  its part of the full share — a half and a half, or a half and two quarters — and back: shares of one buffer at one
  contents add up.
-/
import proofs.«149784_g58171037057130_cont_9to1_m_483_14_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [BitOps F]

local notation "𝕄" => MT nD τ sig Unit (Elt F) ℕ (UR sig nD τ) ℕ

variable (m : (ℓ : Loc nD τ sig) → Buf (Elt F) ℓ)

abbrev arrList : List (Ref sig .tc) := [main_arg6, main_arg0, main_v5, main_v7, main_v9, main_v11, main_v13, main_v12, main_v14, main_v15, main_v16, main_v17_0, main_v17_1]

theorem arrImage : (Finset.univ.image (Pipeline.arrRef spec0)) = arrList.toFinset := by decide

theorem share0_0 (c : Dev nD) : (dats m 0 c).share 0 = fullShare.left := by
  unfold Dat.share; rw [if_neg (by decide)]; dsimp only [dats]
theorem share0_1 (c : Dev nD) : (dats m 0 c).share 1 = fullShare.right := by
  unfold Dat.share; rw [if_neg (by decide)]; dsimp only [dats]
theorem share0_2 (c : Dev nD) : (dats m 0 c).share 2 = fullShare.left := by
  unfold Dat.share; rw [if_neg (by decide)]; dsimp only [dats]
theorem share0_3 (c : Dev nD) : (dats m 0 c).share 3 = fullShare.right.left := by
  unfold Dat.share; rw [if_neg (by decide)]; dsimp only [dats]
theorem share0_4 (c : Dev nD) : (dats m 0 c).share 4 = fullShare.right.right := by
  unfold Dat.share; rw [if_neg (by decide)]; dsimp only [dats]
theorem share0_5 (c : Dev nD) : (dats m 0 c).share 5 = fullShare.left := by
  unfold Dat.share; rw [if_neg (by decide)]; dsimp only [dats]
theorem share0_6 (c : Dev nD) : (dats m 0 c).share 6 = fullShare.right := by
  unfold Dat.share; rw [if_neg (by decide)]; dsimp only [dats]
theorem share0_7 (c : Dev nD) : (dats m 0 c).share 7 = fullShare := by
  unfold Dat.share; rw [if_neg (by decide)]; dsimp only [dats]
theorem share0_8 (c : Dev nD) : (dats m 0 c).share 8 = fullShare := by
  unfold Dat.share; rw [if_neg (by decide)]; dsimp only [dats]
theorem share0_9 (c : Dev nD) : (dats m 0 c).share 9 = fullShare := by
  unfold Dat.share; rw [if_neg (by decide)]; dsimp only [dats]
theorem share0_10 (c : Dev nD) : (dats m 0 c).share 10 = fullShare := by
  unfold Dat.share; rw [if_neg (by decide)]; dsimp only [dats]
theorem share0_11 (c : Dev nD) : (dats m 0 c).share 11 = fullShare := by
  unfold Dat.share; rw [if_neg (by decide)]; dsimp only [dats]
theorem share0_12 (c : Dev nD) : (dats m 0 c).share 12 = fullShare := by
  unfold Dat.share; rw [if_neg (by decide)]; dsimp only [dats]
theorem share0_13 (c : Dev nD) : (dats m 0 c).share 13 = fullShare := by
  unfold Dat.share; rw [if_neg (by decide)]; dsimp only [dats]
theorem share0_14 (c : Dev nD) : (dats m 0 c).share 14 = fullShare := by
  unfold Dat.share; rw [if_neg (by decide)]; dsimp only [dats]
theorem share0_15 (c : Dev nD) : (dats m 0 c).share 15 = fullShare := by
  unfold Dat.share; rw [if_pos (by decide)]
theorem share0_16 (c : Dev nD) : (dats m 0 c).share 16 = fullShare := by
  unfold Dat.share; rw [if_pos (by decide)]

theorem mem_halves (q : PosShare TreeShare) : q ∈ PCS.op q.left q.right := by
  rw [PosShare.left_op_right]; exact Part.mem_some q

/-- The thirteen distinct buffers behind the seventeen windows, one by one. -/
theorem arrBufs_chain (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      = iprop(((c : Thread nD τ).loc main_arg6 ↦{fullShare} G main_arg6) ∗ ((c : Thread nD τ).loc main_arg0 ↦{fullShare} G main_arg0) ∗ ((c : Thread nD τ).loc main_v5 ↦{fullShare} G main_v5) ∗ ((c : Thread nD τ).loc main_v7 ↦{fullShare} G main_v7) ∗ ((c : Thread nD τ).loc main_v9 ↦{fullShare} G main_v9) ∗ ((c : Thread nD τ).loc main_v11 ↦{fullShare} G main_v11) ∗ ((c : Thread nD τ).loc main_v13 ↦{fullShare} G main_v13) ∗ ((c : Thread nD τ).loc main_v12 ↦{fullShare} G main_v12) ∗ ((c : Thread nD τ).loc main_v14 ↦{fullShare} G main_v14) ∗ ((c : Thread nD τ).loc main_v15 ↦{fullShare} G main_v15) ∗ ((c : Thread nD τ).loc main_v16 ↦{fullShare} G main_v16) ∗ ((c : Thread nD τ).loc main_v17_0 ↦{fullShare} G main_v17_0) ∗ ((c : Thread nD τ).loc main_v17_1 ↦{fullShare} G main_v17_1)) := by
  unfold Pipeline.arrBufs; exact bigSep_eq_bigSepL_of_eq arrList arrImage (by decide) _

/-- The seventeen windows' holdings, one by one, each at its share. -/
theorem arrays_chain (c : Dev nD) (G : (b : Ref sig .tc) → Buf (Elt F) ((c : Thread nD τ).loc b)) :
    ((dats m 0 c).arrays (fun w => G (Pipeline.arrRef spec0 w)) : sProp 𝕄)
      = iprop(((c : Thread nD τ).loc main_arg6 ↦{fullShare.left} G main_arg6) ∗ ((c : Thread nD τ).loc main_arg6 ↦{fullShare.right} G main_arg6) ∗ ((c : Thread nD τ).loc main_arg0 ↦{fullShare.left} G main_arg0) ∗ ((c : Thread nD τ).loc main_arg0 ↦{fullShare.right.left} G main_arg0) ∗ ((c : Thread nD τ).loc main_arg0 ↦{fullShare.right.right} G main_arg0) ∗ ((c : Thread nD τ).loc main_v5 ↦{fullShare.left} G main_v5) ∗ ((c : Thread nD τ).loc main_v5 ↦{fullShare.right} G main_v5) ∗ ((c : Thread nD τ).loc main_v7 ↦{fullShare} G main_v7) ∗ ((c : Thread nD τ).loc main_v9 ↦{fullShare} G main_v9) ∗ ((c : Thread nD τ).loc main_v11 ↦{fullShare} G main_v11) ∗ ((c : Thread nD τ).loc main_v13 ↦{fullShare} G main_v13) ∗ ((c : Thread nD τ).loc main_v12 ↦{fullShare} G main_v12) ∗ ((c : Thread nD τ).loc main_v14 ↦{fullShare} G main_v14) ∗ ((c : Thread nD τ).loc main_v15 ↦{fullShare} G main_v15) ∗ ((c : Thread nD τ).loc main_v16 ↦{fullShare} G main_v16) ∗ ((c : Thread nD τ).loc main_v17_0 ↦{fullShare} G main_v17_0) ∗ ((c : Thread nD τ).loc main_v17_1 ↦{fullShare} G main_v17_1)) := by
  unfold Dat.arrays
  rw [bigSep_W0]
  simp only [View.set_whole, share0_0, share0_1, share0_2, share0_3, share0_4, share0_5, share0_6, share0_7, share0_8, share0_9, share0_10, share0_11, share0_12, share0_13, share0_14, share0_15, share0_16]

/-- From the buffers to the windows' holdings: each shared buffer's full share is dealt to its windows. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec0 c G : sProp 𝕄) ⊢ (dats m 0 c).arrays (fun w => G (Pipeline.arrRef spec0 w)) := by
  rw [arrBufs_chain, arrays_chain]
  iintro ⟨H6, H0, H5, H7, H9, H11, H13, H12, H14, H15, H16, H170, H171⟩
  ihave H6' := (pointsTo_share (mem_halves fullShare)).1 $$ H6
  icases H6' with ⟨H6a, H6b⟩
  ihave H0' := (pointsTo_share (mem_halves fullShare)).1 $$ H0
  icases H0' with ⟨H0a, H0r⟩
  ihave H0'' := (pointsTo_share (mem_halves fullShare.right)).1 $$ H0r
  icases H0'' with ⟨H0b, H0c⟩
  ihave H5' := (pointsTo_share (mem_halves fullShare)).1 $$ H5
  icases H5' with ⟨H5a, H5b⟩
  isplitl [H6a]; · iexact H6a
  isplitl [H6b]; · iexact H6b
  isplitl [H0a]; · iexact H0a
  isplitl [H0b]; · iexact H0b
  isplitl [H0c]; · iexact H0c
  isplitl [H5a]; · iexact H5a
  isplitl [H5b]; · iexact H5b
  isplitl [H7]; · iexact H7
  isplitl [H9]; · iexact H9
  isplitl [H11]; · iexact H11
  isplitl [H13]; · iexact H13
  isplitl [H12]; · iexact H12
  isplitl [H14]; · iexact H14
  isplitl [H15]; · iexact H15
  isplitl [H16]; · iexact H16
  isplitl [H170]; · iexact H170
  iexact H171

/-- And back: the parts of a share are put together again. -/
theorem bufs_of_arrays (c : Dev nD) (G : (b : Ref sig .tc) → Buf (Elt F) ((c : Thread nD τ).loc b)) :
    ((dats m 0 c).arrays (fun w => G (Pipeline.arrRef spec0 w)) : sProp 𝕄) ⊢ Pipeline.arrBufs (Ix := Unit) (Name := ℕ) (U := UR sig nD τ) (Lvl := ℕ) spec0 c G := by
  rw [arrBufs_chain, arrays_chain]
  iintro ⟨H6a, H6b, H0a, H0b, H0c, H5a, H5b, H7, H9, H11, H13, H12, H14, H15, H16, H170, H171⟩
  ihave H6 := (pointsTo_share (mem_halves fullShare)).2 $$ [H6a H6b]
  · isplitl [H6a] <;> iassumption
  ihave H0r := (pointsTo_share (mem_halves fullShare.right)).2 $$ [H0b H0c]
  · isplitl [H0b] <;> iassumption
  ihave H0 := (pointsTo_share (mem_halves fullShare)).2 $$ [H0a H0r]
  · isplitl [H0a] <;> iassumption
  ihave H5 := (pointsTo_share (mem_halves fullShare)).2 $$ [H5a H5b]
  · isplitl [H5a] <;> iassumption
  isplitl [H6]; · iexact H6
  isplitl [H0]; · iexact H0
  isplitl [H5]; · iexact H5
  isplitl [H7]; · iexact H7
  isplitl [H9]; · iexact H9
  isplitl [H11]; · iexact H11
  isplitl [H13]; · iexact H13
  isplitl [H12]; · iexact H12
  isplitl [H14]; · iexact H14
  isplitl [H15]; · iexact H15
  isplitl [H16]; · iexact H16
  isplitl [H170]; · iexact H170
  iexact H171

end Cert.Kernel.Hand

end
-- ==== Proof.KRun.lean ====
/-
  The program's run.

  The program is seventeen host operations (the five scalars stacked into a [10000, 5] array, the first linear layer's
  matrix cut into three column ranges and each transposed, the second one transposed, the four vectors reshaped to
  rows), then the one pipelined call, then one host operation that stacks the call's two [5000, 128] results into the
  [10000, 128] answer. Between these three stretches a core holds all of its unscoped buffers whole, at contents that
  are computed here: as launched, after the first stretch, with the two results at what the pipeline wrote back, and
  after the last operation. Every weakly fair execution terminates; at the end the answer holds the stacked results and
  every argument what it held at launch.
-/
import proofs.«149784_g58171037057130_cont_9to1_m_483_14_alg».proof.Proof.KArr
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [BitOps F]

local notation "𝕄" => MT nD τ sig Unit (Elt F) ℕ (UR sig nD τ) ℕ

variable (m : (ℓ : Loc nD τ sig) → Buf (Elt F) ℓ)

variable (ρ : Dev nD → PrngReg)

/-! ## The buffers' contents between the three stretches -/

/-- After the seventeen host operations. -/
abbrev V1 (c : Dev nD) : Valuation τ sig (Elt F) := StableHlo.after hostOps0 (V₀ m c)
/-- What the pipeline's write-backs leave in the two result arrays. -/
def outTop (c : Dev nD) : Buf (Elt F) ((c : Thread nD τ).loc main_v17_0) := (dats m 0 c).arrAt 15 cfg0.N
def outBot (c : Dev nD) : Buf (Elt F) ((c : Thread nD τ).loc main_v17_1) := (dats m 0 c).arrAt 16 cfg0.N
/-- After the call: the two results changed, nothing else. -/
abbrev V2 (c : Dev nD) : Valuation τ sig (Elt F) :=
  Function.update (Function.update (V1 m c) main_v17_0 (outTop m c)) main_v17_1 (outBot m c)
/-- After the last host operation. -/
abbrev V3 (c : Dev nD) : Valuation τ sig (Elt F) := StableHlo.after hostOps1 (V2 m c)

/-! ## What the host stretches write -/

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_v8, main_v9, main_v10, main_v11, main_v12, main_v13, main_v14, main_v15, main_v16]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.reshape_writes, StableHlo.nary_writes, Finset.singleton_subset_iff, List.mem_toFinset]; (repeat' constructor) <;> exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v18]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.reshape_writes, StableHlo.nary_writes, Finset.singleton_subset_iff, List.mem_toFinset]; exact List.mem_map_of_mem (by decide))

theorem V1_of (c : Dev nD) (r : Ref sig .tc) (h : r ∉ hostOps0_W) : V1 m c r = V₀ m c r :=
  StableHlo.after_of_writes_sub hostOps0 _ hostOps0_writes h
theorem V2_of (c : Dev nD) (r : Ref sig .tc) (h : r ∉ ([main_v17_1, main_v17_0] : List (Ref sig .tc))) : V2 m c r = V1 m c r := by
  have h1 : (Proc.devRef .tc r : DevRef τ sig) ≠ Proc.devRef .tc main_v17_1 := StableHlo.devRef_ne_of_ne (List.ne_of_not_mem_cons h)
  have h0 : (Proc.devRef .tc r : DevRef τ sig) ≠ Proc.devRef .tc main_v17_0 := StableHlo.devRef_ne_of_ne (List.ne_of_not_mem_cons (List.not_mem_of_not_mem_cons h))
  simp only [V2, Function.update_of_ne h1, Function.update_of_ne h0]
theorem V3_of (c : Dev nD) (r : Ref sig .tc) (h : r ∉ hostOps1_W) : V3 m c r = V2 m c r :=
  StableHlo.after_of_writes_sub hostOps1 _ hostOps1_writes h

theorem V2_top (c : Dev nD) : V2 m c main_v17_0 = outTop m c := by
  have h : (Proc.devRef .tc main_v17_0 : DevRef τ sig) ≠ Proc.devRef .tc main_v17_1 := StableHlo.devRef_ne_of_ne (by decide)
  simp only [V2, Function.update_of_ne h, Function.update_self]
theorem V2_bot (c : Dev nD) : V2 m c main_v17_1 = outBot m c := by
  simp only [V2, Function.update_self]

/-- No stretch writes an argument. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl
theorem V3_main_arg2 (c : Dev nD) : V3 m c main_arg2 = m ((c : Thread nD τ).loc main_arg2) :=
  (V3_of m c main_arg2 (by decide)).trans <| (V2_of m c main_arg2 (by decide)).trans <| (V1_of m c main_arg2 (by decide)).trans rfl
theorem V3_main_arg3 (c : Dev nD) : V3 m c main_arg3 = m ((c : Thread nD τ).loc main_arg3) :=
  (V3_of m c main_arg3 (by decide)).trans <| (V2_of m c main_arg3 (by decide)).trans <| (V1_of m c main_arg3 (by decide)).trans rfl
theorem V3_main_arg4 (c : Dev nD) : V3 m c main_arg4 = m ((c : Thread nD τ).loc main_arg4) :=
  (V3_of m c main_arg4 (by decide)).trans <| (V2_of m c main_arg4 (by decide)).trans <| (V1_of m c main_arg4 (by decide)).trans rfl
theorem V3_main_arg5 (c : Dev nD) : V3 m c main_arg5 = m ((c : Thread nD τ).loc main_arg5) :=
  (V3_of m c main_arg5 (by decide)).trans <| (V2_of m c main_arg5 (by decide)).trans <| (V1_of m c main_arg5 (by decide)).trans rfl
theorem V3_main_arg6 (c : Dev nD) : V3 m c main_arg6 = m ((c : Thread nD τ).loc main_arg6) :=
  (V3_of m c main_arg6 (by decide)).trans <| (V2_of m c main_arg6 (by decide)).trans <| (V1_of m c main_arg6 (by decide)).trans rfl
theorem V3_main_arg7 (c : Dev nD) : V3 m c main_arg7 = m ((c : Thread nD τ).loc main_arg7) :=
  (V3_of m c main_arg7 (by decide)).trans <| (V2_of m c main_arg7 (by decide)).trans <| (V1_of m c main_arg7 (by decide)).trans rfl
theorem V3_main_arg8 (c : Dev nD) : V3 m c main_arg8 = m ((c : Thread nD τ).loc main_arg8) :=
  (V3_of m c main_arg8 (by decide)).trans <| (V2_of m c main_arg8 (by decide)).trans <| (V1_of m c main_arg8 (by decide)).trans rfl
theorem V3_main_arg9 (c : Dev nD) : V3 m c main_arg9 = m ((c : Thread nD τ).loc main_arg9) :=
  (V3_of m c main_arg9 (by decide)).trans <| (V2_of m c main_arg9 (by decide)).trans <| (V1_of m c main_arg9 (by decide)).trans rfl
theorem V3_main_arg10 (c : Dev nD) : V3 m c main_arg10 = m ((c : Thread nD τ).loc main_arg10) :=
  (V3_of m c main_arg10 (by decide)).trans <| (V2_of m c main_arg10 (by decide)).trans <| (V1_of m c main_arg10 (by decide)).trans rfl
theorem V3_main_arg11 (c : Dev nD) : V3 m c main_arg11 = m ((c : Thread nD τ).loc main_arg11) :=
  (V3_of m c main_arg11 (by decide)).trans <| (V2_of m c main_arg11 (by decide)).trans <| (V1_of m c main_arg11 (by decide)).trans rfl
theorem V3_main_arg12 (c : Dev nD) : V3 m c main_arg12 = m ((c : Thread nD τ).loc main_arg12) :=
  (V3_of m c main_arg12 (by decide)).trans <| (V2_of m c main_arg12 (by decide)).trans <| (V1_of m c main_arg12 (by decide)).trans rfl

/-! ## The three stretches as segments -/

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers: the generator register at some state, and the core owing nothing. -/
abbrev E (c : Dev nD) : sProp 𝕄 := iprop((∃ r, prngReg c r) ∗ ∃ W, owes (c : Thread nD τ) (0 : CellTallies nD τ sig Unit) W)

def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) E

def seg2 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) E

/-- The arrays at entry are the first stretch's valuation read at each window's array. -/
theorem arrAt_zero (c : Dev nD) : (fun w => (dats m 0 c).arrAt w 0) = fun w => V m c (Pipeline.arrRef spec0 w) :=
  funext fun w => A_eq m c w

/-! At exit an input window's array holds what it held at entry, which no later stretch changes. -/
set_option maxHeartbeats 1000000 in
theorem arrAt_last_0 (c : Dev nD) : (dats m 0 c).arrAt 0 cfg0.N = V2 m c main_arg6 :=
  (((dats m 0 c).arrAt_in 0 rfl _).trans (A_eq m c 0)).trans (V2_of m c main_arg6 (by decide)).symm
set_option maxHeartbeats 1000000 in
theorem arrAt_last_1 (c : Dev nD) : (dats m 0 c).arrAt 1 cfg0.N = V2 m c main_arg6 :=
  (((dats m 0 c).arrAt_in 1 rfl _).trans (A_eq m c 1)).trans (V2_of m c main_arg6 (by decide)).symm
set_option maxHeartbeats 1000000 in
theorem arrAt_last_2 (c : Dev nD) : (dats m 0 c).arrAt 2 cfg0.N = V2 m c main_arg0 :=
  (((dats m 0 c).arrAt_in 2 rfl _).trans (A_eq m c 2)).trans (V2_of m c main_arg0 (by decide)).symm
set_option maxHeartbeats 1000000 in
theorem arrAt_last_3 (c : Dev nD) : (dats m 0 c).arrAt 3 cfg0.N = V2 m c main_arg0 :=
  (((dats m 0 c).arrAt_in 3 rfl _).trans (A_eq m c 3)).trans (V2_of m c main_arg0 (by decide)).symm
set_option maxHeartbeats 1000000 in
theorem arrAt_last_4 (c : Dev nD) : (dats m 0 c).arrAt 4 cfg0.N = V2 m c main_arg0 :=
  (((dats m 0 c).arrAt_in 4 rfl _).trans (A_eq m c 4)).trans (V2_of m c main_arg0 (by decide)).symm
set_option maxHeartbeats 1000000 in
theorem arrAt_last_5 (c : Dev nD) : (dats m 0 c).arrAt 5 cfg0.N = V2 m c main_v5 :=
  (((dats m 0 c).arrAt_in 5 rfl _).trans (A_eq m c 5)).trans (V2_of m c main_v5 (by decide)).symm
set_option maxHeartbeats 1000000 in
theorem arrAt_last_6 (c : Dev nD) : (dats m 0 c).arrAt 6 cfg0.N = V2 m c main_v5 :=
  (((dats m 0 c).arrAt_in 6 rfl _).trans (A_eq m c 6)).trans (V2_of m c main_v5 (by decide)).symm
set_option maxHeartbeats 1000000 in
theorem arrAt_last_7 (c : Dev nD) : (dats m 0 c).arrAt 7 cfg0.N = V2 m c main_v7 :=
  (((dats m 0 c).arrAt_in 7 rfl _).trans (A_eq m c 7)).trans (V2_of m c main_v7 (by decide)).symm
set_option maxHeartbeats 1000000 in
theorem arrAt_last_8 (c : Dev nD) : (dats m 0 c).arrAt 8 cfg0.N = V2 m c main_v9 :=
  (((dats m 0 c).arrAt_in 8 rfl _).trans (A_eq m c 8)).trans (V2_of m c main_v9 (by decide)).symm
set_option maxHeartbeats 1000000 in
theorem arrAt_last_9 (c : Dev nD) : (dats m 0 c).arrAt 9 cfg0.N = V2 m c main_v11 :=
  (((dats m 0 c).arrAt_in 9 rfl _).trans (A_eq m c 9)).trans (V2_of m c main_v11 (by decide)).symm
set_option maxHeartbeats 1000000 in
theorem arrAt_last_10 (c : Dev nD) : (dats m 0 c).arrAt 10 cfg0.N = V2 m c main_v13 :=
  (((dats m 0 c).arrAt_in 10 rfl _).trans (A_eq m c 10)).trans (V2_of m c main_v13 (by decide)).symm
set_option maxHeartbeats 1000000 in
theorem arrAt_last_11 (c : Dev nD) : (dats m 0 c).arrAt 11 cfg0.N = V2 m c main_v12 :=
  (((dats m 0 c).arrAt_in 11 rfl _).trans (A_eq m c 11)).trans (V2_of m c main_v12 (by decide)).symm
set_option maxHeartbeats 1000000 in
theorem arrAt_last_12 (c : Dev nD) : (dats m 0 c).arrAt 12 cfg0.N = V2 m c main_v14 :=
  (((dats m 0 c).arrAt_in 12 rfl _).trans (A_eq m c 12)).trans (V2_of m c main_v14 (by decide)).symm
set_option maxHeartbeats 1000000 in
theorem arrAt_last_13 (c : Dev nD) : (dats m 0 c).arrAt 13 cfg0.N = V2 m c main_v15 :=
  (((dats m 0 c).arrAt_in 13 rfl _).trans (A_eq m c 13)).trans (V2_of m c main_v15 (by decide)).symm
set_option maxHeartbeats 1000000 in
theorem arrAt_last_14 (c : Dev nD) : (dats m 0 c).arrAt 14 cfg0.N = V2 m c main_v16 :=
  (((dats m 0 c).arrAt_in 14 rfl _).trans (A_eq m c 14)).trans (V2_of m c main_v16 (by decide)).symm

/-- The arrays at exit are the valuation after the call read at each window's array: an input array is never
    written, and the two results are the two updated entries. -/
theorem arrAt_last (c : Dev nD) : (fun w => (dats m 0 c).arrAt w cfg0.N) = fun w => (fun b : Ref sig .tc => V2 m c b) (Pipeline.arrRef spec0 w) := by
  funext w
  match w with
  | ⟨0, _⟩ => exact arrAt_last_0 m c
  | ⟨1, _⟩ => exact arrAt_last_1 m c
  | ⟨2, _⟩ => exact arrAt_last_2 m c
  | ⟨3, _⟩ => exact arrAt_last_3 m c
  | ⟨4, _⟩ => exact arrAt_last_4 m c
  | ⟨5, _⟩ => exact arrAt_last_5 m c
  | ⟨6, _⟩ => exact arrAt_last_6 m c
  | ⟨7, _⟩ => exact arrAt_last_7 m c
  | ⟨8, _⟩ => exact arrAt_last_8 m c
  | ⟨9, _⟩ => exact arrAt_last_9 m c
  | ⟨10, _⟩ => exact arrAt_last_10 m c
  | ⟨11, _⟩ => exact arrAt_last_11 m c
  | ⟨12, _⟩ => exact arrAt_last_12 m c
  | ⟨13, _⟩ => exact arrAt_last_13 m c
  | ⟨14, _⟩ => exact arrAt_last_14 m c
  | ⟨15, _⟩ => exact (V2_top m c).symm
  | ⟨16, _⟩ => exact (V2_bot m c).symm
  | ⟨_ + 17, h⟩ => exact absurd h (Nat.not_lt.2 (Nat.le_add_left _ _))

/-- The buffers that bypass the call hold the same after it. -/
theorem rest_V2 (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (fun b => V2 m c b) := by
  rw [unscopedRest0_eq, unscopedRest0_eq]
  simp only [V2_of m c main_arg1 (by decide), V2_of m c main_arg2 (by decide), V2_of m c main_arg3 (by decide), V2_of m c main_arg4 (by decide), V2_of m c main_arg5 (by decide), V2_of m c main_arg7 (by decide), V2_of m c main_arg8 (by decide), V2_of m c main_arg9 (by decide), V2_of m c main_arg10 (by decide), V2_of m c main_arg11 (by decide), V2_of m c main_arg12 (by decide), V2_of m c main_v0 (by decide), V2_of m c main_v1 (by decide), V2_of m c main_v2 (by decide), V2_of m c main_v3 (by decide), V2_of m c main_v4 (by decide), V2_of m c main_v6 (by decide), V2_of m c main_v8 (by decide), V2_of m c main_v10 (by decide), V2_of m c main_v18 (by decide)]

set_option backward.isDefEq.respectTransparency.types false in
/-- The call: entered from the buffers after the first stretch, left with the two results rewritten. -/
def reg0 : RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ E c)
  post c := iprop(StableHlo.held (c : Thread nD τ) (Pipeline.ucRefs τ sig) (V2 m c) ∗ E c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (V1 m c) = unscopedBufs c (V m c) from (Pipeline.unscopedBufs_held c _).symm,
      Pipeline.unscopedBufs_split₀ cfgs 0 winFacts₀0.arr_unscoped c (V m c), arrAt_zero]
    iintro ⟨⟨⟨Ha, Hr⟩, Hp, HO⟩, -, -⟩
    ihave Ha' := (arrays_of_bufs m c (V m c)) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (V2 m c) = unscopedBufs c (fun b => V2 m c b) from (Pipeline.unscopedBufs_held c _).symm,
      Pipeline.unscopedBufs_split₀ cfgs 0 winFacts₀0.arr_unscoped c (fun b => V2 m c b), arrAt_last, rest_V2]
    iintro ⟨Ha, HO, HY, HZ⟩
    ihave Ha' := (bufs_of_arrays m c (fun b => V2 m c b)) $$ Ha
    imodintro
    isplitl [Ha' HZ]
    · isplitl [Ha'] <;> iassumption
    isplitl [HY]; · iexact HY
    unfold Pipeline.Dat.owesAt Pipeline.owesWithin
    icases HO with ⟨%W, -, HO⟩; iexists W; iexact HO

abbrev segs : List (Seg (pcfgs (F := F)) adm (dats m) () defs₀ 𝒱₀ L lv) := [.host (seg0 m), .region (reg0 m), .host (seg2 m)]

/-- What the last memory is read to hold. -/
def QC : PUnit × MemSt nD τ sig (Elt F) → Prop := fun r =>
  ∀ c : Dev nD, r.2.mem ((c : Thread nD τ).loc main_v18) = V3 m c main_v18
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)

set_option backward.isDefEq.respectTransparency.types false in
/-- From any memory with zero counters every weakly fair execution terminates, the answer at the last valuation and
    every argument as launched. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg2 m) (reg0 m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ E c))
    (Tₙ := fun c => iprop(StableHlo.held (c : Thread nD τ) (Pipeline.ucRefs τ sig) (V3 m c) ∗ ∃ r, prngReg c r))
    (hch := ⟨fun _ => .rfl, fun _ => .rfl, fun _ => .rfl, fun c => by
      show (iprop(StableHlo.held (c : Thread nD τ) (Pipeline.ucRefs τ sig) (V3 m c) ∗ (∃ r, prngReg c r) ∗ ∃ W, owes (c : Thread nD τ) (0 : CellTallies nD τ sig Unit) W) : sProp 𝕄) ⊢ _
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v18) = V3 m c main_v18
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7)
      ∧ s.mem ((c : Thread nD τ).loc main_arg8) = m ((c : Thread nD τ).loc main_arg8)
      ∧ s.mem ((c : Thread nD τ).loc main_arg9) = m ((c : Thread nD τ).loc main_arg9)
      ∧ s.mem ((c : Thread nD τ).loc main_arg10) = m ((c : Thread nD τ).loc main_arg10)
      ∧ s.mem ((c : Thread nD τ).loc main_arg11) = m ((c : Thread nD τ).loc main_arg11)
      ∧ s.mem ((c : Thread nD τ).loc main_arg12) = m ((c : Thread nD τ).loc main_arg12))
    (hfin := fun c s' => by
      unfold StableHlo.held
      iintro ⟨⟨Hh, -⟩, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        have hm : ∀ r : Ref sig .tc, (Proc.devRef .tc r : DevRef τ sig).isScoped = false → s'.mem.mem ((c : Thread nD τ).1, Proc.devRef .tc r) = V3 m c r := fun r hr =>
          h (Proc.devRef .tc r) (Finset.mem_filter.mpr ⟨StableHlo.devRef_mem_tcRefs r, by rw [hr]; exact Bool.false_ne_true⟩)
        exact ⟨hm main_v18 (by decide), (hm main_arg0 (by decide)).trans (V3_main_arg0 m c), (hm main_arg1 (by decide)).trans (V3_main_arg1 m c), (hm main_arg2 (by decide)).trans (V3_main_arg2 m c), (hm main_arg3 (by decide)).trans (V3_main_arg3 m c), (hm main_arg4 (by decide)).trans (V3_main_arg4 m c), (hm main_arg5 (by decide)).trans (V3_main_arg5 m c), (hm main_arg6 (by decide)).trans (V3_main_arg6 m c), (hm main_arg7 (by decide)).trans (V3_main_arg7 m c), (hm main_arg8 (by decide)).trans (V3_main_arg8 m c), (hm main_arg9 (by decide)).trans (V3_main_arg9 m c), (hm main_arg10 (by decide)).trans (V3_main_arg10 m c), (hm main_arg11 (by decide)).trans (V3_main_arg11 m c), (hm main_arg12 (by decide)).trans (V3_main_arg12 m c)⟩
      · iexact HSI)
    (hQ := fun _ h => h)

end Cert.Kernel.Hand

end
-- ==== Proof.KBodyIdeal.lean ====
/-
  The kernel body at one grid point, as a statement about the seventeen staging buffers it is called with.

  The body reads its fifteen input buffers whole, computes two blocks of 200 rows — the node update of the rows of the
  upper half and of the lower half that the point owns — and overwrites its two output buffers whole with them. So if
  the input buffers hold `x0 … x14` and the output buffers anything, it terminates with the inputs as they were and the
  outputs holding `blockTop x0 … x14` and `blockBot x0 … x14`: the two stored values written over the loaded ones.
-/
import proofs.«149784_g58171037057130_cont_9to1_m_483_14_alg».proof.Proof.Gen.KernelIdeal.Launch
import proofs.«149784_g58171037057130_cont_9to1_m_483_14_alg».proof.Proof.Gen.KernelIdeal.Skeleton
import proofs.«149784_g58171037057130_cont_9to1_m_483_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rS200x10000 : Rect S200x10000 := Rect.unit (s := S200x10000) ![0, 0] S200x10000.size inb_S200x10000_S200x10000_0_0
abbrev rS10000x128 : Rect S10000x128 := Rect.unit (s := S10000x128) ![0, 0] S10000x128.size inb_S10000x128_S10000x128_0_0
abbrev rS200x128 : Rect S200x128 := Rect.unit (s := S200x128) ![0, 0] S200x128.size inb_S200x128_S200x128_0_0
abbrev rS200x5 : Rect S200x5 := Rect.unit (s := S200x5) ![0, 0] S200x5.size inb_S200x5_S200x5_0_0
abbrev rS128x128 : Rect S128x128 := Rect.unit (s := S128x128) ![0, 0] S128x128.size inb_S128x128_S128x128_0_0
abbrev rS5x128 : Rect S5x128 := Rect.unit (s := S5x128) ![0, 0] S5x128.size inb_S5x128_S5x128_0_0
abbrev rS1x128 : Rect S1x128 := Rect.unit (s := S1x128) ![0, 0] S1x128.size inb_S1x128_S1x128_0_0

/-! ## What the body leaves in its two output buffers -/

/-- The block of the upper half: one store over the whole buffer. -/
def blockTop (x0 : Vec F S200x10000 .f32) (x1 : Vec F S200x10000 .f32) (x2 : Vec F S10000x128 .f32) (x3 : Vec F S200x128 .f32) (x4 : Vec F S200x128 .f32) (x5 : Vec F S200x5 .f32) (x6 : Vec F S200x5 .f32) (x7 : Vec F S128x128 .f32) (x8 : Vec F S128x128 .f32) (x9 : Vec F S5x128 .f32) (x10 : Vec F S1x128 .f32) (x11 : Vec F S128x128 .f32) (x12 : Vec F S1x128 .f32) (x13 : Vec F S1x128 .f32) (x14 : Vec F S1x128 .f32) : Vec F S200x128 .f32 :=
  View.canon [⟨rS200x128, k0_pay16 (k0_pay6 (View.ld x11 rS128x128)) (k0_pay7 (View.ld x12 rS1x128)) (k0_pay8 (View.ld x13 rS1x128)) (k0_pay9 (View.ld x14 rS1x128)) (View.ld x3 rS200x128) (k0_pay14 (k0_pay2 (View.ld x7 rS128x128)) (k0_pay3 (View.ld x8 rS128x128)) (k0_pay4 (View.ld x9 rS5x128)) (k0_pay10 (View.ld x2 rS10000x128) (View.ld x0 rS200x10000)) (View.ld x3 rS200x128) (k0_pay12 (View.ld x5 rS200x5)) (k0_pay13 (View.ld x5 rS200x5)) (Scalar.ofBits .f32 0x322BCC77#32)) (k0_pay15 (k0_pay5 (View.ld x10 rS1x128)))⟩]

/-- The block of the lower half: one store over the whole buffer. -/
def blockBot (x0 : Vec F S200x10000 .f32) (x1 : Vec F S200x10000 .f32) (x2 : Vec F S10000x128 .f32) (x3 : Vec F S200x128 .f32) (x4 : Vec F S200x128 .f32) (x5 : Vec F S200x5 .f32) (x6 : Vec F S200x5 .f32) (x7 : Vec F S128x128 .f32) (x8 : Vec F S128x128 .f32) (x9 : Vec F S5x128 .f32) (x10 : Vec F S1x128 .f32) (x11 : Vec F S128x128 .f32) (x12 : Vec F S1x128 .f32) (x13 : Vec F S1x128 .f32) (x14 : Vec F S1x128 .f32) : Vec F S200x128 .f32 :=
  View.canon [⟨rS200x128, k0_pay1 (k0_pay5 (View.ld x10 rS1x128)) (k0_pay6 (View.ld x11 rS128x128)) (k0_pay7 (View.ld x12 rS1x128)) (k0_pay8 (View.ld x13 rS1x128)) (k0_pay9 (View.ld x14 rS1x128)) (View.ld x4 rS200x128) (k0_pay21 (k0_pay2 (View.ld x7 rS128x128)) (k0_pay3 (View.ld x8 rS128x128)) (k0_pay4 (View.ld x9 rS5x128)) (k0_pay17 (View.ld x2 rS10000x128) (View.ld x1 rS200x10000)) (View.ld x4 rS200x128) (k0_pay19 (View.ld x6 rS200x5)) (k0_pay20 (View.ld x6 rS200x5)))⟩]

/-- A store through the whole-buffer rectangle covers the buffer. -/
theorem cover_whole (p0 : Vec F S200x128 .f32) (y : S200x128.Idx) :
    ∃ pc ∈ ([⟨rS200x128, p0⟩] : List (View.Piece (Elt F) S200x128 .f32)), y ∈ pc.1.set :=
  View.cover_of_tiled [⟨rS200x128, p0⟩] S200x128.size (by rfl) y

/-! ## The body's triple -/

set_option maxHeartbeats 4000000 in
/-- The body on whole staging buffers: inputs at `x0 … x14`, outputs at anything; it runs to the continuation with the
    inputs unchanged and the outputs at `blockTop` and `blockBot` of the inputs. -/
theorem sound_kernel (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S200x128 .f32) (harg4 : arg4.IsWhole) (arg5 : Memref sig .tc .vmem S200x128 .f32) (harg5 : arg5.IsWhole) (arg6 : Memref sig .tc .vmem S200x5 .f32) (harg6 : arg6.IsWhole) (arg7 : Memref sig .tc .vmem S200x5 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S5x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S200x128 .f32) (harg16 : arg16.IsWhole) (arg17 : Memref sig .tc .vmem S200x128 .f32) (harg17 : arg17.IsWhole)
    (x0 : Vec F S200x10000 .f32) (x1 : Vec F S200x10000 .f32) (x2 : Vec F S10000x128 .f32) (x3 : Vec F S200x128 .f32) (x4 : Vec F S200x128 .f32) (x5 : Vec F S200x5 .f32) (x6 : Vec F S200x5 .f32) (x7 : Vec F S128x128 .f32) (x8 : Vec F S128x128 .f32) (x9 : Vec F S5x128 .f32) (x10 : Vec F S1x128 .f32) (x11 : Vec F S128x128 .f32) (x12 : Vec F S1x128 .f32) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (blockTop x0 x1 x2 x3 x4 x5 x6 x7 x8 x9 x10 x11 x12 x13 x14) ∗ owns (c : Thread nD τ) arg17 fullShare (blockBot x0 x1 x2 x3 x4 x5 x6 x7 x8 x9 x10 x11 x12 x13 x14)) -∗ K ⟨⟩))
      ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__fused_body_eq_skeleton]; unfold cc0__fused_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (cover_whole _)
  iexists _; isplitr
  swap; · iexact H16
  ipureintro
  exact View.read_writes_eq_canon _ _ _ (cover_whole _)

end Cert.KernelIdeal.Hand

end
-- ==== Proof.KDataIdeal.lean ====
/-
  The proof data of the one pipeline and its body obligation.

  The grid has 25 points. At point `t` the pipeline hands the body, for each of its fifteen input windows, the block of
  the window's array the index map names — rows `200·t …` of the upper half or `200·(t+25) …` of the lower half of the
  adjacency matrix, of the features and of the five physical scalars; the whole feature matrix and the weights at every
  point — and takes back the two output blocks, which it writes to rows `200·t …` of the two result arrays. The arrays the
  windows read are what the host operations before the call left (`V`). The adjacency matrix, the feature matrix and the
  stacked scalars are each read through several windows, so each window holds its array at a part of the full share.
-/
import proofs.«149784_g58171037057130_cont_9to1_m_483_14_alg».proof.Proof.KBodyIdeal
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the call finds them -/

/-- Core `c`'s buffers at launch, as a valuation; -/
abbrev V₀ (c : Dev nD) : Valuation τ sig (Elt F) := fun b => m (c, b)
/-- and when the call is entered: the seventeen host operations before it have run. -/
abbrev V (c : Dev nD) (b : Ref sig .tc) : Buf (Elt F) ((c : Thread nD τ).loc b) := StableHlo.after hostOps0 (V₀ m c) b

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After the body at point `t` each input buffer still holds its block and the two output buffers hold the two
    computed blocks; nothing is kept between points beyond the scoped rest and the generator register; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => blockTop (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => blockBot (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 17, h⟩ => absurd h (Nat.not_lt.2 (Nat.le_add_left _ _))
  Φ _ := Pipeline.ΦA spec0 c
  q w := match w with
    | ⟨0, _⟩ => fullShare.left
    | ⟨1, _⟩ => fullShare.right
    | ⟨2, _⟩ => fullShare.left
    | ⟨3, _⟩ => fullShare.right.left
    | ⟨4, _⟩ => fullShare.right.right
    | ⟨5, _⟩ => fullShare.left
    | ⟨6, _⟩ => fullShare.right
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨_ + 17, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = blockTop (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = blockBot (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- An input buffer holds its window's block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KArrIdeal.lean ====
/-
  The arrays behind the windows, counted once and counted per window.

  Seventeen windows read thirteen distinct arrays: the adjacency matrix feeds two windows, the feature matrix three and
  the stacked scalars two. Holding each of the thirteen buffers whole is the same as every window holding its array at
  its part of the full share — a half and a half, or a half and two quarters — and back: shares of one buffer at one
  contents add up.
-/
import proofs.«149784_g58171037057130_cont_9to1_m_483_14_alg».proof.Proof.KDataIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev arrList : List (Ref sig .tc) := [main_arg6, main_arg0, main_v5, main_v7, main_v9, main_v11, main_v13, main_v12, main_v14, main_v15, main_v16, main_v17_0, main_v17_1]

theorem arrImage : (Finset.univ.image (Pipeline.arrRef spec0)) = arrList.toFinset := by decide

theorem share0_0 (c : Dev nD) : (dats m 0 c).share 0 = fullShare.left := by
  unfold Dat.share; rw [if_neg (by decide)]; dsimp only [dats]
theorem share0_1 (c : Dev nD) : (dats m 0 c).share 1 = fullShare.right := by
  unfold Dat.share; rw [if_neg (by decide)]; dsimp only [dats]
theorem share0_2 (c : Dev nD) : (dats m 0 c).share 2 = fullShare.left := by
  unfold Dat.share; rw [if_neg (by decide)]; dsimp only [dats]
theorem share0_3 (c : Dev nD) : (dats m 0 c).share 3 = fullShare.right.left := by
  unfold Dat.share; rw [if_neg (by decide)]; dsimp only [dats]
theorem share0_4 (c : Dev nD) : (dats m 0 c).share 4 = fullShare.right.right := by
  unfold Dat.share; rw [if_neg (by decide)]; dsimp only [dats]
theorem share0_5 (c : Dev nD) : (dats m 0 c).share 5 = fullShare.left := by
  unfold Dat.share; rw [if_neg (by decide)]; dsimp only [dats]
theorem share0_6 (c : Dev nD) : (dats m 0 c).share 6 = fullShare.right := by
  unfold Dat.share; rw [if_neg (by decide)]; dsimp only [dats]
theorem share0_7 (c : Dev nD) : (dats m 0 c).share 7 = fullShare := by
  unfold Dat.share; rw [if_neg (by decide)]; dsimp only [dats]
theorem share0_8 (c : Dev nD) : (dats m 0 c).share 8 = fullShare := by
  unfold Dat.share; rw [if_neg (by decide)]; dsimp only [dats]
theorem share0_9 (c : Dev nD) : (dats m 0 c).share 9 = fullShare := by
  unfold Dat.share; rw [if_neg (by decide)]; dsimp only [dats]
theorem share0_10 (c : Dev nD) : (dats m 0 c).share 10 = fullShare := by
  unfold Dat.share; rw [if_neg (by decide)]; dsimp only [dats]
theorem share0_11 (c : Dev nD) : (dats m 0 c).share 11 = fullShare := by
  unfold Dat.share; rw [if_neg (by decide)]; dsimp only [dats]
theorem share0_12 (c : Dev nD) : (dats m 0 c).share 12 = fullShare := by
  unfold Dat.share; rw [if_neg (by decide)]; dsimp only [dats]
theorem share0_13 (c : Dev nD) : (dats m 0 c).share 13 = fullShare := by
  unfold Dat.share; rw [if_neg (by decide)]; dsimp only [dats]
theorem share0_14 (c : Dev nD) : (dats m 0 c).share 14 = fullShare := by
  unfold Dat.share; rw [if_neg (by decide)]; dsimp only [dats]
theorem share0_15 (c : Dev nD) : (dats m 0 c).share 15 = fullShare := by
  unfold Dat.share; rw [if_pos (by decide)]
theorem share0_16 (c : Dev nD) : (dats m 0 c).share 16 = fullShare := by
  unfold Dat.share; rw [if_pos (by decide)]

theorem mem_halves (q : PosShare TreeShare) : q ∈ PCS.op q.left q.right := by
  rw [PosShare.left_op_right]; exact Part.mem_some q

/-- The thirteen distinct buffers behind the seventeen windows, one by one. -/
theorem arrBufs_chain (c : Dev nD) (G : (b : Ref sig .tc) → Buf (Elt F) ((c : Thread nD τ).loc b)) :
    (Pipeline.arrBufs (Ix := Unit) (Name := ℕ) (U := UR sig nD τ) (Lvl := ℕ) spec0 c G : sProp 𝕄)
      = iprop(((c : Thread nD τ).loc main_arg6 ↦{fullShare} G main_arg6) ∗ ((c : Thread nD τ).loc main_arg0 ↦{fullShare} G main_arg0) ∗ ((c : Thread nD τ).loc main_v5 ↦{fullShare} G main_v5) ∗ ((c : Thread nD τ).loc main_v7 ↦{fullShare} G main_v7) ∗ ((c : Thread nD τ).loc main_v9 ↦{fullShare} G main_v9) ∗ ((c : Thread nD τ).loc main_v11 ↦{fullShare} G main_v11) ∗ ((c : Thread nD τ).loc main_v13 ↦{fullShare} G main_v13) ∗ ((c : Thread nD τ).loc main_v12 ↦{fullShare} G main_v12) ∗ ((c : Thread nD τ).loc main_v14 ↦{fullShare} G main_v14) ∗ ((c : Thread nD τ).loc main_v15 ↦{fullShare} G main_v15) ∗ ((c : Thread nD τ).loc main_v16 ↦{fullShare} G main_v16) ∗ ((c : Thread nD τ).loc main_v17_0 ↦{fullShare} G main_v17_0) ∗ ((c : Thread nD τ).loc main_v17_1 ↦{fullShare} G main_v17_1)) := by
  unfold Pipeline.arrBufs; exact bigSep_eq_bigSepL_of_eq arrList arrImage (by decide) _

/-- The seventeen windows' holdings, one by one, each at its share. -/
theorem arrays_chain (c : Dev nD) (G : (b : Ref sig .tc) → Buf (Elt F) ((c : Thread nD τ).loc b)) :
    ((dats m 0 c).arrays (fun w => G (Pipeline.arrRef spec0 w)) : sProp 𝕄)
      = iprop(((c : Thread nD τ).loc main_arg6 ↦{fullShare.left} G main_arg6) ∗ ((c : Thread nD τ).loc main_arg6 ↦{fullShare.right} G main_arg6) ∗ ((c : Thread nD τ).loc main_arg0 ↦{fullShare.left} G main_arg0) ∗ ((c : Thread nD τ).loc main_arg0 ↦{fullShare.right.left} G main_arg0) ∗ ((c : Thread nD τ).loc main_arg0 ↦{fullShare.right.right} G main_arg0) ∗ ((c : Thread nD τ).loc main_v5 ↦{fullShare.left} G main_v5) ∗ ((c : Thread nD τ).loc main_v5 ↦{fullShare.right} G main_v5) ∗ ((c : Thread nD τ).loc main_v7 ↦{fullShare} G main_v7) ∗ ((c : Thread nD τ).loc main_v9 ↦{fullShare} G main_v9) ∗ ((c : Thread nD τ).loc main_v11 ↦{fullShare} G main_v11) ∗ ((c : Thread nD τ).loc main_v13 ↦{fullShare} G main_v13) ∗ ((c : Thread nD τ).loc main_v12 ↦{fullShare} G main_v12) ∗ ((c : Thread nD τ).loc main_v14 ↦{fullShare} G main_v14) ∗ ((c : Thread nD τ).loc main_v15 ↦{fullShare} G main_v15) ∗ ((c : Thread nD τ).loc main_v16 ↦{fullShare} G main_v16) ∗ ((c : Thread nD τ).loc main_v17_0 ↦{fullShare} G main_v17_0) ∗ ((c : Thread nD τ).loc main_v17_1 ↦{fullShare} G main_v17_1)) := by
  unfold Dat.arrays
  rw [bigSep_W0]
  simp only [View.set_whole, share0_0, share0_1, share0_2, share0_3, share0_4, share0_5, share0_6, share0_7, share0_8, share0_9, share0_10, share0_11, share0_12, share0_13, share0_14, share0_15, share0_16]

/-- From the buffers to the windows' holdings: each shared buffer's full share is dealt to its windows. -/
theorem arrays_of_bufs (c : Dev nD) (G : (b : Ref sig .tc) → Buf (Elt F) ((c : Thread nD τ).loc b)) :
    (Pipeline.arrBufs (Ix := Unit) (Name := ℕ) (U := UR sig nD τ) (Lvl := ℕ) spec0 c G : sProp 𝕄) ⊢ (dats m 0 c).arrays (fun w => G (Pipeline.arrRef spec0 w)) := by
  rw [arrBufs_chain, arrays_chain]
  iintro ⟨H6, H0, H5, H7, H9, H11, H13, H12, H14, H15, H16, H170, H171⟩
  ihave H6' := (pointsTo_share (mem_halves fullShare)).1 $$ H6
  icases H6' with ⟨H6a, H6b⟩
  ihave H0' := (pointsTo_share (mem_halves fullShare)).1 $$ H0
  icases H0' with ⟨H0a, H0r⟩
  ihave H0'' := (pointsTo_share (mem_halves fullShare.right)).1 $$ H0r
  icases H0'' with ⟨H0b, H0c⟩
  ihave H5' := (pointsTo_share (mem_halves fullShare)).1 $$ H5
  icases H5' with ⟨H5a, H5b⟩
  isplitl [H6a]; · iexact H6a
  isplitl [H6b]; · iexact H6b
  isplitl [H0a]; · iexact H0a
  isplitl [H0b]; · iexact H0b
  isplitl [H0c]; · iexact H0c
  isplitl [H5a]; · iexact H5a
  isplitl [H5b]; · iexact H5b
  isplitl [H7]; · iexact H7
  isplitl [H9]; · iexact H9
  isplitl [H11]; · iexact H11
  isplitl [H13]; · iexact H13
  isplitl [H12]; · iexact H12
  isplitl [H14]; · iexact H14
  isplitl [H15]; · iexact H15
  isplitl [H16]; · iexact H16
  isplitl [H170]; · iexact H170
  iexact H171

/-- And back: the parts of a share are put together again. -/
theorem bufs_of_arrays (c : Dev nD) (G : (b : Ref sig .tc) → Buf (Elt F) ((c : Thread nD τ).loc b)) :
    ((dats m 0 c).arrays (fun w => G (Pipeline.arrRef spec0 w)) : sProp 𝕄) ⊢ Pipeline.arrBufs (Ix := Unit) (Name := ℕ) (U := UR sig nD τ) (Lvl := ℕ) spec0 c G := by
  rw [arrBufs_chain, arrays_chain]
  iintro ⟨H6a, H6b, H0a, H0b, H0c, H5a, H5b, H7, H9, H11, H13, H12, H14, H15, H16, H170, H171⟩
  ihave H6 := (pointsTo_share (mem_halves fullShare)).2 $$ [H6a H6b]
  · isplitl [H6a] <;> iassumption
  ihave H0r := (pointsTo_share (mem_halves fullShare.right)).2 $$ [H0b H0c]
  · isplitl [H0b] <;> iassumption
  ihave H0 := (pointsTo_share (mem_halves fullShare)).2 $$ [H0a H0r]
  · isplitl [H0a] <;> iassumption
  ihave H5 := (pointsTo_share (mem_halves fullShare)).2 $$ [H5a H5b]
  · isplitl [H5a] <;> iassumption
  isplitl [H6]; · iexact H6
  isplitl [H0]; · iexact H0
  isplitl [H5]; · iexact H5
  isplitl [H7]; · iexact H7
  isplitl [H9]; · iexact H9
  isplitl [H11]; · iexact H11
  isplitl [H13]; · iexact H13
  isplitl [H12]; · iexact H12
  isplitl [H14]; · iexact H14
  isplitl [H15]; · iexact H15
  isplitl [H16]; · iexact H16
  isplitl [H170]; · iexact H170
  iexact H171

end Cert.KernelIdeal.Hand

end
-- ==== Proof.KRunIdeal.lean ====
/-
  The program's run.

  The program is seventeen host operations (the five scalars stacked into a [10000, 5] array, the first linear layer's
  matrix cut into three column ranges and each transposed, the second one transposed, the four vectors reshaped to
  rows), then the one pipelined call, then one host operation that stacks the call's two [5000, 128] results into the
  [10000, 128] answer. Between these three stretches a core holds all of its unscoped buffers whole, at contents that
  are computed here: as launched, after the first stretch, with the two results at what the pipeline wrote back, and
  after the last operation. Every weakly fair execution terminates; at the end the answer holds the stacked results and
  every argument what it held at launch.
-/
import proofs.«149784_g58171037057130_cont_9to1_m_483_14_alg».proof.Proof.KArrIdeal
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The buffers' contents between the three stretches -/

/-- After the seventeen host operations. -/
abbrev V1 (c : Dev nD) : Valuation τ sig (Elt F) := StableHlo.after hostOps0 (V₀ m c)
/-- What the pipeline's write-backs leave in the two result arrays. -/
def outTop (c : Dev nD) : Buf (Elt F) ((c : Thread nD τ).loc main_v17_0) := (dats m 0 c).arrAt 15 cfg0.N
def outBot (c : Dev nD) : Buf (Elt F) ((c : Thread nD τ).loc main_v17_1) := (dats m 0 c).arrAt 16 cfg0.N
/-- After the call: the two results changed, nothing else. -/
abbrev V2 (c : Dev nD) : Valuation τ sig (Elt F) :=
  Function.update (Function.update (V1 m c) main_v17_0 (outTop m c)) main_v17_1 (outBot m c)
/-- After the last host operation. -/
abbrev V3 (c : Dev nD) : Valuation τ sig (Elt F) := StableHlo.after hostOps1 (V2 m c)

/-! ## What the host stretches write -/

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_v8, main_v9, main_v10, main_v11, main_v12, main_v13, main_v14, main_v15, main_v16]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.reshape_writes, StableHlo.nary_writes, Finset.singleton_subset_iff, List.mem_toFinset]; (repeat' constructor) <;> exact List.mem_map_of_mem (by decide))
theorem hostOps1_fresh : (hostOps1 : List (HloOp τ sig (Elt F))).Forall fun op => op.fresh = ∅ := by
  simp only [List.Forall]; repeat' constructor
abbrev hostOps1_W : List (Ref sig .tc) := [main_v18]
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.reshape_writes, StableHlo.nary_writes, Finset.singleton_subset_iff, List.mem_toFinset]; exact List.mem_map_of_mem (by decide))

theorem V1_of (c : Dev nD) (r : Ref sig .tc) (h : r ∉ hostOps0_W) : V1 m c r = V₀ m c r :=
  StableHlo.after_of_writes_sub hostOps0 _ hostOps0_writes h
theorem V2_of (c : Dev nD) (r : Ref sig .tc) (h : r ∉ ([main_v17_1, main_v17_0] : List (Ref sig .tc))) : V2 m c r = V1 m c r := by
  have h1 : (Proc.devRef .tc r : DevRef τ sig) ≠ Proc.devRef .tc main_v17_1 := StableHlo.devRef_ne_of_ne (List.ne_of_not_mem_cons h)
  have h0 : (Proc.devRef .tc r : DevRef τ sig) ≠ Proc.devRef .tc main_v17_0 := StableHlo.devRef_ne_of_ne (List.ne_of_not_mem_cons (List.not_mem_of_not_mem_cons h))
  simp only [V2, Function.update_of_ne h1, Function.update_of_ne h0]
theorem V3_of (c : Dev nD) (r : Ref sig .tc) (h : r ∉ hostOps1_W) : V3 m c r = V2 m c r :=
  StableHlo.after_of_writes_sub hostOps1 _ hostOps1_writes h

theorem V2_top (c : Dev nD) : V2 m c main_v17_0 = outTop m c := by
  have h : (Proc.devRef .tc main_v17_0 : DevRef τ sig) ≠ Proc.devRef .tc main_v17_1 := StableHlo.devRef_ne_of_ne (by decide)
  simp only [V2, Function.update_of_ne h, Function.update_self]
theorem V2_bot (c : Dev nD) : V2 m c main_v17_1 = outBot m c := by
  simp only [V2, Function.update_self]

/-- No stretch writes an argument. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl
theorem V3_main_arg2 (c : Dev nD) : V3 m c main_arg2 = m ((c : Thread nD τ).loc main_arg2) :=
  (V3_of m c main_arg2 (by decide)).trans <| (V2_of m c main_arg2 (by decide)).trans <| (V1_of m c main_arg2 (by decide)).trans rfl
theorem V3_main_arg3 (c : Dev nD) : V3 m c main_arg3 = m ((c : Thread nD τ).loc main_arg3) :=
  (V3_of m c main_arg3 (by decide)).trans <| (V2_of m c main_arg3 (by decide)).trans <| (V1_of m c main_arg3 (by decide)).trans rfl
theorem V3_main_arg4 (c : Dev nD) : V3 m c main_arg4 = m ((c : Thread nD τ).loc main_arg4) :=
  (V3_of m c main_arg4 (by decide)).trans <| (V2_of m c main_arg4 (by decide)).trans <| (V1_of m c main_arg4 (by decide)).trans rfl
theorem V3_main_arg5 (c : Dev nD) : V3 m c main_arg5 = m ((c : Thread nD τ).loc main_arg5) :=
  (V3_of m c main_arg5 (by decide)).trans <| (V2_of m c main_arg5 (by decide)).trans <| (V1_of m c main_arg5 (by decide)).trans rfl
theorem V3_main_arg6 (c : Dev nD) : V3 m c main_arg6 = m ((c : Thread nD τ).loc main_arg6) :=
  (V3_of m c main_arg6 (by decide)).trans <| (V2_of m c main_arg6 (by decide)).trans <| (V1_of m c main_arg6 (by decide)).trans rfl
theorem V3_main_arg7 (c : Dev nD) : V3 m c main_arg7 = m ((c : Thread nD τ).loc main_arg7) :=
  (V3_of m c main_arg7 (by decide)).trans <| (V2_of m c main_arg7 (by decide)).trans <| (V1_of m c main_arg7 (by decide)).trans rfl
theorem V3_main_arg8 (c : Dev nD) : V3 m c main_arg8 = m ((c : Thread nD τ).loc main_arg8) :=
  (V3_of m c main_arg8 (by decide)).trans <| (V2_of m c main_arg8 (by decide)).trans <| (V1_of m c main_arg8 (by decide)).trans rfl
theorem V3_main_arg9 (c : Dev nD) : V3 m c main_arg9 = m ((c : Thread nD τ).loc main_arg9) :=
  (V3_of m c main_arg9 (by decide)).trans <| (V2_of m c main_arg9 (by decide)).trans <| (V1_of m c main_arg9 (by decide)).trans rfl
theorem V3_main_arg10 (c : Dev nD) : V3 m c main_arg10 = m ((c : Thread nD τ).loc main_arg10) :=
  (V3_of m c main_arg10 (by decide)).trans <| (V2_of m c main_arg10 (by decide)).trans <| (V1_of m c main_arg10 (by decide)).trans rfl
theorem V3_main_arg11 (c : Dev nD) : V3 m c main_arg11 = m ((c : Thread nD τ).loc main_arg11) :=
  (V3_of m c main_arg11 (by decide)).trans <| (V2_of m c main_arg11 (by decide)).trans <| (V1_of m c main_arg11 (by decide)).trans rfl
theorem V3_main_arg12 (c : Dev nD) : V3 m c main_arg12 = m ((c : Thread nD τ).loc main_arg12) :=
  (V3_of m c main_arg12 (by decide)).trans <| (V2_of m c main_arg12 (by decide)).trans <| (V1_of m c main_arg12 (by decide)).trans rfl

/-! ## The three stretches as segments -/

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers: the generator register at some state, and the core owing nothing. -/
abbrev E (c : Dev nD) : sProp 𝕄 := iprop((∃ r, prngReg c r) ∗ ∃ W, owes (c : Thread nD τ) (0 : CellTallies nD τ sig Unit) W)

def seg0 : HostSeg (Ix := Unit) (Name := ℕ) (U := UR sig nD τ) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) E

def seg2 : HostSeg (Ix := Unit) (Name := ℕ) (U := UR sig nD τ) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) E

/-- The arrays at entry are the first stretch's valuation read at each window's array. -/
theorem arrAt_zero (c : Dev nD) : (fun w => (dats m 0 c).arrAt w 0) = fun w => V m c (Pipeline.arrRef spec0 w) :=
  funext fun w => A_eq m c w

/-! At exit an input window's array holds what it held at entry, which no later stretch changes. -/
set_option maxHeartbeats 1000000 in
theorem arrAt_last_0 (c : Dev nD) : (dats m 0 c).arrAt 0 cfg0.N = V2 m c main_arg6 :=
  (((dats m 0 c).arrAt_in 0 rfl _).trans (A_eq m c 0)).trans (V2_of m c main_arg6 (by decide)).symm
set_option maxHeartbeats 1000000 in
theorem arrAt_last_1 (c : Dev nD) : (dats m 0 c).arrAt 1 cfg0.N = V2 m c main_arg6 :=
  (((dats m 0 c).arrAt_in 1 rfl _).trans (A_eq m c 1)).trans (V2_of m c main_arg6 (by decide)).symm
set_option maxHeartbeats 1000000 in
theorem arrAt_last_2 (c : Dev nD) : (dats m 0 c).arrAt 2 cfg0.N = V2 m c main_arg0 :=
  (((dats m 0 c).arrAt_in 2 rfl _).trans (A_eq m c 2)).trans (V2_of m c main_arg0 (by decide)).symm
set_option maxHeartbeats 1000000 in
theorem arrAt_last_3 (c : Dev nD) : (dats m 0 c).arrAt 3 cfg0.N = V2 m c main_arg0 :=
  (((dats m 0 c).arrAt_in 3 rfl _).trans (A_eq m c 3)).trans (V2_of m c main_arg0 (by decide)).symm
set_option maxHeartbeats 1000000 in
theorem arrAt_last_4 (c : Dev nD) : (dats m 0 c).arrAt 4 cfg0.N = V2 m c main_arg0 :=
  (((dats m 0 c).arrAt_in 4 rfl _).trans (A_eq m c 4)).trans (V2_of m c main_arg0 (by decide)).symm
set_option maxHeartbeats 1000000 in
theorem arrAt_last_5 (c : Dev nD) : (dats m 0 c).arrAt 5 cfg0.N = V2 m c main_v5 :=
  (((dats m 0 c).arrAt_in 5 rfl _).trans (A_eq m c 5)).trans (V2_of m c main_v5 (by decide)).symm
set_option maxHeartbeats 1000000 in
theorem arrAt_last_6 (c : Dev nD) : (dats m 0 c).arrAt 6 cfg0.N = V2 m c main_v5 :=
  (((dats m 0 c).arrAt_in 6 rfl _).trans (A_eq m c 6)).trans (V2_of m c main_v5 (by decide)).symm
set_option maxHeartbeats 1000000 in
theorem arrAt_last_7 (c : Dev nD) : (dats m 0 c).arrAt 7 cfg0.N = V2 m c main_v7 :=
  (((dats m 0 c).arrAt_in 7 rfl _).trans (A_eq m c 7)).trans (V2_of m c main_v7 (by decide)).symm
set_option maxHeartbeats 1000000 in
theorem arrAt_last_8 (c : Dev nD) : (dats m 0 c).arrAt 8 cfg0.N = V2 m c main_v9 :=
  (((dats m 0 c).arrAt_in 8 rfl _).trans (A_eq m c 8)).trans (V2_of m c main_v9 (by decide)).symm
set_option maxHeartbeats 1000000 in
theorem arrAt_last_9 (c : Dev nD) : (dats m 0 c).arrAt 9 cfg0.N = V2 m c main_v11 :=
  (((dats m 0 c).arrAt_in 9 rfl _).trans (A_eq m c 9)).trans (V2_of m c main_v11 (by decide)).symm
set_option maxHeartbeats 1000000 in
theorem arrAt_last_10 (c : Dev nD) : (dats m 0 c).arrAt 10 cfg0.N = V2 m c main_v13 :=
  (((dats m 0 c).arrAt_in 10 rfl _).trans (A_eq m c 10)).trans (V2_of m c main_v13 (by decide)).symm
set_option maxHeartbeats 1000000 in
theorem arrAt_last_11 (c : Dev nD) : (dats m 0 c).arrAt 11 cfg0.N = V2 m c main_v12 :=
  (((dats m 0 c).arrAt_in 11 rfl _).trans (A_eq m c 11)).trans (V2_of m c main_v12 (by decide)).symm
set_option maxHeartbeats 1000000 in
theorem arrAt_last_12 (c : Dev nD) : (dats m 0 c).arrAt 12 cfg0.N = V2 m c main_v14 :=
  (((dats m 0 c).arrAt_in 12 rfl _).trans (A_eq m c 12)).trans (V2_of m c main_v14 (by decide)).symm
set_option maxHeartbeats 1000000 in
theorem arrAt_last_13 (c : Dev nD) : (dats m 0 c).arrAt 13 cfg0.N = V2 m c main_v15 :=
  (((dats m 0 c).arrAt_in 13 rfl _).trans (A_eq m c 13)).trans (V2_of m c main_v15 (by decide)).symm
set_option maxHeartbeats 1000000 in
theorem arrAt_last_14 (c : Dev nD) : (dats m 0 c).arrAt 14 cfg0.N = V2 m c main_v16 :=
  (((dats m 0 c).arrAt_in 14 rfl _).trans (A_eq m c 14)).trans (V2_of m c main_v16 (by decide)).symm

/-- The arrays at exit are the valuation after the call read at each window's array: an input array is never
    written, and the two results are the two updated entries. -/
theorem arrAt_last (c : Dev nD) : (fun w => (dats m 0 c).arrAt w cfg0.N) = fun w => (fun b : Ref sig .tc => V2 m c b) (Pipeline.arrRef spec0 w) := by
  funext w
  match w with
  | ⟨0, _⟩ => exact arrAt_last_0 m c
  | ⟨1, _⟩ => exact arrAt_last_1 m c
  | ⟨2, _⟩ => exact arrAt_last_2 m c
  | ⟨3, _⟩ => exact arrAt_last_3 m c
  | ⟨4, _⟩ => exact arrAt_last_4 m c
  | ⟨5, _⟩ => exact arrAt_last_5 m c
  | ⟨6, _⟩ => exact arrAt_last_6 m c
  | ⟨7, _⟩ => exact arrAt_last_7 m c
  | ⟨8, _⟩ => exact arrAt_last_8 m c
  | ⟨9, _⟩ => exact arrAt_last_9 m c
  | ⟨10, _⟩ => exact arrAt_last_10 m c
  | ⟨11, _⟩ => exact arrAt_last_11 m c
  | ⟨12, _⟩ => exact arrAt_last_12 m c
  | ⟨13, _⟩ => exact arrAt_last_13 m c
  | ⟨14, _⟩ => exact arrAt_last_14 m c
  | ⟨15, _⟩ => exact (V2_top m c).symm
  | ⟨16, _⟩ => exact (V2_bot m c).symm
  | ⟨_ + 17, h⟩ => exact absurd h (Nat.not_lt.2 (Nat.le_add_left _ _))

/-- The buffers that bypass the call hold the same after it. -/
theorem rest_V2 (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (fun b => V2 m c b) := by
  rw [unscopedRest0_eq, unscopedRest0_eq]
  simp only [V2_of m c main_arg1 (by decide), V2_of m c main_arg2 (by decide), V2_of m c main_arg3 (by decide), V2_of m c main_arg4 (by decide), V2_of m c main_arg5 (by decide), V2_of m c main_arg7 (by decide), V2_of m c main_arg8 (by decide), V2_of m c main_arg9 (by decide), V2_of m c main_arg10 (by decide), V2_of m c main_arg11 (by decide), V2_of m c main_arg12 (by decide), V2_of m c main_v0 (by decide), V2_of m c main_v1 (by decide), V2_of m c main_v2 (by decide), V2_of m c main_v3 (by decide), V2_of m c main_v4 (by decide), V2_of m c main_v6 (by decide), V2_of m c main_v8 (by decide), V2_of m c main_v10 (by decide), V2_of m c main_v18 (by decide)]

set_option backward.isDefEq.respectTransparency.types false in
/-- The call: entered from the buffers after the first stretch, left with the two results rewritten. -/
def reg0 : RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ E c)
  post c := iprop(StableHlo.held (c : Thread nD τ) (Pipeline.ucRefs τ sig) (V2 m c) ∗ E c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (V1 m c) = unscopedBufs c (V m c) from (Pipeline.unscopedBufs_held c _).symm,
      Pipeline.unscopedBufs_split₀ cfgs 0 winFacts₀0.arr_unscoped c (V m c), arrAt_zero]
    iintro ⟨⟨⟨Ha, Hr⟩, Hp, HO⟩, -, -⟩
    ihave Ha' := (arrays_of_bufs m c (V m c)) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hr
  hin c := by
    rw [show (dats m 0 c).Φ 0 = Pipeline.ΦA spec0 c from rfl]; unfold Pipeline.ΦA
    iintro ⟨Hp, -, Hr⟩
    isplitl [Hr] <;> iassumption
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (V2 m c) = unscopedBufs c (fun b => V2 m c b) from (Pipeline.unscopedBufs_held c _).symm,
      Pipeline.unscopedBufs_split₀ cfgs 0 winFacts₀0.arr_unscoped c (fun b => V2 m c b), arrAt_last, rest_V2]
    iintro ⟨Ha, HO, HY, HZ⟩
    ihave Ha' := (bufs_of_arrays m c (fun b => V2 m c b)) $$ Ha
    imodintro
    isplitl [Ha' HZ]
    · isplitl [Ha'] <;> iassumption
    isplitl [HY]; · iexact HY
    unfold Pipeline.Dat.owesAt Pipeline.owesWithin
    icases HO with ⟨%W, -, HO⟩; iexists W; iexact HO

abbrev segs : List (Seg (pcfgs (F := F)) adm (dats m) () defs₀ 𝒱₀ L lv) := [.host (seg0 m), .region (reg0 m), .host (seg2 m)]

/-- What the last memory is read to hold. -/
def QC : PUnit × MemSt nD τ sig (Elt F) → Prop := fun r =>
  ∀ c : Dev nD, r.2.mem ((c : Thread nD τ).loc main_v18) = V3 m c main_v18
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)

set_option backward.isDefEq.respectTransparency.types false in
/-- From any memory with zero counters every weakly fair execution terminates, the answer at the last valuation and
    every argument as launched. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg2 m) (reg0 m) rfl rfl c])
    (by simp only [Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ E c))
    (Tₙ := fun c => iprop(StableHlo.held (c : Thread nD τ) (Pipeline.ucRefs τ sig) (V3 m c) ∗ ∃ r, prngReg c r))
    (hch := ⟨fun _ => .rfl, fun _ => .rfl, fun _ => .rfl, fun c => by
      show (iprop(StableHlo.held (c : Thread nD τ) (Pipeline.ucRefs τ sig) (V3 m c) ∗ (∃ r, prngReg c r) ∗ ∃ W, owes (c : Thread nD τ) (0 : CellTallies nD τ sig Unit) W) : sProp 𝕄) ⊢ _
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v18) = V3 m c main_v18
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7)
      ∧ s.mem ((c : Thread nD τ).loc main_arg8) = m ((c : Thread nD τ).loc main_arg8)
      ∧ s.mem ((c : Thread nD τ).loc main_arg9) = m ((c : Thread nD τ).loc main_arg9)
      ∧ s.mem ((c : Thread nD τ).loc main_arg10) = m ((c : Thread nD τ).loc main_arg10)
      ∧ s.mem ((c : Thread nD τ).loc main_arg11) = m ((c : Thread nD τ).loc main_arg11)
      ∧ s.mem ((c : Thread nD τ).loc main_arg12) = m ((c : Thread nD τ).loc main_arg12))
    (hfin := fun c s' => by
      unfold StableHlo.held
      iintro ⟨⟨Hh, -⟩, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        have hm : ∀ r : Ref sig .tc, (Proc.devRef .tc r : DevRef τ sig).isScoped = false → s'.mem.mem ((c : Thread nD τ).1, Proc.devRef .tc r) = V3 m c r := fun r hr =>
          h (Proc.devRef .tc r) (Finset.mem_filter.mpr ⟨StableHlo.devRef_mem_tcRefs r, by rw [hr]; exact Bool.false_ne_true⟩)
        exact ⟨hm main_v18 (by decide), (hm main_arg0 (by decide)).trans (V3_main_arg0 m c), (hm main_arg1 (by decide)).trans (V3_main_arg1 m c), (hm main_arg2 (by decide)).trans (V3_main_arg2 m c), (hm main_arg3 (by decide)).trans (V3_main_arg3 m c), (hm main_arg4 (by decide)).trans (V3_main_arg4 m c), (hm main_arg5 (by decide)).trans (V3_main_arg5 m c), (hm main_arg6 (by decide)).trans (V3_main_arg6 m c), (hm main_arg7 (by decide)).trans (V3_main_arg7 m c), (hm main_arg8 (by decide)).trans (V3_main_arg8 m c), (hm main_arg9 (by decide)).trans (V3_main_arg9 m c), (hm main_arg10 (by decide)).trans (V3_main_arg10 m c), (hm main_arg11 (by decide)).trans (V3_main_arg11 m c), (hm main_arg12 (by decide)).trans (V3_main_arg12 m c)⟩
      · iexact HSI)
    (hQ := fun _ h => h)

end Cert.KernelIdeal.Hand

end
-- ==== Proof.KGeomIdeal.lean ====
/-
  The geometry of the one pipeline: at point t each window's block, read at an index, is its array at the index the
  block's offset names — rows 200·t … of the upper half, rows 5000 + 200·t … of the lower half, or the whole array —,
  and the 25 blocks of each result array cover it.
-/
import proofs.«149784_g58171037057130_cont_9to1_m_483_14_alg».proof.Proof.KDataIdeal
import Idealize.ShloMosaic.Lib.Pipeline.Value
import Idealize.ShloMosaic.Lib.ValueIdx

set_option maxRecDepth 16384

noncomputable section

namespace Cert.KernelIdeal.Geom

open Cert.KernelIdeal Cert.KernelIdeal.Gen Cert.KernelIdeal.Hand
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The grid has 25 points. -/
theorem N25 (t : Fin cfg0.N) : t.val < 25 := t.isLt

/-- A row of an upper block is a row of the array. -/
theorem ltTop (t : Fin cfg0.N) (p : Fin 200) : t.val * 200 + p.val < 10000 := by
  have := N25 t; have := p.isLt; omega
/-- A row of a lower block is a row of the array. -/
theorem ltBot (t : Fin cfg0.N) (p : Fin 200) : 5000 + t.val * 200 + p.val < 10000 := by
  have := N25 t; have := p.isLt; omega
/-- A row of a result block is a row of the half array. -/
theorem lt5000 (t : Fin cfg0.N) (p : Fin 200) : t.val * 200 + p.val < 5000 := by
  have := N25 t; have := p.isLt; omega

/-! ## The block indices, decided over the grid -/

/-- Window 0's block index at point t. -/
theorem idx0 : ∀ t : Fin cfg0.N, win0_0.index t (0 : Fin 2) = t.val ∧ win0_0.index t (1 : Fin 2) = 0 :=
  (by decide +kernel : ∀ t : Fin grid0.N, _)
/-- Window 1's block index at point t. -/
theorem idx1 : ∀ t : Fin cfg0.N, win0_1.index t (0 : Fin 2) = t.val + 25 ∧ win0_1.index t (1 : Fin 2) = 0 :=
  (by decide +kernel : ∀ t : Fin grid0.N, _)
/-- Window 2's block index at point t. -/
theorem idx2 : ∀ t : Fin cfg0.N, win0_2.index t (0 : Fin 2) = 0 ∧ win0_2.index t (1 : Fin 2) = 0 :=
  (by decide +kernel : ∀ t : Fin grid0.N, _)
/-- Window 3's block index at point t. -/
theorem idx3 : ∀ t : Fin cfg0.N, win0_3.index t (0 : Fin 2) = t.val ∧ win0_3.index t (1 : Fin 2) = 0 :=
  (by decide +kernel : ∀ t : Fin grid0.N, _)
/-- Window 4's block index at point t. -/
theorem idx4 : ∀ t : Fin cfg0.N, win0_4.index t (0 : Fin 2) = t.val + 25 ∧ win0_4.index t (1 : Fin 2) = 0 :=
  (by decide +kernel : ∀ t : Fin grid0.N, _)
/-- Window 5's block index at point t. -/
theorem idx5 : ∀ t : Fin cfg0.N, win0_5.index t (0 : Fin 2) = t.val ∧ win0_5.index t (1 : Fin 2) = 0 :=
  (by decide +kernel : ∀ t : Fin grid0.N, _)
/-- Window 6's block index at point t. -/
theorem idx6 : ∀ t : Fin cfg0.N, win0_6.index t (0 : Fin 2) = t.val + 25 ∧ win0_6.index t (1 : Fin 2) = 0 :=
  (by decide +kernel : ∀ t : Fin grid0.N, _)
/-- Window 7's block index at point t. -/
theorem idx7 : ∀ t : Fin cfg0.N, win0_7.index t (0 : Fin 2) = 0 ∧ win0_7.index t (1 : Fin 2) = 0 :=
  (by decide +kernel : ∀ t : Fin grid0.N, _)
/-- Window 8's block index at point t. -/
theorem idx8 : ∀ t : Fin cfg0.N, win0_8.index t (0 : Fin 2) = 0 ∧ win0_8.index t (1 : Fin 2) = 0 :=
  (by decide +kernel : ∀ t : Fin grid0.N, _)
/-- Window 9's block index at point t. -/
theorem idx9 : ∀ t : Fin cfg0.N, win0_9.index t (0 : Fin 2) = 0 ∧ win0_9.index t (1 : Fin 2) = 0 :=
  (by decide +kernel : ∀ t : Fin grid0.N, _)
/-- Window 10's block index at point t. -/
theorem idx10 : ∀ t : Fin cfg0.N, win0_10.index t (0 : Fin 2) = 0 ∧ win0_10.index t (1 : Fin 2) = 0 :=
  (by decide +kernel : ∀ t : Fin grid0.N, _)
/-- Window 11's block index at point t. -/
theorem idx11 : ∀ t : Fin cfg0.N, win0_11.index t (0 : Fin 2) = 0 ∧ win0_11.index t (1 : Fin 2) = 0 :=
  (by decide +kernel : ∀ t : Fin grid0.N, _)
/-- Window 12's block index at point t. -/
theorem idx12 : ∀ t : Fin cfg0.N, win0_12.index t (0 : Fin 2) = 0 ∧ win0_12.index t (1 : Fin 2) = 0 :=
  (by decide +kernel : ∀ t : Fin grid0.N, _)
/-- Window 13's block index at point t. -/
theorem idx13 : ∀ t : Fin cfg0.N, win0_13.index t (0 : Fin 2) = 0 ∧ win0_13.index t (1 : Fin 2) = 0 :=
  (by decide +kernel : ∀ t : Fin grid0.N, _)
/-- Window 14's block index at point t. -/
theorem idx14 : ∀ t : Fin cfg0.N, win0_14.index t (0 : Fin 2) = 0 ∧ win0_14.index t (1 : Fin 2) = 0 :=
  (by decide +kernel : ∀ t : Fin grid0.N, _)
/-- Window 15's block index at point t. -/
theorem idx15 : ∀ t : Fin cfg0.N, win0_15.index t (0 : Fin 2) = t.val ∧ win0_15.index t (1 : Fin 2) = 0 :=
  (by decide +kernel : ∀ t : Fin grid0.N, _)
/-- Window 16's block index at point t. -/
theorem idx16 : ∀ t : Fin cfg0.N, win0_16.index t (0 : Fin 2) = t.val ∧ win0_16.index t (1 : Fin 2) = 0 :=
  (by decide +kernel : ∀ t : Fin grid0.N, _)

/-! ## The input blocks read at an index -/

/-- Window 0's block at point t is rows 200·t … of its array. -/
theorem blk0 (c : Dev nD) (t : Fin cfg0.N) (p : Fin 200) (j : Fin 10000) :
    iblk m c 0 t (ValueIdx.ix2 p j) = V m c main_arg6 (ValueIdx.ix2 ⟨t.val * 200 + p.val, ltTop t p⟩ j) := by
  show V m c main_arg6 (((cfg0.win 0).blk t).view.emb (ValueIdx.ix2 p j)) = _
  refine congrArg _ (funext fun d => Fin.ext ?_)
  obtain ⟨e0, e1⟩ := idx0 t
  match d with
  | ⟨0, _⟩ => show win0_0.index t (0 : Fin 2) * 200 + 1 * p.val = t.val * 200 + p.val; omega
  | ⟨1, _⟩ => show win0_0.index t (1 : Fin 2) * 10000 + 1 * j.val = j.val; omega

/-- Window 1's block at point t is rows 5000 + 200·t … of its array. -/
theorem blk1 (c : Dev nD) (t : Fin cfg0.N) (p : Fin 200) (j : Fin 10000) :
    iblk m c 1 t (ValueIdx.ix2 p j) = V m c main_arg6 (ValueIdx.ix2 ⟨5000 + t.val * 200 + p.val, ltBot t p⟩ j) := by
  show V m c main_arg6 (((cfg0.win 1).blk t).view.emb (ValueIdx.ix2 p j)) = _
  refine congrArg _ (funext fun d => Fin.ext ?_)
  obtain ⟨e0, e1⟩ := idx1 t
  match d with
  | ⟨0, _⟩ => show win0_1.index t (0 : Fin 2) * 200 + 1 * p.val = 5000 + t.val * 200 + p.val; omega
  | ⟨1, _⟩ => show win0_1.index t (1 : Fin 2) * 10000 + 1 * j.val = j.val; omega

/-- Window 2 holds its whole array at every point. -/
theorem blk2 (c : Dev nD) (t : Fin cfg0.N) (a : Fin 10000) (b : Fin 128) :
    iblk m c 2 t (ValueIdx.ix2 a b) = V m c main_arg0 (ValueIdx.ix2 a b) := by
  show V m c main_arg0 (((cfg0.win 2).blk t).view.emb (ValueIdx.ix2 a b)) = _
  refine congrArg _ (funext fun d => Fin.ext ?_)
  obtain ⟨e0, e1⟩ := idx2 t
  match d with
  | ⟨0, _⟩ => show win0_2.index t (0 : Fin 2) * 10000 + 1 * a.val = a.val; omega
  | ⟨1, _⟩ => show win0_2.index t (1 : Fin 2) * 128 + 1 * b.val = b.val; omega

/-- Window 3's block at point t is rows 200·t … of its array. -/
theorem blk3 (c : Dev nD) (t : Fin cfg0.N) (p : Fin 200) (j : Fin 128) :
    iblk m c 3 t (ValueIdx.ix2 p j) = V m c main_arg0 (ValueIdx.ix2 ⟨t.val * 200 + p.val, ltTop t p⟩ j) := by
  show V m c main_arg0 (((cfg0.win 3).blk t).view.emb (ValueIdx.ix2 p j)) = _
  refine congrArg _ (funext fun d => Fin.ext ?_)
  obtain ⟨e0, e1⟩ := idx3 t
  match d with
  | ⟨0, _⟩ => show win0_3.index t (0 : Fin 2) * 200 + 1 * p.val = t.val * 200 + p.val; omega
  | ⟨1, _⟩ => show win0_3.index t (1 : Fin 2) * 128 + 1 * j.val = j.val; omega

/-- Window 4's block at point t is rows 5000 + 200·t … of its array. -/
theorem blk4 (c : Dev nD) (t : Fin cfg0.N) (p : Fin 200) (j : Fin 128) :
    iblk m c 4 t (ValueIdx.ix2 p j) = V m c main_arg0 (ValueIdx.ix2 ⟨5000 + t.val * 200 + p.val, ltBot t p⟩ j) := by
  show V m c main_arg0 (((cfg0.win 4).blk t).view.emb (ValueIdx.ix2 p j)) = _
  refine congrArg _ (funext fun d => Fin.ext ?_)
  obtain ⟨e0, e1⟩ := idx4 t
  match d with
  | ⟨0, _⟩ => show win0_4.index t (0 : Fin 2) * 200 + 1 * p.val = 5000 + t.val * 200 + p.val; omega
  | ⟨1, _⟩ => show win0_4.index t (1 : Fin 2) * 128 + 1 * j.val = j.val; omega

/-- Window 5's block at point t is rows 200·t … of its array. -/
theorem blk5 (c : Dev nD) (t : Fin cfg0.N) (p : Fin 200) (j : Fin 5) :
    iblk m c 5 t (ValueIdx.ix2 p j) = V m c main_v5 (ValueIdx.ix2 ⟨t.val * 200 + p.val, ltTop t p⟩ j) := by
  show V m c main_v5 (((cfg0.win 5).blk t).view.emb (ValueIdx.ix2 p j)) = _
  refine congrArg _ (funext fun d => Fin.ext ?_)
  obtain ⟨e0, e1⟩ := idx5 t
  match d with
  | ⟨0, _⟩ => show win0_5.index t (0 : Fin 2) * 200 + 1 * p.val = t.val * 200 + p.val; omega
  | ⟨1, _⟩ => show win0_5.index t (1 : Fin 2) * 5 + 1 * j.val = j.val; omega

/-- Window 6's block at point t is rows 5000 + 200·t … of its array. -/
theorem blk6 (c : Dev nD) (t : Fin cfg0.N) (p : Fin 200) (j : Fin 5) :
    iblk m c 6 t (ValueIdx.ix2 p j) = V m c main_v5 (ValueIdx.ix2 ⟨5000 + t.val * 200 + p.val, ltBot t p⟩ j) := by
  show V m c main_v5 (((cfg0.win 6).blk t).view.emb (ValueIdx.ix2 p j)) = _
  refine congrArg _ (funext fun d => Fin.ext ?_)
  obtain ⟨e0, e1⟩ := idx6 t
  match d with
  | ⟨0, _⟩ => show win0_6.index t (0 : Fin 2) * 200 + 1 * p.val = 5000 + t.val * 200 + p.val; omega
  | ⟨1, _⟩ => show win0_6.index t (1 : Fin 2) * 5 + 1 * j.val = j.val; omega

/-- Window 7 holds its whole array at every point. -/
theorem blk7 (c : Dev nD) (t : Fin cfg0.N) (a : Fin 128) (b : Fin 128) :
    iblk m c 7 t (ValueIdx.ix2 a b) = V m c main_v7 (ValueIdx.ix2 a b) := by
  show V m c main_v7 (((cfg0.win 7).blk t).view.emb (ValueIdx.ix2 a b)) = _
  refine congrArg _ (funext fun d => Fin.ext ?_)
  obtain ⟨e0, e1⟩ := idx7 t
  match d with
  | ⟨0, _⟩ => show win0_7.index t (0 : Fin 2) * 128 + 1 * a.val = a.val; omega
  | ⟨1, _⟩ => show win0_7.index t (1 : Fin 2) * 128 + 1 * b.val = b.val; omega

/-- Window 8 holds its whole array at every point. -/
theorem blk8 (c : Dev nD) (t : Fin cfg0.N) (a : Fin 128) (b : Fin 128) :
    iblk m c 8 t (ValueIdx.ix2 a b) = V m c main_v9 (ValueIdx.ix2 a b) := by
  show V m c main_v9 (((cfg0.win 8).blk t).view.emb (ValueIdx.ix2 a b)) = _
  refine congrArg _ (funext fun d => Fin.ext ?_)
  obtain ⟨e0, e1⟩ := idx8 t
  match d with
  | ⟨0, _⟩ => show win0_8.index t (0 : Fin 2) * 128 + 1 * a.val = a.val; omega
  | ⟨1, _⟩ => show win0_8.index t (1 : Fin 2) * 128 + 1 * b.val = b.val; omega

/-- Window 9 holds its whole array at every point. -/
theorem blk9 (c : Dev nD) (t : Fin cfg0.N) (a : Fin 5) (b : Fin 128) :
    iblk m c 9 t (ValueIdx.ix2 a b) = V m c main_v11 (ValueIdx.ix2 a b) := by
  show V m c main_v11 (((cfg0.win 9).blk t).view.emb (ValueIdx.ix2 a b)) = _
  refine congrArg _ (funext fun d => Fin.ext ?_)
  obtain ⟨e0, e1⟩ := idx9 t
  match d with
  | ⟨0, _⟩ => show win0_9.index t (0 : Fin 2) * 5 + 1 * a.val = a.val; omega
  | ⟨1, _⟩ => show win0_9.index t (1 : Fin 2) * 128 + 1 * b.val = b.val; omega

/-- Window 10 holds its whole array at every point. -/
theorem blk10 (c : Dev nD) (t : Fin cfg0.N) (a : Fin 1) (b : Fin 128) :
    iblk m c 10 t (ValueIdx.ix2 a b) = V m c main_v13 (ValueIdx.ix2 a b) := by
  show V m c main_v13 (((cfg0.win 10).blk t).view.emb (ValueIdx.ix2 a b)) = _
  refine congrArg _ (funext fun d => Fin.ext ?_)
  obtain ⟨e0, e1⟩ := idx10 t
  match d with
  | ⟨0, _⟩ => show win0_10.index t (0 : Fin 2) * 1 + 1 * a.val = a.val; omega
  | ⟨1, _⟩ => show win0_10.index t (1 : Fin 2) * 128 + 1 * b.val = b.val; omega

/-- Window 11 holds its whole array at every point. -/
theorem blk11 (c : Dev nD) (t : Fin cfg0.N) (a : Fin 128) (b : Fin 128) :
    iblk m c 11 t (ValueIdx.ix2 a b) = V m c main_v12 (ValueIdx.ix2 a b) := by
  show V m c main_v12 (((cfg0.win 11).blk t).view.emb (ValueIdx.ix2 a b)) = _
  refine congrArg _ (funext fun d => Fin.ext ?_)
  obtain ⟨e0, e1⟩ := idx11 t
  match d with
  | ⟨0, _⟩ => show win0_11.index t (0 : Fin 2) * 128 + 1 * a.val = a.val; omega
  | ⟨1, _⟩ => show win0_11.index t (1 : Fin 2) * 128 + 1 * b.val = b.val; omega

/-- Window 12 holds its whole array at every point. -/
theorem blk12 (c : Dev nD) (t : Fin cfg0.N) (a : Fin 1) (b : Fin 128) :
    iblk m c 12 t (ValueIdx.ix2 a b) = V m c main_v14 (ValueIdx.ix2 a b) := by
  show V m c main_v14 (((cfg0.win 12).blk t).view.emb (ValueIdx.ix2 a b)) = _
  refine congrArg _ (funext fun d => Fin.ext ?_)
  obtain ⟨e0, e1⟩ := idx12 t
  match d with
  | ⟨0, _⟩ => show win0_12.index t (0 : Fin 2) * 1 + 1 * a.val = a.val; omega
  | ⟨1, _⟩ => show win0_12.index t (1 : Fin 2) * 128 + 1 * b.val = b.val; omega

/-- Window 13 holds its whole array at every point. -/
theorem blk13 (c : Dev nD) (t : Fin cfg0.N) (a : Fin 1) (b : Fin 128) :
    iblk m c 13 t (ValueIdx.ix2 a b) = V m c main_v15 (ValueIdx.ix2 a b) := by
  show V m c main_v15 (((cfg0.win 13).blk t).view.emb (ValueIdx.ix2 a b)) = _
  refine congrArg _ (funext fun d => Fin.ext ?_)
  obtain ⟨e0, e1⟩ := idx13 t
  match d with
  | ⟨0, _⟩ => show win0_13.index t (0 : Fin 2) * 1 + 1 * a.val = a.val; omega
  | ⟨1, _⟩ => show win0_13.index t (1 : Fin 2) * 128 + 1 * b.val = b.val; omega

/-- Window 14 holds its whole array at every point. -/
theorem blk14 (c : Dev nD) (t : Fin cfg0.N) (a : Fin 1) (b : Fin 128) :
    iblk m c 14 t (ValueIdx.ix2 a b) = V m c main_v16 (ValueIdx.ix2 a b) := by
  show V m c main_v16 (((cfg0.win 14).blk t).view.emb (ValueIdx.ix2 a b)) = _
  refine congrArg _ (funext fun d => Fin.ext ?_)
  obtain ⟨e0, e1⟩ := idx14 t
  match d with
  | ⟨0, _⟩ => show win0_14.index t (0 : Fin 2) * 1 + 1 * a.val = a.val; omega
  | ⟨1, _⟩ => show win0_14.index t (1 : Fin 2) * 128 + 1 * b.val = b.val; omega

/-! ## The result blocks: where they sit, and that they cover -/

/-- Where an index of result window 15's block at point t sits in its array. -/
theorem emb15 (t : Fin cfg0.N) (p : Fin 200) (q : Fin 128) :
    ((cfg0.win 15).blk t).view.emb (ValueIdx.ix2 p q) = (ValueIdx.ix2 ⟨t.val * 200 + p.val, lt5000 t p⟩ q : S5000x128.Idx) := by
  refine funext fun d => Fin.ext ?_
  obtain ⟨e0, e1⟩ := idx15 t
  match d with
  | ⟨0, _⟩ => show win0_15.index t (0 : Fin 2) * 200 + 1 * p.val = t.val * 200 + p.val; omega
  | ⟨1, _⟩ => show win0_15.index t (1 : Fin 2) * 128 + 1 * q.val = q.val; omega

/-- A function of the whole result array read through window 15's block at point t. -/
theorem read15 (t : Fin cfg0.N) (G : S5000x128.Idx → Elt F .f32) (p : Fin 200) (q : Fin 128) :
    ((cfg0.win 15).blk t).view.read (Elt F) G (ValueIdx.ix2 p q) = G (ValueIdx.ix2 ⟨t.val * 200 + p.val, lt5000 t p⟩ q) := by
  show G (((cfg0.win 15).blk t).view.emb (ValueIdx.ix2 p q)) = _
  rw [emb15]

/-- Every index of result array 0 is in the block of the point its row names. -/
theorem cover15 (i : S5000x128.Idx) :
    ∃ t : Fin cfg0.N, (cfg0.win 15).flush t = true ∧ i ∈ ((cfg0.win 15).blk t).view.set := by
  have h0 : (i 0).val < 5000 := (i 0).isLt
  have h1 : (i 1).val < 128 := (i 1).isLt
  have hlt : (i 0).val / 200 < 25 := by omega
  refine ⟨⟨(i 0).val / 200, hlt⟩, flush0_15 _, ?_⟩
  show i ∈ ((View.whole main_v17_0).slice (win0_15.rect ⟨(i 0).val / 200, hlt⟩)).set
  rw [View.set_slice_whole, Rect.mem_set_unit]
  obtain ⟨e0, e1⟩ := idx15 ⟨(i 0).val / 200, hlt⟩
  intro d
  match d with
  | ⟨0, _⟩ =>
    show win0_15.index ⟨(i 0).val / 200, hlt⟩ (0 : Fin 2) * 200 ≤ (i 0).val
      ∧ (i 0).val < win0_15.index ⟨(i 0).val / 200, hlt⟩ (0 : Fin 2) * 200 + 200
    rw [e0]; show (i 0).val / 200 * 200 ≤ (i 0).val ∧ (i 0).val < (i 0).val / 200 * 200 + 200; omega
  | ⟨1, _⟩ =>
    show win0_15.index ⟨(i 0).val / 200, hlt⟩ (1 : Fin 2) * 128 ≤ (i 1).val
      ∧ (i 1).val < win0_15.index ⟨(i 0).val / 200, hlt⟩ (1 : Fin 2) * 128 + 128
    rw [e1]; omega

/-- The cover in the form the whole-array post takes. -/
example (c : Dev nD) (G : Buf (Elt F) ((cfg0.win 15).arr.view.loc (c.tc : Thread nD τ)))
    (hG : ∀ t, (cfg0.win 15).flush t = true → (dats m 0 c).flushed 15 t = ((cfg0.win 15).blk t).view.read (Elt F) G) :
    (dats m 0 c).arrAt 15 cfg0.N = G :=
  (dats m 0 c).arrAt_eq_of_cover 15 G hG cover15

/-- Where an index of result window 16's block at point t sits in its array. -/
theorem emb16 (t : Fin cfg0.N) (p : Fin 200) (q : Fin 128) :
    ((cfg0.win 16).blk t).view.emb (ValueIdx.ix2 p q) = (ValueIdx.ix2 ⟨t.val * 200 + p.val, lt5000 t p⟩ q : S5000x128.Idx) := by
  refine funext fun d => Fin.ext ?_
  obtain ⟨e0, e1⟩ := idx16 t
  match d with
  | ⟨0, _⟩ => show win0_16.index t (0 : Fin 2) * 200 + 1 * p.val = t.val * 200 + p.val; omega
  | ⟨1, _⟩ => show win0_16.index t (1 : Fin 2) * 128 + 1 * q.val = q.val; omega

/-- A function of the whole result array read through window 16's block at point t. -/
theorem read16 (t : Fin cfg0.N) (G : S5000x128.Idx → Elt F .f32) (p : Fin 200) (q : Fin 128) :
    ((cfg0.win 16).blk t).view.read (Elt F) G (ValueIdx.ix2 p q) = G (ValueIdx.ix2 ⟨t.val * 200 + p.val, lt5000 t p⟩ q) := by
  show G (((cfg0.win 16).blk t).view.emb (ValueIdx.ix2 p q)) = _
  rw [emb16]

/-- Every index of result array 1 is in the block of the point its row names. -/
theorem cover16 (i : S5000x128.Idx) :
    ∃ t : Fin cfg0.N, (cfg0.win 16).flush t = true ∧ i ∈ ((cfg0.win 16).blk t).view.set := by
  have h0 : (i 0).val < 5000 := (i 0).isLt
  have h1 : (i 1).val < 128 := (i 1).isLt
  have hlt : (i 0).val / 200 < 25 := by omega
  refine ⟨⟨(i 0).val / 200, hlt⟩, flush0_16 _, ?_⟩
  show i ∈ ((View.whole main_v17_1).slice (win0_16.rect ⟨(i 0).val / 200, hlt⟩)).set
  rw [View.set_slice_whole, Rect.mem_set_unit]
  obtain ⟨e0, e1⟩ := idx16 ⟨(i 0).val / 200, hlt⟩
  intro d
  match d with
  | ⟨0, _⟩ =>
    show win0_16.index ⟨(i 0).val / 200, hlt⟩ (0 : Fin 2) * 200 ≤ (i 0).val
      ∧ (i 0).val < win0_16.index ⟨(i 0).val / 200, hlt⟩ (0 : Fin 2) * 200 + 200
    rw [e0]; show (i 0).val / 200 * 200 ≤ (i 0).val ∧ (i 0).val < (i 0).val / 200 * 200 + 200; omega
  | ⟨1, _⟩ =>
    show win0_16.index ⟨(i 0).val / 200, hlt⟩ (1 : Fin 2) * 128 ≤ (i 1).val
      ∧ (i 1).val < win0_16.index ⟨(i 0).val / 200, hlt⟩ (1 : Fin 2) * 128 + 128
    rw [e1]; omega

/-- The cover in the form the whole-array post takes. -/
example (c : Dev nD) (G : Buf (Elt F) ((cfg0.win 16).arr.view.loc (c.tc : Thread nD τ)))
    (hG : ∀ t, (cfg0.win 16).flush t = true → (dats m 0 c).flushed 16 t = ((cfg0.win 16).blk t).view.read (Elt F) G) :
    (dats m 0 c).arrAt 16 cfg0.N = G :=
  (dats m 0 c).arrAt_eq_of_cover 16 G hG cover16

end Cert.KernelIdeal.Geom

end
-- ==== Proof.CatRows.lean ====
/-
  Two blocks of 5000 rows stacked along the row axis, read at an index: rows below 5000 come from the first block,
  the others from the second at the row less 5000.
-/
import proofs.«149784_g58171037057130_cont_9to1_m_483_14_alg».proof.Proof.Gen.KernelIdeal
import Idealize.ShloMosaic.Lib.Pipeline.Value
import Idealize.ShloMosaic.Lib.ValueIdx

noncomputable section

namespace Cert.NodeRow.Ker

open Cert.KernelIdeal Cert.KernelIdeal.Gen Idealize.ShloMosaic

/-- Row r of the stack of two blocks of 5000 rows. -/
theorem stack_rows {α : Type} (a b : S5000x128.Idx → α) (r : Fin 10000) (q : Fin 128) :
    concatenate S10000x128 0 [⟨S5000x128, a⟩, ⟨S5000x128, b⟩] concatenates_S5000x128_S5000x128_S10000x128_d0 (ValueIdx.ix2 r q)
      = if h : r.val < 5000 then a (ValueIdx.ix2 ⟨r.val, h⟩ q)
        else b (ValueIdx.ix2 ⟨r.val - 5000, by have := r.isLt; omega⟩ q) := by
  by_cases h : r.val < 5000
  · rw [dif_pos h]
    exact concatenate_apply_piece (t := S10000x128) 0 _ _ (ValueIdx.ix2 r q) 0 (by show (0 : Nat) < 2; decide) S5000x128 a rfl rfl 0 rfl
      (ValueIdx.ix2 ⟨r.val, h⟩ q)
      (fun c hc => match c, hc with
        | ⟨0, _⟩, hc => absurd rfl hc
        | ⟨1, _⟩, _ => rfl)
      (Nat.zero_add _)
  · rw [dif_neg h]
    exact concatenate_apply_piece (t := S10000x128) 0 _ _ (ValueIdx.ix2 r q) 1 (by show (1 : Nat) < 2; decide) S5000x128 b rfl rfl 5000 rfl
      (ValueIdx.ix2 ⟨r.val - 5000, by have := r.isLt; omega⟩ q)
      (fun c hc => match c, hc with
        | ⟨0, _⟩, hc => absurd rfl hc
        | ⟨1, _⟩, _ => rfl)
      (by show 5000 + (r.val - 5000) = r.val; omega)

end Cert.NodeRow.Ker

end
-- ==== Proof.Spec.lean ====
/-
  One row of the node update, as a function on the extended reals.

  For a node with adjacency row `a`, feature row `hr` and five physical scalars `cr`:
    u      = Σ_j a j · H j            (the aggregated neighbour features, H the whole feature matrix)
    ph j   = sign(cr j) · log(|cr j| + ε₈)
    pre q  = Σ_k hr k · Wh k q + Σ_k u k · Wu k q + ph 0 · Wp 0 q + … + ph 4 · Wp 4 q + b1 q
    hid    = pre · logistic(pre)
    x q    = hr q + (Σ_k hid k · W2 k q + b2 q)
    μ      = (Σ_k x k) / 128,   v = (Σ_k (x k − μ)²) / 128
    out q  = g q · (x q − μ) · rsqrt(v + ε₅) + be q
  The three weight blocks `Wh`, `Wu`, `Wp` are the transposed column ranges [0,128), [128,256), [256,261) of the
  first linear layer's matrix, `W2` the transposed second one. The float literals stay as their words.
-/
import Idealize.ShloMosaic.PureOps.Ideal
import Idealize.ShloMosaic.PureOps.Ideal.Laws

noncomputable section

namespace Cert.NodeRow

open Idealize.ShloMosaic

/-- The literal added under the logarithm (the f32 nearest 1e-8). -/
abbrev eps8 : EReal := Ideal.ofBits .f32 0x322BCC77#32
/-- The literal added to the variance (the f32 nearest 1e-5). -/
abbrev eps5 : EReal := Ideal.ofBits .f32 0x3727C5AC#32
/-- The row length 128 as a float. -/
abbrev n128 : EReal := Ideal.ofBits .f32 0x43000000#32

/-- sign(x) · log(|x| + ε₈), with |x| = max x (−x). -/
def slog (x : EReal) : EReal := Ideal.sign x * Ideal.log (max x (-x) + eps8)

/-- x · logistic x. -/
def silu (x : EReal) : EReal := x * Ideal.logistic x

/-- The aggregated neighbour features of a node with adjacency row `a`. -/
def up (a : Fin 10000 → EReal) (H : Fin 10000 → Fin 128 → EReal) (k : Fin 128) : EReal := ∑ j : Fin 10000, a j * H j k

/-- The first linear layer on the concatenation [hr, u, ph], written block by block. -/
def pre (Wh Wu : Fin 128 → Fin 128 → EReal) (Wp : Fin 5 → Fin 128 → EReal) (b1 : Fin 128 → EReal)
    (hr u : Fin 128 → EReal) (ph : Fin 5 → EReal) (q : Fin 128) : EReal :=
  (∑ k : Fin 128, hr k * Wh k q) + (∑ k : Fin 128, u k * Wu k q) + ph 0 * Wp 0 q + ph 1 * Wp 1 q + ph 2 * Wp 2 q
    + ph 3 * Wp 3 q + ph 4 * Wp 4 q + b1 q

/-- The residual stream: the row plus the second linear layer of the gated hidden row. -/
def resid (W2 : Fin 128 → Fin 128 → EReal) (b2 : Fin 128 → EReal) (hr p : Fin 128 → EReal) (q : Fin 128) : EReal :=
  hr q + ((∑ k : Fin 128, silu (p k) * W2 k q) + b2 q)

/-- The mean of a row of 128. -/
def mean (x : Fin 128 → EReal) : EReal := Ideal.div (∑ k : Fin 128, x k) n128

/-- The (biased) variance of a row of 128. -/
def var (x : Fin 128 → EReal) : EReal := Ideal.div (∑ k : Fin 128, (x k - mean x) * (x k - mean x)) n128

/-- Layer normalisation with the reciprocal square root. -/
def norm (g be : Fin 128 → EReal) (x : Fin 128 → EReal) (q : Fin 128) : EReal :=
  g q * (x q - mean x) * Ideal.rsqrt (var x + eps5) + be q

/-- The whole row. -/
def row (Wh Wu : Fin 128 → Fin 128 → EReal) (Wp : Fin 5 → Fin 128 → EReal) (b1 : Fin 128 → EReal)
    (W2 : Fin 128 → Fin 128 → EReal) (b2 g be : Fin 128 → EReal) (H : Fin 10000 → Fin 128 → EReal)
    (a : Fin 10000 → EReal) (hr : Fin 128 → EReal) (cr : Fin 5 → EReal) (q : Fin 128) : EReal :=
  norm g be (resid W2 b2 hr (pre Wh Wu Wp b1 hr (up a H) (fun j => slog (cr j)))) q

end Cert.NodeRow

end
-- ==== Proof.LibRowLayout.lean ====
/-
  Layout operations read at an index given by coordinates, for the column and row forms a row-wise
  node update uses: a column kept as `[a, 1]`, a row kept as `[1, b]`, their broadcasts over a
  `[a, b]` block, one column or one row cut out of a matrix, a lane sum of a `[a, b]` block read at a
  row, and the elementwise transcendental operations of the extended reals read at an index.
-/
import Idealize.ShloMosaic.Lib.ValueLayout
import Idealize.ShloMosaic.PureOps.Ideal.Laws

open scoped BigOperators

namespace Cert.NodeRow.Ker

open Idealize.ShloMosaic Idealize.ShloMosaic.ValueIdx

section Layout
variable {α : Type}

/-- An `[a, 1]` array cast to `[a]` reads, at `p`, the operand at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- An `[a]` array cast to `[a, 1]` reads, at `(p, z)`, the operand at `p`, whatever the unit coordinate `z`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    omega)

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column taken through the casts `[a, 1] → [a] → [a, 1]` and broadcast over `b` lanes reads, at `(p, c)`,
    the column at `p`. -/
theorem colBroadcast_apply {a b : ℕ} (v : (⟨2, ![a, 1]⟩ : Shape).Idx → α)
    (h1 : (⟨2, ![a, 1]⟩ : Shape).ShapeCasts ⟨1, ![a]⟩) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ (shapeCast ⟨1, ![a]⟩ v h1) h2) h3 (ix2 p c)
      = v (ix2 p (0 : Fin 1)) := by
  rw [broadcastTo_a1_ab_apply, shapeCast_a_a1_apply, shapeCast_a1_a_apply]

/-- A row taken through the casts `[1, b] → [b] → [1, b]` and broadcast over `a` rows reads, at `(p, c)`,
    the row at `c`. -/
theorem rowBroadcast_apply {a b : ℕ} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h1) h2) h3 (ix2 p c)
      = v (ix2 (0 : Fin 1) c) := by
  rw [broadcastTo_1b_ab_apply, shapeCast_a_1a_apply, shapeCast_1a_a_apply]

/-- Column `o` of an `[a, n]` matrix, cut out as `[a, 1]`, reads at `(p, z)` the matrix at `(p, k)` with `k = o`. -/
theorem col_apply {a n : ℕ} (o : ℕ) (X : (⟨2, ![a, n]⟩ : Shape).Idx → α)
    (h : (⟨2, ![a, n]⟩ : Shape).Slices ![0, o] ⟨2, ![a, 1]⟩) (p : Fin a) (z : Fin 1) (k : Fin n) (hk : k.val = o) :
    extractStridedSlice ⟨2, ![a, 1]⟩ ![0, o] X h (ix2 p z) = X (ix2 p k) :=
  slice2_axis1_apply o X h p z k (by have hz : z.val = 0 := by omega
                                     omega)

/-- Row `o` of an `[n, b]` matrix, cut out as `[1, b]`, reads at `(z, c)` the matrix at `(k, c)` with `k = o`. -/
theorem row_apply {n b : ℕ} (o : ℕ) (X : (⟨2, ![n, b]⟩ : Shape).Idx → α)
    (h : (⟨2, ![n, b]⟩ : Shape).Slices ![o, 0] ⟨2, ![1, b]⟩) (z : Fin 1) (c : Fin b) (k : Fin n) (hk : k.val = o) :
    extractStridedSlice ⟨2, ![1, b]⟩ ![o, 0] X h (ix2 z c) = X (ix2 k c) :=
  slice2_axis0_apply o X h z c k (by have hz : z.val = 0 := by omega
                                     omega)

end Layout

/-! ## The lane sum of a block at a row, and the elementwise operations, at the extended reals -/

/-- The sum over the lanes of an `[a, b]` block, read at row `p`, is the sum over `k` of the block at `(p, k)`. -/
theorem rowSum_apply {a b : ℕ} (X : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ X acc h hφ hacc (ix1 p) = ∑ k : Fin b, X (ix2 p k) := by
  refine (Ideal.multiReduction_add_single X acc h hφ hacc (ix1 p)).trans ?_
  show ∑ k : Fin b, X (h.lift (ix1 p) k) = ∑ k : Fin b, X (ix2 p k)
  refine Finset.sum_congr rfl fun k _ => congrArg X ?_
  funext ax
  match ax with
  | ⟨0, _⟩ => exact Fin.ext rfl
  | ⟨1, _⟩ => exact Fin.ext rfl

/-- The lane sum kept as a column `[a, 1]`. -/
theorem rowSumCol_apply {a b : ℕ} (X : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (h2 : (⟨1, ![a]⟩ : Shape).ShapeCasts ⟨2, ![a, 1]⟩) (p : Fin a) (z : Fin 1) :
    shapeCast ⟨2, ![a, 1]⟩ (multiReduction .add [1] ⟨1, ![a]⟩ X acc h hφ hacc) h2 (ix2 p z) = ∑ k : Fin b, X (ix2 p k) := by
  rw [shapeCast_a_a1_apply, rowSum_apply]

section Elementwise
variable {s : Shape} {φ : FTy}

theorem logistic_apply (x : FVec Ideal s φ) (i : s.Idx) : logistic x i = Ideal.logistic (x i) := rfl
theorem rsqrt_apply (x : FVec Ideal s φ) (i : s.Idx) : rsqrt x i = Ideal.rsqrt (x i) := rfl
theorem log_apply (x : FVec Ideal s φ) (i : s.Idx) : log x i = Ideal.log (x i) := rfl
theorem absf_apply (x : FVec Ideal s φ) (i : s.Idx) : absf x i = max (x i) (-(x i)) := rfl
/-- A broadcast float literal reads the extended real its word encodes. -/
theorem broadcast_ofBits_apply (b : BitVec φ.bits) (i : s.Idx) :
    broadcast s (Scalar.ofBits (F := Ideal) φ b) i = Ideal.ofBits φ b := rfl

end Elementwise

end Cert.NodeRow.Ker
-- ==== Proof.PayDot.lean ====
/-
  The two matrix products of the row-wise node update, read at an output entry: a block product into the zero
  accumulator at `(p, q)` is the sum over the contraction coordinate `k` of the left operand at `(p, k)` times
  the right operand at `(k, q)`.
-/
import proofs.«149784_g58171037057130_cont_9to1_m_483_14_alg».proof.Proof.Gen.KernelIdeal.Skeleton
import Idealize.ShloMosaic.Lib.ValueIdx
import Idealize.ShloMosaic.PureOps.Ideal.Laws

open scoped BigOperators

namespace Cert.NodeRow.Ker

open Idealize.ShloMosaic Idealize.ShloMosaic.ValueIdx Cert.KernelIdeal

/-- The `[200, 128] × [128, 128]` contraction. -/
abbrev D128 := dot_S200x128_S128x128_S200x128_1_0_0_1_n_n
/-- The `[200, 10000] × [10000, 128]` contraction. -/
abbrev D10k := dot_S200x10000_S10000x128_S200x128_1_0_0_1_n_n

theorem lhs128_0 (i : S200x128.Idx) (c : D128.contr.Idx) : (D128.lhsIdx i c 0).val = (i 0).val := by
  unfold DotDims.lhsIdx
  rw [dif_neg (show ¬(0 : Fin S200x128.rank) ∈ D128.lhsBatch by decide),
    dif_pos (show (0 : Fin S200x128.rank) ∈ D128.lhsNonContracting by decide)]
  rfl
theorem lhs128_1 (i : S200x128.Idx) (c : D128.contr.Idx) : (D128.lhsIdx i c 1).val = (c ⟨0, by decide⟩).val :=
  D128.lhsIdx_val_of_single rfl i c
theorem rhs128_0 (i : S200x128.Idx) (c : D128.contr.Idx) : (D128.rhsIdx i c 0).val = (c ⟨0, by decide⟩).val :=
  D128.rhsIdx_val_of_single rfl i c
theorem rhs128_1 (i : S200x128.Idx) (c : D128.contr.Idx) : (D128.rhsIdx i c 1).val = (i 1).val := by
  unfold DotDims.rhsIdx
  rw [dif_neg (show ¬(1 : Fin S128x128.rank) ∈ D128.rhsBatch by decide),
    dif_pos (show (1 : Fin S128x128.rank) ∈ D128.rhsNonContracting by decide)]
  rfl

/-- A `[200, 128] × [128, 128]` product into the zero block, at `(p, q)`: `∑ k, A (p, k) · B (k, q)`. -/
theorem mm128_apply (A : FVec Ideal S200x128 .f32) (B : FVec Ideal S128x128 .f32) (p : Fin 200) (q : Fin 128) :
    matmul D128 none A B (constant S200x128 .f32 0x00000000#32) (ix2 p q) = ∑ k : Fin 128, A (ix2 p k) * B (ix2 k q) := by
  show FloatOps.matmul D128 none A B (constant S200x128 .f32 0x00000000#32) (ix2 p q) = _
  rw [Ideal.matmul_constant_zero_apply, ← Equiv.sum_comp (contrEquiv1 D128 128 rfl rfl).symm]
  refine Finset.sum_congr rfl fun k _ => ?_
  have hk := contrEquiv1_symm_val D128 128 rfl rfl k
  have el : D128.lhsIdx (ix2 p q) ((contrEquiv1 D128 128 rfl rfl).symm k) = ix2 p k := funext fun a => Fin.ext (by
    match a with
    | ⟨0, _⟩ => exact lhs128_0 _ _
    | ⟨1, _⟩ => exact (lhs128_1 _ _).trans hk)
  have er : D128.rhsIdx (ix2 p q) ((contrEquiv1 D128 128 rfl rfl).symm k) = ix2 k q := funext fun a => Fin.ext (by
    match a with
    | ⟨0, _⟩ => exact (rhs128_0 _ _).trans hk
    | ⟨1, _⟩ => exact rhs128_1 _ _)
  rw [el, er]

theorem lhs10k_0 (i : S200x128.Idx) (c : D10k.contr.Idx) : (D10k.lhsIdx i c 0).val = (i 0).val := by
  unfold DotDims.lhsIdx
  rw [dif_neg (show ¬(0 : Fin S200x10000.rank) ∈ D10k.lhsBatch by decide),
    dif_pos (show (0 : Fin S200x10000.rank) ∈ D10k.lhsNonContracting by decide)]
  rfl
theorem lhs10k_1 (i : S200x128.Idx) (c : D10k.contr.Idx) : (D10k.lhsIdx i c 1).val = (c ⟨0, by decide⟩).val :=
  D10k.lhsIdx_val_of_single rfl i c
theorem rhs10k_0 (i : S200x128.Idx) (c : D10k.contr.Idx) : (D10k.rhsIdx i c 0).val = (c ⟨0, by decide⟩).val :=
  D10k.rhsIdx_val_of_single rfl i c
theorem rhs10k_1 (i : S200x128.Idx) (c : D10k.contr.Idx) : (D10k.rhsIdx i c 1).val = (i 1).val := by
  unfold DotDims.rhsIdx
  rw [dif_neg (show ¬(1 : Fin S10000x128.rank) ∈ D10k.rhsBatch by decide),
    dif_pos (show (1 : Fin S10000x128.rank) ∈ D10k.rhsNonContracting by decide)]
  rfl

/-- A `[200, 10000] × [10000, 128]` product into the zero block, at `(p, q)`: `∑ j, A (p, j) · B (j, q)`. -/
theorem mm10k_apply (A : FVec Ideal S200x10000 .f32) (B : FVec Ideal S10000x128 .f32) (p : Fin 200) (q : Fin 128) :
    matmul D10k none A B (constant S200x128 .f32 0x00000000#32) (ix2 p q) = ∑ j : Fin 10000, A (ix2 p j) * B (ix2 j q) := by
  show FloatOps.matmul D10k none A B (constant S200x128 .f32 0x00000000#32) (ix2 p q) = _
  rw [Ideal.matmul_constant_zero_apply, ← Equiv.sum_comp (contrEquiv1 D10k 10000 rfl rfl).symm]
  refine Finset.sum_congr rfl fun k _ => ?_
  have hk := contrEquiv1_symm_val D10k 10000 rfl rfl k
  have el : D10k.lhsIdx (ix2 p q) ((contrEquiv1 D10k 10000 rfl rfl).symm k) = ix2 p k := funext fun a => Fin.ext (by
    match a with
    | ⟨0, _⟩ => exact lhs10k_0 _ _
    | ⟨1, _⟩ => exact (lhs10k_1 _ _).trans hk)
  have er : D10k.rhsIdx (ix2 p q) ((contrEquiv1 D10k 10000 rfl rfl).symm k) = ix2 k q := funext fun a => Fin.ext (by
    match a with
    | ⟨0, _⟩ => exact (rhs10k_0 _ _).trans hk
    | ⟨1, _⟩ => exact rhs10k_1 _ _)
  rw [el, er]

end Cert.NodeRow.Ker
-- ==== Proof.PayPre.lean ====
/-
  The first half of the row-wise node update read at an entry: the sign-and-absolute-value pair under the
  logarithm, the neighbour aggregation, the first linear layer's sum (two matrix products and five rank-one
  terms) before its bias, and the bias row spread over the block.
-/
import proofs.«149784_g58171037057130_cont_9to1_m_483_14_alg».proof.Proof.Gen.KernelIdeal.Skeleton
import proofs.«149784_g58171037057130_cont_9to1_m_483_14_alg».proof.Proof.LibRowLayout
import proofs.«149784_g58171037057130_cont_9to1_m_483_14_alg».proof.Proof.PayDot

open scoped BigOperators

namespace Cert.NodeRow.Ker

open Idealize.ShloMosaic Idealize.ShloMosaic.ValueIdx Cert.KernelIdeal Cert.KernelIdeal.Gen

/-! ## The casts of a loaded block to its own shape are the identity -/

theorem pay2_eq (v : Vec Ideal S128x128 .f32) : k0_pay2 v = v := shapeCast_self v _
theorem pay3_eq (v : Vec Ideal S128x128 .f32) : k0_pay3 v = v := shapeCast_self v _
theorem pay4_eq (v : Vec Ideal S5x128 .f32) : k0_pay4 v = v := shapeCast_self v _
theorem pay5_eq (v : Vec Ideal S1x128 .f32) : k0_pay5 v = v := shapeCast_self v _
theorem pay6_eq (v : Vec Ideal S128x128 .f32) : k0_pay6 v = v := shapeCast_self v _
theorem pay7_eq (v : Vec Ideal S1x128 .f32) : k0_pay7 v = v := shapeCast_self v _
theorem pay8_eq (v : Vec Ideal S1x128 .f32) : k0_pay8 v = v := shapeCast_self v _
theorem pay9_eq (v : Vec Ideal S1x128 .f32) : k0_pay9 v = v := shapeCast_self v _
theorem pay11_eq (v : Vec Ideal S200x5 .f32) : k0_pay11 v = v := shapeCast_self v _
theorem pay18_eq (v : Vec Ideal S200x5 .f32) : k0_pay18 v = v := shapeCast_self v _

/-! ## The sign and the absolute value of the five scalars -/

/-- The first block's sign term: one with the scalar's sign where its absolute value is above zero, the
    scalar itself (zero) elsewhere — the sign of the scalar. -/
theorem pay12_apply (c : Vec Ideal S200x5 .f32) (i : S200x5.Idx) : k0_pay12 c i = Ideal.sign (c i) := by
  unfold k0_pay12
  rw [pay11_eq]
  exact Ideal.jnp_sign_eq_sign_f32 (c i)

/-- The first block's absolute value. -/
theorem pay13_apply (c : Vec Ideal S200x5 .f32) (i : S200x5.Idx) : k0_pay13 c i = max (c i) (-(c i)) := by
  unfold k0_pay13
  rw [pay11_eq]
  rfl

/-- The second block's sign term. -/
theorem pay19_apply (c : Vec Ideal S200x5 .f32) (i : S200x5.Idx) : k0_pay19 c i = Ideal.sign (c i) := by
  unfold k0_pay19
  rw [pay18_eq]
  exact Ideal.jnp_sign_eq_sign_f32 (c i)

/-- The second block's absolute value. -/
theorem pay20_apply (c : Vec Ideal S200x5 .f32) (i : S200x5.Idx) : k0_pay20 c i = max (c i) (-(c i)) := by
  unfold k0_pay20
  rw [pay18_eq]
  rfl

/-! ## The neighbour aggregation -/

/-- The first block's aggregation at `(p, k)`: `∑ j, A (p, j) · H (j, k)`. -/
theorem pay10_apply (H : Vec Ideal S10000x128 .f32) (A : Vec Ideal S200x10000 .f32) (p : Fin 200) (k : Fin 128) :
    k0_pay10 H A (ix2 p k) = ∑ j : Fin 10000, A (ix2 p j) * H (ix2 j k) := by
  unfold k0_pay10
  exact mm10k_apply A H p k

/-- The second block's aggregation. -/
theorem pay17_apply (H : Vec Ideal S10000x128 .f32) (A : Vec Ideal S200x10000 .f32) (p : Fin 200) (k : Fin 128) :
    k0_pay17 H A (ix2 p k) = ∑ j : Fin 10000, A (ix2 p j) * H (ix2 j k) := by
  unfold k0_pay17
  exact mm10k_apply A H p k

/-! ## The bias row spread over the block -/

theorem pay15_apply (b : FVec Ideal S1x128 .f32) (p : Fin 200) (q : Fin 128) :
    k0_pay15 b (ix2 p q) = b (ix2 (0 : Fin 1) q) := by
  unfold k0_pay15
  exact broadcastTo_1b_ab_apply b _ p q

/-! ## The first linear layer's sum before its bias -/

/-- The first block's sum at `(p, q)`: the row times `Wh`, the aggregated row times `Wu`, and for each of the
    five scalars its signed logarithm `S · log (A + e)` times row `j` of `Wp`, added in this order. -/
theorem pay14_apply (Wh Wu : FVec Ideal S128x128 .f32) (Wp : FVec Ideal S5x128 .f32) (U : FVec Ideal S200x128 .f32)
    (hr : Vec Ideal S200x128 .f32) (S A : FVec Ideal S200x5 .f32) (e : Ideal .f32) (p : Fin 200) (q : Fin 128) :
    k0_pay14 Wh Wu Wp U hr S A e (ix2 p q)
      = (∑ k : Fin 128, hr (ix2 p k) * Wh (ix2 k q)) + (∑ k : Fin 128, U (ix2 p k) * Wu (ix2 k q))
        + S (ix2 p (0 : Fin 5)) * Ideal.log (A (ix2 p (0 : Fin 5)) + e) * Wp (ix2 (0 : Fin 5) q)
        + S (ix2 p (1 : Fin 5)) * Ideal.log (A (ix2 p (1 : Fin 5)) + e) * Wp (ix2 (1 : Fin 5) q)
        + S (ix2 p (2 : Fin 5)) * Ideal.log (A (ix2 p (2 : Fin 5)) + e) * Wp (ix2 (2 : Fin 5) q)
        + S (ix2 p (3 : Fin 5)) * Ideal.log (A (ix2 p (3 : Fin 5)) + e) * Wp (ix2 (3 : Fin 5) q)
        + S (ix2 p (4 : Fin 5)) * Ideal.log (A (ix2 p (4 : Fin 5)) + e) * Wp (ix2 (4 : Fin 5) q) := by
  unfold k0_pay14
  simp only [addf_apply, mulf_apply, log_apply, broadcast_apply, colBroadcast_apply, rowBroadcast_apply, mm128_apply,
    col_apply 0 _ _ p (0 : Fin 1) (0 : Fin 5) rfl, col_apply 1 _ _ p (0 : Fin 1) (1 : Fin 5) rfl,
    col_apply 2 _ _ p (0 : Fin 1) (2 : Fin 5) rfl, col_apply 3 _ _ p (0 : Fin 1) (3 : Fin 5) rfl,
    col_apply 4 _ _ p (0 : Fin 1) (4 : Fin 5) rfl,
    row_apply 0 _ _ (0 : Fin 1) q (0 : Fin 5) rfl, row_apply 1 _ _ (0 : Fin 1) q (1 : Fin 5) rfl,
    row_apply 2 _ _ (0 : Fin 1) q (2 : Fin 5) rfl, row_apply 3 _ _ (0 : Fin 1) q (3 : Fin 5) rfl,
    row_apply 4 _ _ (0 : Fin 1) q (4 : Fin 5) rfl]

/-- The second block's sum at `(p, q)`, with the literal under the logarithm written out. -/
theorem pay21_apply (Wh Wu : FVec Ideal S128x128 .f32) (Wp : FVec Ideal S5x128 .f32) (U : FVec Ideal S200x128 .f32)
    (hr : Vec Ideal S200x128 .f32) (S A : FVec Ideal S200x5 .f32) (p : Fin 200) (q : Fin 128) :
    k0_pay21 Wh Wu Wp U hr S A (ix2 p q)
      = (∑ k : Fin 128, hr (ix2 p k) * Wh (ix2 k q)) + (∑ k : Fin 128, U (ix2 p k) * Wu (ix2 k q))
        + S (ix2 p (0 : Fin 5)) * Ideal.log (A (ix2 p (0 : Fin 5)) + Ideal.ofBits .f32 0x322BCC77#32) * Wp (ix2 (0 : Fin 5) q)
        + S (ix2 p (1 : Fin 5)) * Ideal.log (A (ix2 p (1 : Fin 5)) + Ideal.ofBits .f32 0x322BCC77#32) * Wp (ix2 (1 : Fin 5) q)
        + S (ix2 p (2 : Fin 5)) * Ideal.log (A (ix2 p (2 : Fin 5)) + Ideal.ofBits .f32 0x322BCC77#32) * Wp (ix2 (2 : Fin 5) q)
        + S (ix2 p (3 : Fin 5)) * Ideal.log (A (ix2 p (3 : Fin 5)) + Ideal.ofBits .f32 0x322BCC77#32) * Wp (ix2 (3 : Fin 5) q)
        + S (ix2 p (4 : Fin 5)) * Ideal.log (A (ix2 p (4 : Fin 5)) + Ideal.ofBits .f32 0x322BCC77#32) * Wp (ix2 (4 : Fin 5) q) := by
  unfold k0_pay21
  simp only [addf_apply, mulf_apply, log_apply, broadcast_ofBits_apply, colBroadcast_apply, rowBroadcast_apply, mm128_apply,
    col_apply 0 _ _ p (0 : Fin 1) (0 : Fin 5) rfl, col_apply 1 _ _ p (0 : Fin 1) (1 : Fin 5) rfl,
    col_apply 2 _ _ p (0 : Fin 1) (2 : Fin 5) rfl, col_apply 3 _ _ p (0 : Fin 1) (3 : Fin 5) rfl,
    col_apply 4 _ _ p (0 : Fin 1) (4 : Fin 5) rfl,
    row_apply 0 _ _ (0 : Fin 1) q (0 : Fin 5) rfl, row_apply 1 _ _ (0 : Fin 1) q (1 : Fin 5) rfl,
    row_apply 2 _ _ (0 : Fin 1) q (2 : Fin 5) rfl, row_apply 3 _ _ (0 : Fin 1) q (3 : Fin 5) rfl,
    row_apply 4 _ _ (0 : Fin 1) q (4 : Fin 5) rfl]

end Cert.NodeRow.Ker
-- ==== Proof.PayNorm.lean ====
/-
  The second half of the row-wise node update read at an entry: the gate `x · logistic x`, the second linear
  layer with its bias, the residual, and the layer normalisation of the row (mean and biased variance over the 128
  lanes, reciprocal square root, scale and shift).
-/
import proofs.«149784_g58171037057130_cont_9to1_m_483_14_alg».proof.Proof.Gen.KernelIdeal.Skeleton
import proofs.«149784_g58171037057130_cont_9to1_m_483_14_alg».proof.Proof.Spec
import proofs.«149784_g58171037057130_cont_9to1_m_483_14_alg».proof.Proof.LibRowLayout
import proofs.«149784_g58171037057130_cont_9to1_m_483_14_alg».proof.Proof.PayDot

open scoped BigOperators

namespace Cert.NodeRow.Ker

open Idealize.ShloMosaic Idealize.ShloMosaic.ValueIdx Cert.KernelIdeal Cert.KernelIdeal.Gen

/-- The lane sum of a `[200, 128]` block kept as a column, read at `(p, z)`: `∑ k, X (p, k)`. -/
theorem rowSumCol200 (X : FVec Ideal S200x128 .f32) (p : Fin 200) (z : Fin 1) :
    shapeCast S200x1 (multiReduction .add [1] S200 X 0x00000000#32 reduces_S200x128_S200 (.inl rfl) rfl)
        shapeCasts_S200_S200x1 (ix2 p z)
      = ∑ k : Fin 128, X (ix2 p k) :=
  rowSumCol_apply X _ _ _ _ _ p z

/-- The first block's stored value at `(p, q)`, from the first layer's sum `P` and the spread bias `B`: the
    normalised residual row of the gated `P + B`. -/
theorem pay16_apply (W2 : FVec Ideal S128x128 .f32) (b2 g be : FVec Ideal S1x128 .f32) (hr : Vec Ideal S200x128 .f32)
    (P B : FVec Ideal S200x128 .f32) (p : Fin 200) (q : Fin 128) :
    k0_pay16 W2 b2 g be hr P B (ix2 p q)
      = norm (fun c => g (ix2 (0 : Fin 1) c)) (fun c => be (ix2 (0 : Fin 1) c))
          (resid (fun k c => W2 (ix2 k c)) (fun c => b2 (ix2 (0 : Fin 1) c)) (fun k => hr (ix2 p k))
            (fun k => P (ix2 p k) + B (ix2 p k))) q := by
  unfold k0_pay16
  simp only [addf_apply, mulf_apply, subf_apply, divf_apply, rsqrt_apply, logistic_apply, broadcastTo_1b_ab_apply,
    broadcastTo_a1_ab_apply, broadcast_ofBits_apply, mm128_apply]
  repeat (rw [rowSumCol200]; try simp only [addf_apply, mulf_apply, subf_apply, divf_apply, rsqrt_apply, logistic_apply,
    broadcastTo_1b_ab_apply, broadcastTo_a1_ab_apply, broadcast_ofBits_apply, mm128_apply])
  rfl

/-- The second block's stored value at `(p, q)`, from the first layer's sum `P` and the bias row `b1`. -/
theorem pay1_apply (b1 : FVec Ideal S1x128 .f32) (W2 : FVec Ideal S128x128 .f32) (b2 g be : FVec Ideal S1x128 .f32)
    (hr : Vec Ideal S200x128 .f32) (P : FVec Ideal S200x128 .f32) (p : Fin 200) (q : Fin 128) :
    k0_pay1 b1 W2 b2 g be hr P (ix2 p q)
      = norm (fun c => g (ix2 (0 : Fin 1) c)) (fun c => be (ix2 (0 : Fin 1) c))
          (resid (fun k c => W2 (ix2 k c)) (fun c => b2 (ix2 (0 : Fin 1) c)) (fun k => hr (ix2 p k))
            (fun k => P (ix2 p k) + b1 (ix2 (0 : Fin 1) k))) q := by
  unfold k0_pay1
  simp only [addf_apply, mulf_apply, subf_apply, divf_apply, rsqrt_apply, logistic_apply, broadcastTo_1b_ab_apply,
    broadcastTo_a1_ab_apply, broadcast_ofBits_apply, mm128_apply]
  repeat (rw [rowSumCol200]; try simp only [addf_apply, mulf_apply, subf_apply, divf_apply, rsqrt_apply, logistic_apply,
    broadcastTo_1b_ab_apply, broadcastTo_a1_ab_apply, broadcast_ofBits_apply, mm128_apply])
  rfl

end Cert.NodeRow.Ker
-- ==== Proof.PayRow.lean ====
/-
  The two row blocks a grid point stores, read at an entry: each is the node update of its row — the layer
  normalisation of the residual row of the gated first layer over [row, aggregated neighbours, signed logarithms].
  The weights are read off the loaded blocks by coordinates: `Wh k c = w1h (k, c)`, `b1 c = b1r (0, c)`, …, the
  adjacency row, the feature row and the five scalars of node `p` of the block off row `p` of their blocks.
-/
import proofs.«149784_g58171037057130_cont_9to1_m_483_14_alg».proof.Proof.Gen.KernelIdeal.Skeleton
import proofs.«149784_g58171037057130_cont_9to1_m_483_14_alg».proof.Proof.Spec
import proofs.«149784_g58171037057130_cont_9to1_m_483_14_alg».proof.Proof.PayPre
import proofs.«149784_g58171037057130_cont_9to1_m_483_14_alg».proof.Proof.PayNorm

open scoped BigOperators

namespace Cert.NodeRow.Ker

open Idealize.ShloMosaic Idealize.ShloMosaic.ValueIdx Cert.KernelIdeal Cert.KernelIdeal.Gen

section
variable (hfull : Vec Ideal S10000x128 .f32) (w1h w1u w2 : Vec Ideal S128x128 .f32) (w1p : Vec Ideal S5x128 .f32)
  (b1r b2r gr ber : Vec Ideal S1x128 .f32)

/-- What a grid point stores for its first row block, from the loaded blocks. -/
noncomputable abbrev out0 (adj0 : Vec Ideal S200x10000 .f32) (hrow0 : Vec Ideal S200x128 .f32) (c0 : Vec Ideal S200x5 .f32) :
    FVec Ideal S200x128 .f32 :=
  k0_pay16 (k0_pay6 w2) (k0_pay7 b2r) (k0_pay8 gr) (k0_pay9 ber) hrow0
    (k0_pay14 (k0_pay2 w1h) (k0_pay3 w1u) (k0_pay4 w1p) (k0_pay10 hfull adj0) hrow0 (k0_pay12 c0) (k0_pay13 c0)
      (Scalar.ofBits .f32 0x322BCC77#32))
    (k0_pay15 (k0_pay5 b1r))

/-- What it stores for its second row block. -/
noncomputable abbrev out1 (adj1 : Vec Ideal S200x10000 .f32) (hrow1 : Vec Ideal S200x128 .f32) (c1 : Vec Ideal S200x5 .f32) :
    FVec Ideal S200x128 .f32 :=
  k0_pay1 (k0_pay5 b1r) (k0_pay6 w2) (k0_pay7 b2r) (k0_pay8 gr) (k0_pay9 ber) hrow1
    (k0_pay21 (k0_pay2 w1h) (k0_pay3 w1u) (k0_pay4 w1p) (k0_pay17 hfull adj1) hrow1 (k0_pay19 c1) (k0_pay20 c1))

/-- The first row block at `(p, q)` is entry `q` of the node update of the block's row `p`. -/
theorem out0_apply (adj0 : Vec Ideal S200x10000 .f32) (hrow0 : Vec Ideal S200x128 .f32) (c0 : Vec Ideal S200x5 .f32)
    (p : Fin 200) (q : Fin 128) :
    out0 hfull w1h w1u w2 w1p b1r b2r gr ber adj0 hrow0 c0 (ix2 p q)
      = row (fun k c => w1h (ix2 k c)) (fun k c => w1u (ix2 k c)) (fun j c => w1p (ix2 j c))
          (fun c => b1r (ix2 (0 : Fin 1) c)) (fun k c => w2 (ix2 k c)) (fun c => b2r (ix2 (0 : Fin 1) c))
          (fun c => gr (ix2 (0 : Fin 1) c)) (fun c => ber (ix2 (0 : Fin 1) c)) (fun j k => hfull (ix2 j k))
          (fun j => adj0 (ix2 p j)) (fun k => hrow0 (ix2 p k)) (fun j => c0 (ix2 p j)) q := by
  unfold out0
  rw [pay2_eq, pay3_eq, pay4_eq, pay5_eq, pay6_eq, pay7_eq, pay8_eq, pay9_eq, pay16_apply]
  simp only [pay14_apply, pay15_apply, pay10_apply, pay12_apply, pay13_apply]
  rfl

/-- The second row block likewise. -/
theorem out1_apply (adj1 : Vec Ideal S200x10000 .f32) (hrow1 : Vec Ideal S200x128 .f32) (c1 : Vec Ideal S200x5 .f32)
    (p : Fin 200) (q : Fin 128) :
    out1 hfull w1h w1u w2 w1p b1r b2r gr ber adj1 hrow1 c1 (ix2 p q)
      = row (fun k c => w1h (ix2 k c)) (fun k c => w1u (ix2 k c)) (fun j c => w1p (ix2 j c))
          (fun c => b1r (ix2 (0 : Fin 1) c)) (fun k c => w2 (ix2 k c)) (fun c => b2r (ix2 (0 : Fin 1) c))
          (fun c => gr (ix2 (0 : Fin 1) c)) (fun c => ber (ix2 (0 : Fin 1) c)) (fun j k => hfull (ix2 j k))
          (fun j => adj1 (ix2 p j)) (fun k => hrow1 (ix2 p k)) (fun j => c1 (ix2 p j)) q := by
  unfold out1
  rw [pay2_eq, pay3_eq, pay4_eq, pay5_eq, pay6_eq, pay7_eq, pay8_eq, pay9_eq, pay1_apply]
  simp only [pay21_apply, pay17_apply, pay19_apply, pay20_apply]
  rfl

end

end Cert.NodeRow.Ker
-- ==== Proof.KValIdeal.lean ====
/-
  The value the idealized kernel program computes.

  Read at an entry (r, q), the answer array is the node update of row r at column q: rows below 5000 come from the first
  result array, the others from the second, and each result array is filled block by block — point t of the grid writes
  rows 200·t … 200·t + 199 — with the body's two stored blocks, each of which is the node update of its 200 rows read off
  the arrays the call was handed.
-/
import proofs.«149784_g58171037057130_cont_9to1_m_483_14_alg».proof.Proof.KRunIdeal
import proofs.«149784_g58171037057130_cont_9to1_m_483_14_alg».proof.Proof.KGeomIdeal
import proofs.«149784_g58171037057130_cont_9to1_m_483_14_alg».proof.Proof.CatRows
import proofs.«149784_g58171037057130_cont_9to1_m_483_14_alg».proof.Proof.PayRow

set_option maxRecDepth 16384

noncomputable section

namespace Cert.KernelIdeal.Val

open Cert.KernelIdeal Cert.KernelIdeal.Gen Cert.KernelIdeal.Hand Cert.KernelIdeal.Geom
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The stored block of the upper half is the node update of its 200 rows. -/
theorem blockTop_eq (x0 : Vec Ideal S200x10000 .f32) (x1 : Vec Ideal S200x10000 .f32) (x2 : Vec Ideal S10000x128 .f32) (x3 : Vec Ideal S200x128 .f32) (x4 : Vec Ideal S200x128 .f32) (x5 : Vec Ideal S200x5 .f32) (x6 : Vec Ideal S200x5 .f32) (x7 : Vec Ideal S128x128 .f32) (x8 : Vec Ideal S128x128 .f32) (x9 : Vec Ideal S5x128 .f32) (x10 : Vec Ideal S1x128 .f32) (x11 : Vec Ideal S128x128 .f32) (x12 : Vec Ideal S1x128 .f32) (x13 : Vec Ideal S1x128 .f32) (x14 : Vec Ideal S1x128 .f32) :
    blockTop (F := Ideal) x0 x1 x2 x3 x4 x5 x6 x7 x8 x9 x10 x11 x12 x13 x14 = Cert.NodeRow.Ker.out0 x2 x7 x8 x11 x9 x10 x12 x13 x14 x0 x3 x5 := by
  unfold blockTop
  rw [View.canon_unit_zero hz]
  simp only [View.ld_unit_zero (S := S200x10000) hz, View.ld_unit_zero (S := S10000x128) hz, View.ld_unit_zero (S := S200x128) hz, View.ld_unit_zero (S := S200x5) hz, View.ld_unit_zero (S := S128x128) hz, View.ld_unit_zero (S := S5x128) hz, View.ld_unit_zero (S := S1x128) hz]

/-- The stored block of the lower half likewise. -/
theorem blockBot_eq (x0 : Vec Ideal S200x10000 .f32) (x1 : Vec Ideal S200x10000 .f32) (x2 : Vec Ideal S10000x128 .f32) (x3 : Vec Ideal S200x128 .f32) (x4 : Vec Ideal S200x128 .f32) (x5 : Vec Ideal S200x5 .f32) (x6 : Vec Ideal S200x5 .f32) (x7 : Vec Ideal S128x128 .f32) (x8 : Vec Ideal S128x128 .f32) (x9 : Vec Ideal S5x128 .f32) (x10 : Vec Ideal S1x128 .f32) (x11 : Vec Ideal S128x128 .f32) (x12 : Vec Ideal S1x128 .f32) (x13 : Vec Ideal S1x128 .f32) (x14 : Vec Ideal S1x128 .f32) :
    blockBot (F := Ideal) x0 x1 x2 x3 x4 x5 x6 x7 x8 x9 x10 x11 x12 x13 x14 = Cert.NodeRow.Ker.out1 x2 x7 x8 x11 x9 x10 x12 x13 x14 x1 x4 x6 := by
  unfold blockBot
  rw [View.canon_unit_zero hz]
  simp only [View.ld_unit_zero (S := S200x10000) hz, View.ld_unit_zero (S := S10000x128) hz, View.ld_unit_zero (S := S200x128) hz, View.ld_unit_zero (S := S200x5) hz, View.ld_unit_zero (S := S128x128) hz, View.ld_unit_zero (S := S5x128) hz, View.ld_unit_zero (S := S1x128) hz]

/-- The row function depends on its thirteen data only. -/
theorem row_congr {Wh Wh' Wu Wu' Wp Wp' b1 b1' W2 W2' b2 b2' g g' be be' H H' a a' hr hr' cr cr'} {q : Fin 128}
    (hWh : (Wh : Fin 128 → Fin 128 → EReal) = Wh') (hWu : (Wu : Fin 128 → Fin 128 → EReal) = Wu') (hWp : (Wp : Fin 5 → Fin 128 → EReal) = Wp') (hb1 : (b1 : Fin 128 → EReal) = b1') (hW2 : (W2 : Fin 128 → Fin 128 → EReal) = W2') (hb2 : (b2 : Fin 128 → EReal) = b2') (hg : (g : Fin 128 → EReal) = g') (hbe : (be : Fin 128 → EReal) = be') (hH : (H : Fin 10000 → Fin 128 → EReal) = H') (ha : (a : Fin 10000 → EReal) = a') (hhr : (hr : Fin 128 → EReal) = hr') (hcr : (cr : Fin 5 → EReal) = cr') :
    Cert.NodeRow.row Wh Wu Wp b1 W2 b2 g be H a hr cr q = Cert.NodeRow.row Wh' Wu' Wp' b1' W2' b2' g' be' H' a' hr' cr' q := by
  subst hWh hWu hWp hb1 hW2 hb2 hg hbe hH ha hhr hcr; rfl

/-- The node update of row `r`, read off the arrays the call is handed. -/
def rowV (c : Dev nD) (r : Fin 10000) (q : Fin 128) : EReal :=
  Cert.NodeRow.row (fun k q' => V m c main_v7 (ix2 k q')) (fun k q' => V m c main_v9 (ix2 k q')) (fun j q' => V m c main_v11 (ix2 j q'))
    (fun q' => V m c main_v13 (ix2 (0 : Fin 1) q')) (fun k q' => V m c main_v12 (ix2 k q')) (fun q' => V m c main_v14 (ix2 (0 : Fin 1) q'))
    (fun q' => V m c main_v15 (ix2 (0 : Fin 1) q')) (fun q' => V m c main_v16 (ix2 (0 : Fin 1) q')) (fun j k => V m c main_arg0 (ix2 j k))
    (fun j => V m c main_arg6 (ix2 r j)) (fun k => V m c main_arg0 (ix2 r k)) (fun j => V m c main_v5 (ix2 r j)) q

theorem lt_top (i : S5000x128.Idx) : (i 0).val < 10000 := by have h : (i 0).val < 5000 := (i 0).isLt; omega
theorem lt_bot (i : S5000x128.Idx) : (i 0).val + 5000 < 10000 := by have h : (i 0).val < 5000 := (i 0).isLt; omega
theorem lt_col (i : S5000x128.Idx) : (i 1).val < 128 := (i 1).isLt

/-- The first result array: row `i` of it is node `i`. -/
def GTop (c : Dev nD) : S5000x128.Idx → Elt Ideal .f32 := fun i => rowV m c ⟨(i 0).val, lt_top i⟩ ⟨(i 1).val, lt_col i⟩
/-- The second: row `i` of it is node `5000 + i`. -/
def GBot (c : Dev nD) : S5000x128.Idx → Elt Ideal .f32 := fun i => rowV m c ⟨(i 0).val + 5000, lt_bot i⟩ ⟨(i 1).val, lt_col i⟩

/-- What point `t` writes back to the first result array is block `t` of `GTop`. -/
theorem flushed15 (c : Dev nD) (t : Fin cfg0.N) :
    (dats m 0 c).flushed 15 t = ((cfg0.win 15).blk t).view.read (Elt Ideal) (GTop m c) := by
  show (cfg0.win 15).cut (grid0.coords t) ((dats m 0 c).after 15 t) = _
  rw [after0_15, blockTop_eq]
  funext j
  obtain ⟨p, q, rfl⟩ : ∃ (p : Fin 200) (q : Fin 128), j = ix2 p q := ⟨j 0, j 1, eq_ix2 j⟩
  rw [read15]
  show Cert.NodeRow.Ker.out0 (iblk m c 2 t) (iblk m c 7 t) (iblk m c 8 t) (iblk m c 11 t) (iblk m c 9 t) (iblk m c 10 t) (iblk m c 12 t) (iblk m c 13 t) (iblk m c 14 t) (iblk m c 0 t) (iblk m c 3 t) (iblk m c 5 t) (ix2 p q) = _
  refine (Cert.NodeRow.Ker.out0_apply (iblk m c 2 t) (iblk m c 7 t) (iblk m c 8 t) (iblk m c 11 t) (iblk m c 9 t) (iblk m c 10 t) (iblk m c 12 t) (iblk m c 13 t) (iblk m c 14 t) (iblk m c 0 t) (iblk m c 3 t) (iblk m c 5 t) p q).trans ?_
  unfold GTop rowV
  exact row_congr (funext fun k => funext fun q' => blk7 m c t k q') (funext fun k => funext fun q' => blk8 m c t k q')
    (funext fun j => funext fun q' => blk9 m c t j q') (funext fun q' => blk10 m c t 0 q') (funext fun k => funext fun q' => blk11 m c t k q')
    (funext fun q' => blk12 m c t 0 q') (funext fun q' => blk13 m c t 0 q') (funext fun q' => blk14 m c t 0 q')
    (funext fun j => funext fun k => blk2 m c t j k) (funext fun j => blk0 m c t p j) (funext fun k => blk3 m c t p k)
    (funext fun j => blk5 m c t p j)

theorem row_bot (t : Fin cfg0.N) (p : Fin 200) (q : Fin 128) :
    (⟨5000 + t.val * 200 + p.val, ltBot t p⟩ : Fin 10000) = ⟨((ix2 (⟨t.val * 200 + p.val, lt5000 t p⟩ : Fin 5000) q : S5000x128.Idx) 0).val + 5000, lt_bot _⟩ :=
  Fin.ext (by show 5000 + t.val * 200 + p.val = t.val * 200 + p.val + 5000; omega)

/-- What point `t` writes back to the second result array is block `t` of `GBot`. -/
theorem flushed16 (c : Dev nD) (t : Fin cfg0.N) :
    (dats m 0 c).flushed 16 t = ((cfg0.win 16).blk t).view.read (Elt Ideal) (GBot m c) := by
  show (cfg0.win 16).cut (grid0.coords t) ((dats m 0 c).after 16 t) = _
  rw [after0_16, blockBot_eq]
  funext j
  obtain ⟨p, q, rfl⟩ : ∃ (p : Fin 200) (q : Fin 128), j = ix2 p q := ⟨j 0, j 1, eq_ix2 j⟩
  rw [read16]
  show Cert.NodeRow.Ker.out1 (iblk m c 2 t) (iblk m c 7 t) (iblk m c 8 t) (iblk m c 11 t) (iblk m c 9 t) (iblk m c 10 t) (iblk m c 12 t) (iblk m c 13 t) (iblk m c 14 t) (iblk m c 1 t) (iblk m c 4 t) (iblk m c 6 t) (ix2 p q) = _
  refine (Cert.NodeRow.Ker.out1_apply (iblk m c 2 t) (iblk m c 7 t) (iblk m c 8 t) (iblk m c 11 t) (iblk m c 9 t) (iblk m c 10 t) (iblk m c 12 t) (iblk m c 13 t) (iblk m c 14 t) (iblk m c 1 t) (iblk m c 4 t) (iblk m c 6 t) p q).trans ?_
  unfold GBot rowV
  exact row_congr (funext fun k => funext fun q' => blk7 m c t k q') (funext fun k => funext fun q' => blk8 m c t k q')
    (funext fun j => funext fun q' => blk9 m c t j q') (funext fun q' => blk10 m c t 0 q') (funext fun k => funext fun q' => blk11 m c t k q')
    (funext fun q' => blk12 m c t 0 q') (funext fun q' => blk13 m c t 0 q') (funext fun q' => blk14 m c t 0 q')
    (funext fun j => funext fun k => blk2 m c t j k)
    (funext fun j => (blk1 m c t p j).trans (congrArg (fun r => V m c main_arg6 (ix2 r j)) (row_bot t p q)))
    (funext fun k => (blk4 m c t p k).trans (congrArg (fun r => V m c main_arg0 (ix2 r k)) (row_bot t p q)))
    (funext fun j => (blk6 m c t p j).trans (congrArg (fun r => V m c main_v5 (ix2 r j)) (row_bot t p q)))

/-- The two result arrays after the call. -/
theorem outTop_eq (c : Dev nD) : outTop m c = GTop m c :=
  (dats m 0 c).arrAt_eq_of_cover 15 (GTop m c) (fun t _ => flushed15 m c t) cover15
theorem outBot_eq (c : Dev nD) : outBot m c = GBot m c :=
  (dats m 0 c).arrAt_eq_of_cover 16 (GBot m c) (fun t _ => flushed16 m c t) cover16

/-- The answer array is the two result arrays stacked. -/
theorem V3_v18 (c : Dev nD) :
    (V3 m c main_v18 : S10000x128.Idx → Elt Ideal .f32) = concatenate S10000x128 0 [⟨S5000x128, outTop m c⟩, ⟨S5000x128, outBot m c⟩] concatenates_S5000x128_S5000x128_S10000x128_d0 := by
  rw [← V2_top m c, ← V2_bot m c]
  show StableHlo.after hostOps1 (V2 m c) (Proc.devRef .tc main_v18) = _
  after_results

/-- THE ANSWER, entry by entry: the node update of row `r` at column `q`. -/
theorem answerV (c : Dev nD) (r : Fin 10000) (q : Fin 128) : V3 m c main_v18 (ix2 r q) = rowV m c r q := by
  refine (congrFun (V3_v18 m c) (ix2 r q)).trans ?_
  rw [Cert.NodeRow.Ker.stack_rows, outTop_eq, outBot_eq]
  split
  · rfl
  · rename_i h
    show rowV m c ⟨(r.val - 5000) + 5000, _⟩ ⟨q.val, _⟩ = rowV m c r q
    congr 1
    exact Fin.ext (by show r.val - 5000 + 5000 = r.val; omega)

end Cert.KernelIdeal.Val

end
-- ==== Proof.KHostIdeal.lean ====
/-
  The arrays the call is entered with, read entry by entry.

  Before the call seventeen layout operations prepare its operands from the arguments: each of the five vectors of
  10000 physical scalars becomes a column and the five columns are laid side by side; the stacked first-layer matrix
  (128 rows, 261 columns) is cut into its column ranges `0 … 127`, `128 … 255`, `256 … 260` and each cut is transposed;
  the second-layer matrix is transposed; the two bias vectors and the two normalisation vectors become one-row matrices.
  Each prepared array, at an index, is one entry of one argument; the arguments themselves are unchanged.
-/
import proofs.«149784_g58171037057130_cont_9to1_m_483_14_alg».proof.Proof.KDataIdeal
import Idealize.ShloMosaic.Lib.Pipeline.Value
import Idealize.ShloMosaic.Lib.ValueIdx
import Idealize.ShloMosaic.Lib.StableHlo.Run

set_option maxRecDepth 16384

noncomputable section

namespace Cert.KernelIdeal.HostRead

open Cert.KernelIdeal Cert.KernelIdeal.Gen Cert.KernelIdeal.Hand
open Idealize.ShloMosaic Idealize.ShloMosaic.TcCoe Idealize.ShloMosaic.ValueIdx
open Idealize.ShloMosaic.StableHlo (after_cons after_nil)

variable {F : FTy → Type} [FloatOps F]
variable (m : (ℓ : Loc nD τ sig) → Buf (Elt F) ℓ)

/-! ## The weight blocks: a slice of the stacked first-layer matrix, transposed -/

/-- Columns `0 … 127` of the stacked matrix, transposed. -/
theorem v7 (c : Dev nD) (k q : Fin 128) :
    (V m c main_v7 : S128x128.Idx → Elt F .f32) (ix2 k q)
      = (m (c, main_arg7) : S128x261.Idx → Elt F .f32) (ix2 q ⟨k.val, by omega⟩) := by
  have e : (V m c main_v7 : S128x128.Idx → Elt F .f32)
      = transpose S128x128 [1, 0] (extractStridedSlice S128x128 ![0, 0] (m (c, main_arg7)) slices_S128x261_S128x128_0_0) transposes_S128x128_S128x128_1_0 := by
    dsimp only [V, hostOps0]
    after_results
  rw [e]
  refine (transpose_apply _ _ _ (ix2 k q) (ix2 q k) (fun b => match b with | ⟨0, _⟩ => rfl | ⟨1, _⟩ => rfl)).trans ?_
  exact extractStridedSlice_apply _ _ _ (ix2 q k) (ix2 q ⟨k.val, by omega⟩)
    (fun a => match a with
      | ⟨0, _⟩ => by show q.val = 0 + q.val; omega
      | ⟨1, _⟩ => by show k.val = 0 + k.val; omega)

/-- Columns `128 … 255` of the stacked matrix, transposed. -/
theorem v9 (c : Dev nD) (k q : Fin 128) :
    (V m c main_v9 : S128x128.Idx → Elt F .f32) (ix2 k q)
      = (m (c, main_arg7) : S128x261.Idx → Elt F .f32) (ix2 q ⟨128 + k.val, by omega⟩) := by
  have e : (V m c main_v9 : S128x128.Idx → Elt F .f32)
      = transpose S128x128 [1, 0] (extractStridedSlice S128x128 ![0, 128] (m (c, main_arg7)) slices_S128x261_S128x128_0_128) transposes_S128x128_S128x128_1_0 := by
    dsimp only [V, hostOps0]
    after_results
  rw [e]
  refine (transpose_apply _ _ _ (ix2 k q) (ix2 q k) (fun b => match b with | ⟨0, _⟩ => rfl | ⟨1, _⟩ => rfl)).trans ?_
  exact extractStridedSlice_apply _ _ _ (ix2 q k) (ix2 q ⟨128 + k.val, by omega⟩)
    (fun a => match a with
      | ⟨0, _⟩ => by show q.val = 0 + q.val; omega
      | ⟨1, _⟩ => by show 128 + k.val = 128 + k.val; rfl)

/-- Columns `256 … 260` of the stacked matrix, transposed. -/
theorem v11 (c : Dev nD) (j : Fin 5) (q : Fin 128) :
    (V m c main_v11 : S5x128.Idx → Elt F .f32) (ix2 j q)
      = (m (c, main_arg7) : S128x261.Idx → Elt F .f32) (ix2 q ⟨256 + j.val, by omega⟩) := by
  have e : (V m c main_v11 : S5x128.Idx → Elt F .f32)
      = transpose S5x128 [1, 0] (extractStridedSlice S128x5 ![0, 256] (m (c, main_arg7)) slices_S128x261_S128x5_0_256) transposes_S128x5_S5x128_1_0 := by
    dsimp only [V, hostOps0]
    after_results
  rw [e]
  refine (transpose_apply _ _ _ (ix2 j q) (ix2 q j) (fun b => match b with | ⟨0, _⟩ => rfl | ⟨1, _⟩ => rfl)).trans ?_
  exact extractStridedSlice_apply _ _ _ (ix2 q j) (ix2 q ⟨256 + j.val, by omega⟩)
    (fun a => match a with
      | ⟨0, _⟩ => by show q.val = 0 + q.val; omega
      | ⟨1, _⟩ => by show 256 + j.val = 256 + j.val; rfl)

/-- The second-layer matrix, transposed. -/
theorem v12 (c : Dev nD) (k q : Fin 128) :
    (V m c main_v12 : S128x128.Idx → Elt F .f32) (ix2 k q)
      = (m (c, main_arg9) : S128x128.Idx → Elt F .f32) (ix2 q k) := by
  have e : (V m c main_v12 : S128x128.Idx → Elt F .f32)
      = transpose S128x128 [1, 0] (m (c, main_arg9)) transposes_S128x128_S128x128_1_0 := by
    dsimp only [V, hostOps0]
    after_results
  rw [e]
  exact transpose_apply _ _ _ (ix2 k q) (ix2 q k) (fun b => match b with | ⟨0, _⟩ => rfl | ⟨1, _⟩ => rfl)

/-! ## The four vectors as one-row matrices -/

/-- A vector of 128 entries read as a one-row matrix. -/
theorem row_apply (x : S128.Idx → Elt F .f32) (q : Fin 128) :
    shapeCast S1x128 x shapeCasts_S128_S1x128 (ix2 (0 : Fin 1) q) = x (ix1 q) := by
  refine shapeCast_apply x _ (ix2 (0 : Fin 1) q) (ix1 q) ?_
  rw [Shape.rowMajor_val_one, Shape.rowMajor_val_two]
  show q.val = 0 * 128 + q.val
  omega

theorem v13 (c : Dev nD) (q : Fin 128) :
    (V m c main_v13 : S1x128.Idx → Elt F .f32) (ix2 (0 : Fin 1) q) = (m (c, main_arg8) : S128.Idx → Elt F .f32) (ix1 q) := by
  have e : (V m c main_v13 : S1x128.Idx → Elt F .f32) = shapeCast S1x128 (m (c, main_arg8)) shapeCasts_S128_S1x128 := by
    dsimp only [V, hostOps0]
    after_results
    rfl
  rw [e]
  exact row_apply _ q

theorem v14 (c : Dev nD) (q : Fin 128) :
    (V m c main_v14 : S1x128.Idx → Elt F .f32) (ix2 (0 : Fin 1) q) = (m (c, main_arg10) : S128.Idx → Elt F .f32) (ix1 q) := by
  have e : (V m c main_v14 : S1x128.Idx → Elt F .f32) = shapeCast S1x128 (m (c, main_arg10)) shapeCasts_S128_S1x128 := by
    dsimp only [V, hostOps0]
    after_results
    rfl
  rw [e]
  exact row_apply _ q

theorem v15 (c : Dev nD) (q : Fin 128) :
    (V m c main_v15 : S1x128.Idx → Elt F .f32) (ix2 (0 : Fin 1) q) = (m (c, main_arg11) : S128.Idx → Elt F .f32) (ix1 q) := by
  have e : (V m c main_v15 : S1x128.Idx → Elt F .f32) = shapeCast S1x128 (m (c, main_arg11)) shapeCasts_S128_S1x128 := by
    dsimp only [V, hostOps0]
    after_results
    rfl
  rw [e]
  exact row_apply _ q

theorem v16 (c : Dev nD) (q : Fin 128) :
    (V m c main_v16 : S1x128.Idx → Elt F .f32) (ix2 (0 : Fin 1) q) = (m (c, main_arg12) : S128.Idx → Elt F .f32) (ix1 q) := by
  have e : (V m c main_v16 : S1x128.Idx → Elt F .f32) = shapeCast S1x128 (m (c, main_arg12)) shapeCasts_S128_S1x128 := by
    dsimp only [V, hostOps0]
    after_results
    rfl
  rw [e]
  exact row_apply _ q

/-! ## The arguments no operation writes -/

theorem a0 (c : Dev nD) : V m c main_arg0 = m (c, main_arg0) := by
  dsimp only [V, hostOps0]
  after_results

theorem a6 (c : Dev nD) : V m c main_arg6 = m (c, main_arg6) := by
  dsimp only [V, hostOps0]
  after_results

/-! ## The five physical scalars stacked as columns -/

section Stack
variable {α : Type}

/-- Five one-column matrices laid side by side, read at row `r`, column `j`: the `j`-th matrix at row `r`. -/
theorem cat5_apply (x0 x1 x2 x3 x4 : S10000x1.Idx → α) (r : Fin 10000) (j : Fin 5) :
    concatenate S10000x5 1 [⟨S10000x1, x0⟩, ⟨S10000x1, x1⟩, ⟨S10000x1, x2⟩, ⟨S10000x1, x3⟩, ⟨S10000x1, x4⟩]
        concatenates_S10000x1_S10000x1_S10000x1_S10000x1_S10000x1_S10000x5_d1 (ix2 r j)
      = ![x0 (ix2 r (0 : Fin 1)), x1 (ix2 r (0 : Fin 1)), x2 (ix2 r (0 : Fin 1)), x3 (ix2 r (0 : Fin 1)), x4 (ix2 r (0 : Fin 1))] j := by
  have hi : ∀ (jj : Fin 5) (b : Fin S10000x1.rank), b.cast (rfl : S10000x1.rank = S10000x5.rank) ≠ (1 : Fin S10000x5.rank) →
      ((ix2 r (0 : Fin 1) : S10000x1.Idx) b).val = ((ix2 r jj : S10000x5.Idx) (b.cast rfl)).val := fun jj b hb =>
    match b, hb with
    | ⟨0, _⟩, _ => rfl
    | ⟨1, _⟩, hb => absurd rfl hb
  match j with
  | ⟨0, _⟩ => exact concatenate_apply_piece (t := S10000x5) 1 [⟨S10000x1, x0⟩, ⟨S10000x1, x1⟩, ⟨S10000x1, x2⟩, ⟨S10000x1, x3⟩, ⟨S10000x1, x4⟩] _ _ 0 (by show 0 < 5; omega) S10000x1 x0 rfl rfl 0 rfl (ix2 r (0 : Fin 1)) (hi _) rfl
  | ⟨1, _⟩ => exact concatenate_apply_piece (t := S10000x5) 1 [⟨S10000x1, x0⟩, ⟨S10000x1, x1⟩, ⟨S10000x1, x2⟩, ⟨S10000x1, x3⟩, ⟨S10000x1, x4⟩] _ _ 1 (by show 1 < 5; omega) S10000x1 x1 rfl rfl 1 rfl (ix2 r (0 : Fin 1)) (hi _) rfl
  | ⟨2, _⟩ => exact concatenate_apply_piece (t := S10000x5) 1 [⟨S10000x1, x0⟩, ⟨S10000x1, x1⟩, ⟨S10000x1, x2⟩, ⟨S10000x1, x3⟩, ⟨S10000x1, x4⟩] _ _ 2 (by show 2 < 5; omega) S10000x1 x2 rfl rfl 2 rfl (ix2 r (0 : Fin 1)) (hi _) rfl
  | ⟨3, _⟩ => exact concatenate_apply_piece (t := S10000x5) 1 [⟨S10000x1, x0⟩, ⟨S10000x1, x1⟩, ⟨S10000x1, x2⟩, ⟨S10000x1, x3⟩, ⟨S10000x1, x4⟩] _ _ 3 (by show 3 < 5; omega) S10000x1 x3 rfl rfl 3 rfl (ix2 r (0 : Fin 1)) (hi _) rfl
  | ⟨4, _⟩ => exact concatenate_apply_piece (t := S10000x5) 1 [⟨S10000x1, x0⟩, ⟨S10000x1, x1⟩, ⟨S10000x1, x2⟩, ⟨S10000x1, x3⟩, ⟨S10000x1, x4⟩] _ _ 4 (by show 4 < 5; omega) S10000x1 x4 rfl rfl 4 rfl (ix2 r (0 : Fin 1)) (hi _) rfl

/-- A vector of 10000 entries broadcast to one column, read at row `r`. -/
theorem col_apply (x : S10000.Idx → α) (r : Fin 10000) :
    broadcastInDim S10000x1 ![0] bcast_S10000_S10000x1_0 x (ix2 r (0 : Fin 1)) = x (ix1 r) :=
  broadcastInDim_apply _ _ x (ix2 r (0 : Fin 1)) (ix1 r) (fun a => match a with | ⟨0, _⟩ => rfl)

end Stack

section Nary5
variable {Val : EltTy → Type} {x0 x1 x2 x3 x4 y : Ref sig .tc}

/-- An operation over a literal family of five references: the result with each operand's contents at its own reference. -/
theorem nary5_result
    (f : ((k : Fin 5) → ((![x0, x1, x2, x3, x4] : Fin 5 → Ref sig .tc) k).ty.Contents Val) → y.ty.Contents Val) (hxs hy)
    (G : Valuation τ sig Val) :
    (StableHlo.nary (τ := τ) ![x0, x1, x2, x3, x4] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (fun i => i.elim0)))))) := by
  rw [StableHlo.nary_result]; congr 1; funext k; fin_cases k <;> rfl

end Nary5

theorem v5 (c : Dev nD) (r : Fin 10000) (j : Fin 5) :
    (V m c main_v5 : S10000x5.Idx → Elt F .f32) (ix2 r j)
      = ![(m (c, main_arg1) : S10000.Idx → Elt F .f32) (ix1 r), (m (c, main_arg2) : S10000.Idx → Elt F .f32) (ix1 r),
          (m (c, main_arg3) : S10000.Idx → Elt F .f32) (ix1 r), (m (c, main_arg4) : S10000.Idx → Elt F .f32) (ix1 r),
          (m (c, main_arg5) : S10000.Idx → Elt F .f32) (ix1 r)] j := by
  have e : (V m c main_v5 : S10000x5.Idx → Elt F .f32)
      = concatenate S10000x5 1
          [⟨S10000x1, broadcastInDim S10000x1 ![0] bcast_S10000_S10000x1_0 (m (c, main_arg1) : S10000.Idx → Elt F .f32)⟩,
           ⟨S10000x1, broadcastInDim S10000x1 ![0] bcast_S10000_S10000x1_0 (m (c, main_arg2) : S10000.Idx → Elt F .f32)⟩,
           ⟨S10000x1, broadcastInDim S10000x1 ![0] bcast_S10000_S10000x1_0 (m (c, main_arg3) : S10000.Idx → Elt F .f32)⟩,
           ⟨S10000x1, broadcastInDim S10000x1 ![0] bcast_S10000_S10000x1_0 (m (c, main_arg4) : S10000.Idx → Elt F .f32)⟩,
           ⟨S10000x1, broadcastInDim S10000x1 ![0] bcast_S10000_S10000x1_0 (m (c, main_arg5) : S10000.Idx → Elt F .f32)⟩]
          concatenates_S10000x1_S10000x1_S10000x1_S10000x1_S10000x1_S10000x5_d1 := by
    dsimp only [V, hostOps0]
    simp only [after_cons, after_nil]
    repeat (first
      | (rw [StableHlo.unary_result_ne]; rotate_left; decide)
      | (rw [StableHlo.reshape_result_ne]; rotate_left; decide))
    rw [nary5_result]
    repeat (first
      | rw [StableHlo.unary_result]
      | (rw [StableHlo.unary_result_ne]; rotate_left; decide))
    rfl
  rw [e, cat5_apply, col_apply, col_apply, col_apply, col_apply, col_apply]

end Cert.KernelIdeal.HostRead
end
-- ==== Proof.RefArgs.lean ====
/-
  The row data of the node update, read off the thirteen argument arrays.

  For a row index r of the node arrays: the three transposed column blocks of the first layer's matrix,
  the transposed second matrix, the four vectors, the whole feature matrix, and the r-th adjacency row,
  feature row and quintuple of physical scalars.
-/
import Idealize.ShloMosaic.Lib.ValueIdx
import Idealize.ShloMosaic.PureOps.Ideal

noncomputable section

namespace Cert.NodeRow.Ref

open Idealize.ShloMosaic

/-- A matrix of extended reals with literal extents. -/
abbrev Mat (a b : Nat) : Type := (⟨2, ![a, b]⟩ : Shape).Idx → EReal
/-- A vector of extended reals with a literal extent. -/
abbrev Vect (a : Nat) : Type := (⟨1, ![a]⟩ : Shape).Idx → EReal

/-- Columns [0,128) of the first matrix, transposed. -/
def Wh (x7 : Mat 128 261) (k q : Fin 128) : EReal := x7 (ValueIdx.ix2 q ⟨k.val, by have := k.isLt; omega⟩)
/-- Columns [128,256) of the first matrix, transposed. -/
def Wu (x7 : Mat 128 261) (k q : Fin 128) : EReal := x7 (ValueIdx.ix2 q ⟨128 + k.val, by have := k.isLt; omega⟩)
/-- Columns [256,261) of the first matrix, transposed. -/
def Wp (x7 : Mat 128 261) (j : Fin 5) (q : Fin 128) : EReal := x7 (ValueIdx.ix2 q ⟨256 + j.val, by have := j.isLt; omega⟩)
/-- A vector of 128 as a function of its coordinate (the two biases, the scale and the shift). -/
def vec (x : Vect 128) (q : Fin 128) : EReal := x (ValueIdx.ix1 q)
/-- The second matrix, transposed. -/
def W2 (x9 : Mat 128 128) (k q : Fin 128) : EReal := x9 (ValueIdx.ix2 q k)
/-- The whole feature matrix. -/
def H (x0 : Mat 10000 128) (j : Fin 10000) (k : Fin 128) : EReal := x0 (ValueIdx.ix2 j k)
/-- Row r of the adjacency matrix. -/
def arow (x6 : Mat 10000 10000) (r j : Fin 10000) : EReal := x6 (ValueIdx.ix2 r j)
/-- Row r of the feature matrix. -/
def hrow (x0 : Mat 10000 128) (r : Fin 10000) (k : Fin 128) : EReal := x0 (ValueIdx.ix2 r k)
/-- The five physical scalars of row r. -/
def crow (x1 x2 x3 x4 x5 : Vect 10000) (r : Fin 10000) : Fin 5 → EReal :=
  ![x1 (ValueIdx.ix1 r), x2 (ValueIdx.ix1 r), x3 (ValueIdx.ix1 r), x4 (ValueIdx.ix1 r), x5 (ValueIdx.ix1 r)]

end Cert.NodeRow.Ref

end
-- ==== Proof.KAnsIdeal.lean ====
/-
  The answer of the idealized kernel program in terms of the program's thirteen arguments.

  The arrays the call is handed are re-laid pieces of the arguments: the weight matrix of the first linear layer cut into
  three column ranges and transposed, the second transposed, the vectors as rows, the five scalars as the columns of one
  array; the adjacency and feature matrices are the arguments themselves. Substituting these readings, every entry of the
  answer is the node-update row function of the arguments.
-/
import proofs.«149784_g58171037057130_cont_9to1_m_483_14_alg».proof.Proof.KValIdeal
import proofs.«149784_g58171037057130_cont_9to1_m_483_14_alg».proof.Proof.KHostIdeal
import proofs.«149784_g58171037057130_cont_9to1_m_483_14_alg».proof.Proof.RefArgs

set_option maxRecDepth 16384

noncomputable section

namespace Cert.KernelIdeal.Val

open Cert.KernelIdeal Cert.KernelIdeal.Gen Cert.KernelIdeal.Hand Cert.KernelIdeal.HostRead
open Idealize.ShloMosaic Idealize.ShloMosaic.TcCoe Idealize.SL.Sem Idealize.ShloMosaic.ValueIdx
open Cert.NodeRow.Ref (Wh Wu Wp vec W2 H arow hrow crow)

variable (m : (ℓ : Loc nD τ sig) → Buf (Elt Ideal) ℓ)

/-- The row function read off the call's operands is the row function of the arguments. -/
theorem rowV_eq (c : Dev nD) (r : Fin 10000) (q : Fin 128) :
    rowV m c r q = Cert.NodeRow.row (Wh (m ((c : Thread nD τ).loc main_arg7))) (Wu (m ((c : Thread nD τ).loc main_arg7))) (Wp (m ((c : Thread nD τ).loc main_arg7))) (vec (m ((c : Thread nD τ).loc main_arg8))) (W2 (m ((c : Thread nD τ).loc main_arg9))) (vec (m ((c : Thread nD τ).loc main_arg10))) (vec (m ((c : Thread nD τ).loc main_arg11))) (vec (m ((c : Thread nD τ).loc main_arg12)))
      (H (m ((c : Thread nD τ).loc main_arg0))) (arow (m ((c : Thread nD τ).loc main_arg6)) r) (hrow (m ((c : Thread nD τ).loc main_arg0)) r) (crow (m ((c : Thread nD τ).loc main_arg1)) (m ((c : Thread nD τ).loc main_arg2)) (m ((c : Thread nD τ).loc main_arg3)) (m ((c : Thread nD τ).loc main_arg4)) (m ((c : Thread nD τ).loc main_arg5)) r) q := by
  unfold rowV
  exact row_congr (funext fun k => funext fun q' => v7 m c k q') (funext fun k => funext fun q' => v9 m c k q')
    (funext fun j => funext fun q' => v11 m c j q') (funext fun q' => v13 m c q') (funext fun k => funext fun q' => v12 m c k q')
    (funext fun q' => v14 m c q') (funext fun q' => v15 m c q') (funext fun q' => v16 m c q')
    (funext fun j => funext fun k => congrFun (a0 m c) (ix2 j k)) (funext fun j => congrFun (a6 m c) (ix2 r j))
    (funext fun k => congrFun (a0 m c) (ix2 r k)) (funext fun j => v5 m c r j)

/-- THE ANSWER in the arguments. -/
theorem answer (c : Dev nD) (r : Fin 10000) (q : Fin 128) :
    V3 m c main_v18 (ix2 r q) = Cert.NodeRow.row (Wh (m ((c : Thread nD τ).loc main_arg7))) (Wu (m ((c : Thread nD τ).loc main_arg7))) (Wp (m ((c : Thread nD τ).loc main_arg7))) (vec (m ((c : Thread nD τ).loc main_arg8))) (W2 (m ((c : Thread nD τ).loc main_arg9))) (vec (m ((c : Thread nD τ).loc main_arg10))) (vec (m ((c : Thread nD τ).loc main_arg11))) (vec (m ((c : Thread nD τ).loc main_arg12)))
      (H (m ((c : Thread nD τ).loc main_arg0))) (arow (m ((c : Thread nD τ).loc main_arg6)) r) (hrow (m ((c : Thread nD τ).loc main_arg0)) r) (crow (m ((c : Thread nD τ).loc main_arg1)) (m ((c : Thread nD τ).loc main_arg2)) (m ((c : Thread nD τ).loc main_arg3)) (m ((c : Thread nD τ).loc main_arg4)) (m ((c : Thread nD τ).loc main_arg5)) r) q :=
  (answerV m c r q).trans (rowV_eq m c r q)

end Cert.KernelIdeal.Val

end
-- ==== Proof.LibRsqrtDiv.lean ====
/-
  Two facts about the extended reals under the exact float operations: at a positive argument (the top element included)
  the product with the reciprocal square root is the quotient by the square root, `a · rsqrt v = a / sqrt v`; and a square
  `z · z` is never negative, at the infinities too.
-/
import Idealize.ShloMosaic.PureOps.Ideal
import Idealize.ShloMosaic.Lib.IdealHost

noncomputable section

namespace Cert.NodeRow.Ref

open Idealize.ShloMosaic

/-- At a positive argument the product with the reciprocal square root is the quotient by the square root. -/
theorem mul_rsqrt (a v : EReal) (hv : 0 < v) : a * Ideal.rsqrt v = Ideal.div a (Ideal.sqrt v) := by
  induction v using EReal.rec with
  | bot => exact absurd hv (by simp)
  | top =>
    rw [Ideal.rsqrt_top, Ideal.sqrt_top, Ideal.div, if_neg EReal.top_ne_zero, EReal.inv_top]
  | coe r =>
    have hr : 0 < r := EReal.coe_pos.mp hv
    have hs : 0 < Real.sqrt r := Real.sqrt_pos.mpr hr
    have hne : ((Real.sqrt r : ℝ) : EReal) ≠ 0 := by exact_mod_cast hs.ne'
    rw [Ideal.rsqrt_coe, Ideal.sqrt_coe, if_neg (not_lt.mpr hr.le), if_neg hr.ne', if_neg (not_lt.mpr hr.le), Ideal.div, if_neg hne,
      EReal.coe_inv]

/-- A square of an extended real is not negative. -/
theorem mul_self_nonneg' (z : EReal) : 0 ≤ z * z := by
  induction z using EReal.rec with
  | bot => simp
  | top => simp
  | coe r => exact_mod_cast mul_self_nonneg r

end Cert.NodeRow.Ref

end
-- ==== Proof.RefLaws.lean ====
/-
  The block split of a sum over 261 = 128 + 128 + 5 terms; that the variance plus its literal is positive (so that the
  product with its reciprocal square root is the quotient by its square root); and the values of the literals.
-/
import proofs.«149784_g58171037057130_cont_9to1_m_483_14_alg».proof.Proof.Spec
import proofs.«149784_g58171037057130_cont_9to1_m_483_14_alg».proof.Proof.LibRsqrtDiv
import Idealize.ShloMosaic.Lib.IdealHost

noncomputable section

namespace Cert.NodeRow.Ref

open Idealize.ShloMosaic

/-- Column k of the first block of 261 = 128 + 128 + 5. -/
abbrev colA (k : Fin 128) : Fin 261 := ⟨k.val, by have := k.isLt; omega⟩
/-- Column k of the second block. -/
abbrev colB (k : Fin 128) : Fin 261 := ⟨128 + k.val, by have := k.isLt; omega⟩
/-- Column j of the last block of five. -/
abbrev colC (j : Fin 5) : Fin 261 := ⟨256 + j.val, by have := j.isLt; omega⟩

/-- A sum over 128 + (128 + 5) terms, block by block. -/
theorem sum_blocks (f : Fin (128 + (128 + 5)) → EReal) :
    ∑ k, f k = (∑ k : Fin 128, f (Fin.castAdd (128 + 5) k)) + (∑ k : Fin 128, f (Fin.natAdd 128 (Fin.castAdd 5 k)))
      + f (Fin.natAdd 128 (Fin.natAdd 128 (0 : Fin 5))) + f (Fin.natAdd 128 (Fin.natAdd 128 (1 : Fin 5)))
      + f (Fin.natAdd 128 (Fin.natAdd 128 (2 : Fin 5))) + f (Fin.natAdd 128 (Fin.natAdd 128 (3 : Fin 5)))
      + f (Fin.natAdd 128 (Fin.natAdd 128 (4 : Fin 5))) := by
  rw [Fin.sum_univ_add, Fin.sum_univ_add, Fin.sum_univ_five]
  simp only [add_assoc]

/-- The block split of a sum over 261 terms: the first 128, the next 128, and the last five one by one. -/
theorem sum261 (f : Fin 261 → EReal) :
    ∑ k : Fin 261, f k = (∑ k : Fin 128, f (colA k)) + (∑ k : Fin 128, f (colB k))
      + f (colC 0) + f (colC 1) + f (colC 2) + f (colC 3) + f (colC 4) :=
  sum_blocks f

/-- The literal 128. -/
theorem n128_eq : NodeRow.n128 = ((128 : ℝ) : EReal) := by
  simp [NodeRow.n128, Ideal.ofBits, Ideal.ieee, -EReal.coe_mul] <;> norm_num

/-- The literal added to the variance is positive. -/
theorem eps5_pos : 0 < NodeRow.eps5 := by
  simp [NodeRow.eps5, Ideal.ofBits, Ideal.ieee, -EReal.coe_mul] <;> norm_num

/-- A quotient of a nonnegative by 128 is not negative. -/
theorem div128_nonneg (s : EReal) (hs : 0 ≤ s) : 0 ≤ Ideal.div s NodeRow.n128 := by
  rw [n128_eq, Ideal.div_coe (by norm_num)]
  exact mul_nonneg hs (by exact_mod_cast (by norm_num : (0 : ℝ) ≤ 1 / 128))

/-- The variance is not negative. -/
theorem var_nonneg (x : Fin 128 → EReal) : 0 ≤ NodeRow.var x :=
  div128_nonneg _ (Finset.sum_nonneg fun k _ => mul_self_nonneg' _)

/-- The variance plus its literal is positive. -/
theorem var_add_eps5_pos (x : Fin 128 → EReal) : 0 < NodeRow.var x + NodeRow.eps5 :=
  lt_of_lt_of_le eps5_pos (le_add_of_nonneg_left (var_nonneg x))

end Cert.NodeRow.Ref

end
-- ==== Proof.RefCat.lean ====
/-
  The two concatenations of the reference, read at an index: the row [h_r, u_r, ph_r] of length 261 is the feature row
  on columns [0,128), the aggregated row on [128,256) and the five transformed scalars on [256,261).
-/
import proofs.«149784_g58171037057130_cont_9to1_m_483_14_alg».proof.Proof.Gen.ReferenceIdeal.Read

noncomputable section

namespace Cert.NodeRow.Ref

open Cert.ReferenceIdeal Cert.ReferenceIdeal.Gen Cert.ReferenceIdeal.Read Idealize.ShloMosaic

/-- Columns [0,128) of the joined row are the feature row. -/
theorem v37_left (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (r : Fin 10000) (k : Fin 128) (hk : k.val < 261) :
    val_main_v37 (F := Ideal) x0 x1 x2 x3 x4 x5 x6 (ValueIdx.ix2 r ⟨k.val, hk⟩) = x0 (ValueIdx.ix2 r k) := by
  unfold val_main_v37
  exact concatenate_apply_piece (t := S10000x261) 1 _ _ (ValueIdx.ix2 r ⟨k.val, hk⟩) 0 (by show (0 : Nat) < 3; decide) S10000x128 x0 rfl rfl 0 rfl
    (ValueIdx.ix2 r k)
    (fun b hb => match b, hb with
      | ⟨0, _⟩, _ => rfl
      | ⟨1, _⟩, hb => absurd rfl hb)
    (Nat.zero_add _)

/-- Columns [128,256) of the joined row are the aggregated neighbour row. -/
theorem v37_mid (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (r : Fin 10000) (k : Fin 128) (hk : 128 + k.val < 261) :
    val_main_v37 (F := Ideal) x0 x1 x2 x3 x4 x5 x6 (ValueIdx.ix2 r ⟨128 + k.val, hk⟩)
      = val_main_v0 (F := Ideal) x0 x6 (ValueIdx.ix2 r k) := by
  unfold val_main_v37
  exact concatenate_apply_piece (t := S10000x261) 1 _ _ (ValueIdx.ix2 r ⟨128 + k.val, hk⟩) 1 (by show (1 : Nat) < 3; decide) S10000x128
    (val_main_v0 (F := Ideal) x0 x6) rfl rfl 128 rfl
    (ValueIdx.ix2 r k)
    (fun b hb => match b, hb with
      | ⟨0, _⟩, _ => rfl
      | ⟨1, _⟩, hb => absurd rfl hb)
    rfl

/-- Columns [256,261) of the joined row are the five transformed scalars. -/
theorem v37_right (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (r : Fin 10000) (j : Fin 5) (hj : 256 + j.val < 261) :
    val_main_v37 (F := Ideal) x0 x1 x2 x3 x4 x5 x6 (ValueIdx.ix2 r ⟨256 + j.val, hj⟩)
      = val_main_v36 (F := Ideal) x1 x2 x3 x4 x5 (ValueIdx.ix2 r j) := by
  unfold val_main_v37
  exact concatenate_apply_piece (t := S10000x261) 1 _ _ (ValueIdx.ix2 r ⟨256 + j.val, hj⟩) 2 (by show (2 : Nat) < 3; decide) S10000x5
    (val_main_v36 (F := Ideal) x1 x2 x3 x4 x5) rfl rfl 256 rfl
    (ValueIdx.ix2 r j)
    (fun b hb => match b, hb with
      | ⟨0, _⟩, _ => rfl
      | ⟨1, _⟩, hb => absurd rfl hb)
    rfl

end Cert.NodeRow.Ref

end
-- ==== Proof.RefPhys.lean ====
/-
  The five transformed scalars of a row: column j of the block of five is sign(c) · log(|c| + ε₈) of the j-th scalar.
-/
import proofs.«149784_g58171037057130_cont_9to1_m_483_14_alg».proof.Proof.Gen.ReferenceIdeal.Read
import proofs.«149784_g58171037057130_cont_9to1_m_483_14_alg».proof.Proof.Spec
import proofs.«149784_g58171037057130_cont_9to1_m_483_14_alg».proof.Proof.RefArgs

noncomputable section

namespace Cert.NodeRow.Ref

open Cert.ReferenceIdeal Cert.ReferenceIdeal.Gen Cert.ReferenceIdeal.Read Idealize.ShloMosaic

/-- Column 0 of the block of five is the broadcast of the first transformed scalar. -/
theorem v36_0 (x1 x2 x3 x4 x5 : (⟨S10000, .f32⟩ : BufTy).Contents (Elt Ideal)) (r : Fin 10000) :
    val_main_v36 (F := Ideal) x1 x2 x3 x4 x5 (ValueIdx.ix2 r (0 : Fin 5))
      = val_main_v31 (F := Ideal) x1 (ValueIdx.ix2 r (0 : Fin 1)) := by
  unfold val_main_v36
  exact concatenate_apply_piece (t := S10000x5) 1 _ _ (ValueIdx.ix2 r (0 : Fin 5)) 0 (by show (0 : Nat) < 5; decide) S10000x1
    (val_main_v31 (F := Ideal) x1) rfl rfl 0 rfl
    (ValueIdx.ix2 r (0 : Fin 1))
    (fun b hb => match b, hb with
      | ⟨0, _⟩, _ => rfl
      | ⟨1, _⟩, hb => absurd rfl hb)
    rfl

/-- The first transformed scalar of row r. -/
theorem phys_0 (x1 x2 x3 x4 x5 : (⟨S10000, .f32⟩ : BufTy).Contents (Elt Ideal)) (r : Fin 10000) :
    val_main_v36 (F := Ideal) x1 x2 x3 x4 x5 (ValueIdx.ix2 r (0 : Fin 5)) = NodeRow.slog (x1 (ValueIdx.ix1 r)) := by
  have e : idx_main_v31 (ValueIdx.ix2 r (0 : Fin 1)) = ValueIdx.ix1 r := funext fun a => match a with | ⟨0, _⟩ => rfl
  rw [v36_0, val_main_v31_apply, e, val_main_v6_apply, val_main_v5_apply, val_main_v4_apply, val_main_v3_apply,
    val_main_cst_apply]
  rfl

/-- Column 1 of the block of five is the broadcast of the second transformed scalar. -/
theorem v36_1 (x1 x2 x3 x4 x5 : (⟨S10000, .f32⟩ : BufTy).Contents (Elt Ideal)) (r : Fin 10000) :
    val_main_v36 (F := Ideal) x1 x2 x3 x4 x5 (ValueIdx.ix2 r (1 : Fin 5))
      = val_main_v32 (F := Ideal) x2 (ValueIdx.ix2 r (0 : Fin 1)) := by
  unfold val_main_v36
  exact concatenate_apply_piece (t := S10000x5) 1 _ _ (ValueIdx.ix2 r (1 : Fin 5)) 1 (by show (1 : Nat) < 5; decide) S10000x1
    (val_main_v32 (F := Ideal) x2) rfl rfl 1 rfl
    (ValueIdx.ix2 r (0 : Fin 1))
    (fun b hb => match b, hb with
      | ⟨0, _⟩, _ => rfl
      | ⟨1, _⟩, hb => absurd rfl hb)
    rfl

/-- The second transformed scalar of row r. -/
theorem phys_1 (x1 x2 x3 x4 x5 : (⟨S10000, .f32⟩ : BufTy).Contents (Elt Ideal)) (r : Fin 10000) :
    val_main_v36 (F := Ideal) x1 x2 x3 x4 x5 (ValueIdx.ix2 r (1 : Fin 5)) = NodeRow.slog (x2 (ValueIdx.ix1 r)) := by
  have e : idx_main_v32 (ValueIdx.ix2 r (0 : Fin 1)) = ValueIdx.ix1 r := funext fun a => match a with | ⟨0, _⟩ => rfl
  rw [v36_1, val_main_v32_apply, e, val_main_v12_apply, val_main_v11_apply, val_main_v10_apply, val_main_v9_apply,
    val_main_cst_0_apply]
  rfl

/-- Column 2 of the block of five is the broadcast of the third transformed scalar. -/
theorem v36_2 (x1 x2 x3 x4 x5 : (⟨S10000, .f32⟩ : BufTy).Contents (Elt Ideal)) (r : Fin 10000) :
    val_main_v36 (F := Ideal) x1 x2 x3 x4 x5 (ValueIdx.ix2 r (2 : Fin 5))
      = val_main_v33 (F := Ideal) x3 (ValueIdx.ix2 r (0 : Fin 1)) := by
  unfold val_main_v36
  exact concatenate_apply_piece (t := S10000x5) 1 _ _ (ValueIdx.ix2 r (2 : Fin 5)) 2 (by show (2 : Nat) < 5; decide) S10000x1
    (val_main_v33 (F := Ideal) x3) rfl rfl 2 rfl
    (ValueIdx.ix2 r (0 : Fin 1))
    (fun b hb => match b, hb with
      | ⟨0, _⟩, _ => rfl
      | ⟨1, _⟩, hb => absurd rfl hb)
    rfl

/-- The third transformed scalar of row r. -/
theorem phys_2 (x1 x2 x3 x4 x5 : (⟨S10000, .f32⟩ : BufTy).Contents (Elt Ideal)) (r : Fin 10000) :
    val_main_v36 (F := Ideal) x1 x2 x3 x4 x5 (ValueIdx.ix2 r (2 : Fin 5)) = NodeRow.slog (x3 (ValueIdx.ix1 r)) := by
  have e : idx_main_v33 (ValueIdx.ix2 r (0 : Fin 1)) = ValueIdx.ix1 r := funext fun a => match a with | ⟨0, _⟩ => rfl
  rw [v36_2, val_main_v33_apply, e, val_main_v18_apply, val_main_v17_apply, val_main_v16_apply, val_main_v15_apply,
    val_main_cst_1_apply]
  rfl

/-- Column 3 of the block of five is the broadcast of the fourth transformed scalar. -/
theorem v36_3 (x1 x2 x3 x4 x5 : (⟨S10000, .f32⟩ : BufTy).Contents (Elt Ideal)) (r : Fin 10000) :
    val_main_v36 (F := Ideal) x1 x2 x3 x4 x5 (ValueIdx.ix2 r (3 : Fin 5))
      = val_main_v34 (F := Ideal) x4 (ValueIdx.ix2 r (0 : Fin 1)) := by
  unfold val_main_v36
  exact concatenate_apply_piece (t := S10000x5) 1 _ _ (ValueIdx.ix2 r (3 : Fin 5)) 3 (by show (3 : Nat) < 5; decide) S10000x1
    (val_main_v34 (F := Ideal) x4) rfl rfl 3 rfl
    (ValueIdx.ix2 r (0 : Fin 1))
    (fun b hb => match b, hb with
      | ⟨0, _⟩, _ => rfl
      | ⟨1, _⟩, hb => absurd rfl hb)
    rfl

/-- The fourth transformed scalar of row r. -/
theorem phys_3 (x1 x2 x3 x4 x5 : (⟨S10000, .f32⟩ : BufTy).Contents (Elt Ideal)) (r : Fin 10000) :
    val_main_v36 (F := Ideal) x1 x2 x3 x4 x5 (ValueIdx.ix2 r (3 : Fin 5)) = NodeRow.slog (x4 (ValueIdx.ix1 r)) := by
  have e : idx_main_v34 (ValueIdx.ix2 r (0 : Fin 1)) = ValueIdx.ix1 r := funext fun a => match a with | ⟨0, _⟩ => rfl
  rw [v36_3, val_main_v34_apply, e, val_main_v24_apply, val_main_v23_apply, val_main_v22_apply, val_main_v21_apply,
    val_main_cst_2_apply]
  rfl

/-- Column 4 of the block of five is the broadcast of the fifth transformed scalar. -/
theorem v36_4 (x1 x2 x3 x4 x5 : (⟨S10000, .f32⟩ : BufTy).Contents (Elt Ideal)) (r : Fin 10000) :
    val_main_v36 (F := Ideal) x1 x2 x3 x4 x5 (ValueIdx.ix2 r (4 : Fin 5))
      = val_main_v35 (F := Ideal) x5 (ValueIdx.ix2 r (0 : Fin 1)) := by
  unfold val_main_v36
  exact concatenate_apply_piece (t := S10000x5) 1 _ _ (ValueIdx.ix2 r (4 : Fin 5)) 4 (by show (4 : Nat) < 5; decide) S10000x1
    (val_main_v35 (F := Ideal) x5) rfl rfl 4 rfl
    (ValueIdx.ix2 r (0 : Fin 1))
    (fun b hb => match b, hb with
      | ⟨0, _⟩, _ => rfl
      | ⟨1, _⟩, hb => absurd rfl hb)
    rfl

/-- The fifth transformed scalar of row r. -/
theorem phys_4 (x1 x2 x3 x4 x5 : (⟨S10000, .f32⟩ : BufTy).Contents (Elt Ideal)) (r : Fin 10000) :
    val_main_v36 (F := Ideal) x1 x2 x3 x4 x5 (ValueIdx.ix2 r (4 : Fin 5)) = NodeRow.slog (x5 (ValueIdx.ix1 r)) := by
  have e : idx_main_v35 (ValueIdx.ix2 r (0 : Fin 1)) = ValueIdx.ix1 r := funext fun a => match a with | ⟨0, _⟩ => rfl
  rw [v36_4, val_main_v35_apply, e, val_main_v30_apply, val_main_v29_apply, val_main_v28_apply, val_main_v27_apply,
    val_main_cst_3_apply]
  rfl

/-- The block of five at column j is the transform of the j-th scalar of the row. -/
theorem phys (x1 x2 x3 x4 x5 : (⟨S10000, .f32⟩ : BufTy).Contents (Elt Ideal)) (r : Fin 10000) (j : Fin 5) :
    val_main_v36 (F := Ideal) x1 x2 x3 x4 x5 (ValueIdx.ix2 r j) = NodeRow.slog (crow x1 x2 x3 x4 x5 r j) := by
  match j with
  | ⟨0, _⟩ => exact phys_0 x1 x2 x3 x4 x5 r
  | ⟨1, _⟩ => exact phys_1 x1 x2 x3 x4 x5 r
  | ⟨2, _⟩ => exact phys_2 x1 x2 x3 x4 x5 r
  | ⟨3, _⟩ => exact phys_3 x1 x2 x3 x4 x5 r
  | ⟨4, _⟩ => exact phys_4 x1 x2 x3 x4 x5 r

end Cert.NodeRow.Ref

end
-- ==== Proof.RefPre.lean ====
/-
  The first linear layer of the reference on a row, and its gate: the joined row [h_r, u_r, ph_r] against the
  transposed first matrix is the block form of the pre-activation, and the called function is x · logistic x.
-/
import proofs.«149784_g58171037057130_cont_9to1_m_483_14_alg».proof.Proof.RefLaws
import proofs.«149784_g58171037057130_cont_9to1_m_483_14_alg».proof.Proof.RefCat
import proofs.«149784_g58171037057130_cont_9to1_m_483_14_alg».proof.Proof.RefPhys
import Idealize.ShloMosaic.Lib.IdealHost

noncomputable section

namespace Cert.NodeRow.Ref

open Cert.ReferenceIdeal Cert.ReferenceIdeal.Gen Cert.ReferenceIdeal.Read Idealize.ShloMosaic

/-- The pre-activation row of node r, as a function of the hidden coordinate. -/
def preF (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (r : Fin 10000) : Fin 128 → EReal :=
  NodeRow.pre (Wh x7) (Wu x7) (Wp x7) (vec x8) (hrow x0 r) (NodeRow.up (arow x6 r) (H x0))
    (fun j => NodeRow.slog (crow x1 x2 x3 x4 x5 r j))

/-- The aggregated neighbour features of node r. -/
theorem up_read (x0 : (⟨S10000x128, .f32⟩ : BufTy).Contents (Elt Ideal)) (x6 : (⟨S10000x10000, .f32⟩ : BufTy).Contents (Elt Ideal)) (r : Fin 10000) (k : Fin 128) :
    val_main_v0 (F := Ideal) x0 x6 (ValueIdx.ix2 r k) = NodeRow.up (arow x6 r) (H x0) k := by
  rw [val_main_v0_apply]
  unfold NodeRow.up arow H
  refine Finset.sum_congr rfl fun j _ => ?_
  have el : lidx_main_v0 (ValueIdx.ix2 r k) j = ValueIdx.ix2 r j :=
    funext fun a => match a with | ⟨0, _⟩ => rfl | ⟨1, _⟩ => rfl
  have er : ridx_main_v0 (ValueIdx.ix2 r k) j = ValueIdx.ix2 j k :=
    funext fun a => match a with | ⟨0, _⟩ => rfl | ⟨1, _⟩ => rfl
  rw [el, er]

/-- Where the first product reads its left operand. -/
theorem lidx39 (r : Fin 10000) (q : Fin 128) (k : Fin 261) : lidx_main_v39 (ValueIdx.ix2 r q) k = ValueIdx.ix2 r k :=
  funext fun a => match a with | ⟨0, _⟩ => rfl | ⟨1, _⟩ => rfl

/-- The transposed first matrix read where the first product reads its right operand. -/
theorem w1_read (x7 : (⟨S128x261, .f32⟩ : BufTy).Contents (Elt Ideal)) (r : Fin 10000) (q : Fin 128) (k : Fin 261) :
    val_main_v38 (F := Ideal) x7 (ridx_main_v39 (ValueIdx.ix2 r q) k) = x7 (ValueIdx.ix2 q k) := by
  rw [val_main_v38_apply]
  exact congrArg x7 (funext fun a => match a with | ⟨0, _⟩ => rfl | ⟨1, _⟩ => rfl)

/-- A term of the first block. -/
theorem termA (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (r : Fin 10000) (q k : Fin 128) :
    val_main_v37 (F := Ideal) x0 x1 x2 x3 x4 x5 x6 (lidx_main_v39 (ValueIdx.ix2 r q) (colA k))
        * val_main_v38 (F := Ideal) x7 (ridx_main_v39 (ValueIdx.ix2 r q) (colA k))
      = hrow x0 r k * Wh x7 k q := by
  rw [lidx39, w1_read, v37_left]; rfl

/-- A term of the second block. -/
theorem termB (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (r : Fin 10000) (q k : Fin 128) :
    val_main_v37 (F := Ideal) x0 x1 x2 x3 x4 x5 x6 (lidx_main_v39 (ValueIdx.ix2 r q) (colB k))
        * val_main_v38 (F := Ideal) x7 (ridx_main_v39 (ValueIdx.ix2 r q) (colB k))
      = NodeRow.up (arow x6 r) (H x0) k * Wu x7 k q := by
  rw [lidx39, w1_read, v37_mid, up_read]; rfl

/-- A term of the block of five. -/
theorem termC (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (r : Fin 10000) (q : Fin 128) (j : Fin 5) :
    val_main_v37 (F := Ideal) x0 x1 x2 x3 x4 x5 x6 (lidx_main_v39 (ValueIdx.ix2 r q) (colC j))
        * val_main_v38 (F := Ideal) x7 (ridx_main_v39 (ValueIdx.ix2 r q) (colC j))
      = NodeRow.slog (crow x1 x2 x3 x4 x5 r j) * Wp x7 j q := by
  rw [lidx39, w1_read, v37_right, phys]; rfl

/-- The first bias read at a row. -/
theorem b1_read (x8 : (⟨S128, .f32⟩ : BufTy).Contents (Elt Ideal)) (r : Fin 10000) (q : Fin 128) :
    val_main_v41 (F := Ideal) x8 (ValueIdx.ix2 r q) = vec x8 q := by
  rw [val_main_v41_apply, val_main_v40_apply]
  exact congrArg x8 (funext fun a => match a with | ⟨0, _⟩ => rfl)

/-- The first linear layer of the reference at row r is the block form of the pre-activation. -/
theorem pre_read (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (r : Fin 10000) (q : Fin 128) :
    val_main_v42 (F := Ideal) x0 x1 x2 x3 x4 x5 x6 x7 x8 (ValueIdx.ix2 r q) = preF x0 x1 x2 x3 x4 x5 x6 x7 x8 r q := by
  rw [val_main_v42_apply, val_main_v39_apply, sum261, b1_read,
    termC x0 x1 x2 x3 x4 x5 x6 x7 r q 0, termC x0 x1 x2 x3 x4 x5 x6 x7 r q 1, termC x0 x1 x2 x3 x4 x5 x6 x7 r q 2, termC x0 x1 x2 x3 x4 x5 x6 x7 r q 3, termC x0 x1 x2 x3 x4 x5 x6 x7 r q 4,
    Finset.sum_congr rfl (fun k _ => termA x0 x1 x2 x3 x4 x5 x6 x7 r q k), Finset.sum_congr rfl (fun k _ => termB x0 x1 x2 x3 x4 x5 x6 x7 r q k)]
  unfold preF NodeRow.pre
  rfl

/-- The called function is x · logistic x. -/
theorem silu_read (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (i : S10000x128.Idx) :
    val_main_v43 (F := Ideal) x0 x1 x2 x3 x4 x5 x6 x7 x8 i = NodeRow.silu (val_main_v42 (F := Ideal) x0 x1 x2 x3 x4 x5 x6 x7 x8 i) := by
  rw [val_main_v43_apply, val_main_call0_v5_apply, val_main_call0_v4_apply, val_main_call0_cst_0_apply, val_main_call0_v3_apply,
    val_main_call0_v2_apply, val_main_call0_cst_apply, val_main_call0_v1_apply, val_main_call0_v0_apply]
  show val_main_v42 (F := Ideal) x0 x1 x2 x3 x4 x5 x6 x7 x8 i * Ideal.div (Ideal.ofBits .f32 0x3F800000#32)
      (Ideal.ofBits .f32 0x3F800000#32 + Ideal.exp (-(val_main_v42 (F := Ideal) x0 x1 x2 x3 x4 x5 x6 x7 x8 i))) = _
  rw [Ideal.ofBits_one_f32]
  rfl

end Cert.NodeRow.Ref

end
-- ==== Proof.RefRow.lean ====
/-
  The residual row, its mean and variance, and the normalised row of the reference at a row r: the result is the row
  function of the specification.
-/
import proofs.«149784_g58171037057130_cont_9to1_m_483_14_alg».proof.Proof.RefPre

noncomputable section

namespace Cert.NodeRow.Ref

open Cert.ReferenceIdeal Cert.ReferenceIdeal.Gen Cert.ReferenceIdeal.Read Idealize.ShloMosaic

/-- The residual row of node r, as a function of the coordinate. -/
def xF (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 10000) : Fin 128 → EReal :=
  NodeRow.resid (W2 x9) (vec x10) (hrow x0 r) (preF x0 x1 x2 x3 x4 x5 x6 x7 x8 r)

/-- The second bias read at a row. -/
theorem b2_read (x10 : (⟨S128, .f32⟩ : BufTy).Contents (Elt Ideal)) (r : Fin 10000) (q : Fin 128) :
    val_main_v47 (F := Ideal) x10 (ValueIdx.ix2 r q) = vec x10 q := by
  rw [val_main_v47_apply, val_main_v46_apply]
  exact congrArg x10 (funext fun a => match a with | ⟨0, _⟩ => rfl)

/-- A term of the second product. -/
theorem termW2 (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (r : Fin 10000) (q k : Fin 128) :
    val_main_v43 (F := Ideal) x0 x1 x2 x3 x4 x5 x6 x7 x8 (lidx_main_v45 (ValueIdx.ix2 r q) k)
        * val_main_v44 (F := Ideal) x9 (ridx_main_v45 (ValueIdx.ix2 r q) k)
      = NodeRow.silu (preF x0 x1 x2 x3 x4 x5 x6 x7 x8 r k) * W2 x9 k q := by
  have el : lidx_main_v45 (ValueIdx.ix2 r q) k = ValueIdx.ix2 r k :=
    funext fun a => match a with | ⟨0, _⟩ => rfl | ⟨1, _⟩ => rfl
  have er : idx_main_v44 (ridx_main_v45 (ValueIdx.ix2 r q) k) = ValueIdx.ix2 q k :=
    funext fun a => match a with | ⟨0, _⟩ => rfl | ⟨1, _⟩ => rfl
  rw [el, silu_read, pre_read, val_main_v44_apply, er]; rfl

/-- The residual stream of the reference at row r. -/
theorem x_read (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 10000) (q : Fin 128) :
    val_main_v49 (F := Ideal) x0 x1 x2 x3 x4 x5 x6 x7 x8 x9 x10 (ValueIdx.ix2 r q) = xF x0 x1 x2 x3 x4 x5 x6 x7 x8 x9 x10 r q := by
  rw [val_main_v49_apply, val_main_v48_apply, val_main_v45_apply, b2_read,
    Finset.sum_congr rfl (fun k _ => termW2 x0 x1 x2 x3 x4 x5 x6 x7 x8 x9 r q k)]
  unfold xF NodeRow.resid
  rfl

/-- The row sum's reading index. -/
theorem idx50 (r : Fin 10000) (k : Fin 128) : idx_main_v50 (ValueIdx.ix1 r) k = ValueIdx.ix2 r k :=
  funext fun a => match a with | ⟨0, _⟩ => rfl | ⟨1, _⟩ => rfl

/-- The mean of the residual row. -/
theorem mean_read (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 10000) :
    val_main_v53 (F := Ideal) x0 x1 x2 x3 x4 x5 x6 x7 x8 x9 x10 (ValueIdx.ix2 r (0 : Fin 1)) = NodeRow.mean (xF x0 x1 x2 x3 x4 x5 x6 x7 x8 x9 x10 r) := by
  have e : idx_main_v51 (ValueIdx.ix2 r (0 : Fin 1)) = ValueIdx.ix1 r := funext fun a => match a with | ⟨0, _⟩ => rfl
  rw [val_main_v53_apply, val_main_v51_apply, e, val_main_v50_apply, val_main_cst_4_apply, val_main_v52_apply, val_main_cst_5_apply,
    Finset.sum_congr rfl (fun k _ => (congrArg (val_main_v49 (F := Ideal) x0 x1 x2 x3 x4 x5 x6 x7 x8 x9 x10) (idx50 r k)).trans (x_read x0 x1 x2 x3 x4 x5 x6 x7 x8 x9 x10 r k))]
  show Ideal.div (Ideal.ofBits .f32 0x00000000#32 + ∑ k : Fin 128, xF x0 x1 x2 x3 x4 x5 x6 x7 x8 x9 x10 r k) NodeRow.n128 = _
  rw [Ideal.ofBits_zero_f32, zero_add]
  rfl

/-- The mean broadcast along the row (first use). -/
theorem mean54 (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 10000) (q : Fin 128) :
    val_main_v54 (F := Ideal) x0 x1 x2 x3 x4 x5 x6 x7 x8 x9 x10 (ValueIdx.ix2 r q) = NodeRow.mean (xF x0 x1 x2 x3 x4 x5 x6 x7 x8 x9 x10 r) := by
  have e : idx_main_v54 (ValueIdx.ix2 r q) = ValueIdx.ix2 r (0 : Fin 1) :=
    funext fun a => match a with | ⟨0, _⟩ => rfl | ⟨1, _⟩ => rfl
  rw [val_main_v54_apply, e, mean_read]

/-- The mean broadcast along the row (second use). -/
theorem mean61 (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 10000) (q : Fin 128) :
    val_main_v61 (F := Ideal) x0 x1 x2 x3 x4 x5 x6 x7 x8 x9 x10 (ValueIdx.ix2 r q) = NodeRow.mean (xF x0 x1 x2 x3 x4 x5 x6 x7 x8 x9 x10 r) := by
  have e : idx_main_v61 (ValueIdx.ix2 r q) = ValueIdx.ix2 r (0 : Fin 1) :=
    funext fun a => match a with | ⟨0, _⟩ => rfl | ⟨1, _⟩ => rfl
  rw [val_main_v61_apply, e, mean_read]

/-- A squared deviation. -/
theorem sq_read (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 10000) (k : Fin 128) :
    val_main_v56 (F := Ideal) x0 x1 x2 x3 x4 x5 x6 x7 x8 x9 x10 (idx_main_v57 (ValueIdx.ix1 r) k)
      = (xF x0 x1 x2 x3 x4 x5 x6 x7 x8 x9 x10 r k - NodeRow.mean (xF x0 x1 x2 x3 x4 x5 x6 x7 x8 x9 x10 r)) * (xF x0 x1 x2 x3 x4 x5 x6 x7 x8 x9 x10 r k - NodeRow.mean (xF x0 x1 x2 x3 x4 x5 x6 x7 x8 x9 x10 r)) := by
  have e : idx_main_v57 (ValueIdx.ix1 r) k = ValueIdx.ix2 r k :=
    funext fun a => match a with | ⟨0, _⟩ => rfl | ⟨1, _⟩ => rfl
  rw [e, val_main_v56_apply, val_main_v55_apply, x_read, mean54]; rfl

/-- The variance of the residual row. -/
theorem var_read (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 10000) :
    val_main_v60 (F := Ideal) x0 x1 x2 x3 x4 x5 x6 x7 x8 x9 x10 (ValueIdx.ix2 r (0 : Fin 1)) = NodeRow.var (xF x0 x1 x2 x3 x4 x5 x6 x7 x8 x9 x10 r) := by
  have e : idx_main_v58 (ValueIdx.ix2 r (0 : Fin 1)) = ValueIdx.ix1 r := funext fun a => match a with | ⟨0, _⟩ => rfl
  rw [val_main_v60_apply, val_main_v58_apply, e, val_main_v57_apply, val_main_cst_6_apply, val_main_v59_apply, val_main_cst_7_apply,
    Finset.sum_congr rfl (fun k _ => sq_read x0 x1 x2 x3 x4 x5 x6 x7 x8 x9 x10 r k)]
  show Ideal.div (Ideal.ofBits .f32 0x00000000#32
      + ∑ k : Fin 128, (xF x0 x1 x2 x3 x4 x5 x6 x7 x8 x9 x10 r k - NodeRow.mean (xF x0 x1 x2 x3 x4 x5 x6 x7 x8 x9 x10 r)) * (xF x0 x1 x2 x3 x4 x5 x6 x7 x8 x9 x10 r k - NodeRow.mean (xF x0 x1 x2 x3 x4 x5 x6 x7 x8 x9 x10 r))) NodeRow.n128 = _
  rw [Ideal.ofBits_zero_f32, zero_add]
  rfl

/-- The square root of the variance plus its literal, broadcast along the row. -/
theorem sd_read (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (r : Fin 10000) (q : Fin 128) :
    val_main_v69 (F := Ideal) x0 x1 x2 x3 x4 x5 x6 x7 x8 x9 x10 (ValueIdx.ix2 r q) = Ideal.sqrt (NodeRow.var (xF x0 x1 x2 x3 x4 x5 x6 x7 x8 x9 x10 r) + NodeRow.eps5) := by
  have e : idx_main_v69 (ValueIdx.ix2 r q) = ValueIdx.ix2 r (0 : Fin 1) :=
    funext fun a => match a with | ⟨0, _⟩ => rfl | ⟨1, _⟩ => rfl
  rw [val_main_v69_apply, e, val_main_v68_apply, val_main_v67_apply, var_read, val_main_v66_apply, val_main_cst_8_apply]
  rfl

/-- The scale read at a row. -/
theorem g_read (x11 : (⟨S128, .f32⟩ : BufTy).Contents (Elt Ideal)) (r : Fin 10000) (q : Fin 128) :
    val_main_v64 (F := Ideal) x11 (ValueIdx.ix2 r q) = vec x11 q := by
  rw [val_main_v64_apply, val_main_v63_apply]
  exact congrArg x11 (funext fun a => match a with | ⟨0, _⟩ => rfl)

/-- The shift read at a row. -/
theorem be_read (x12 : (⟨S128, .f32⟩ : BufTy).Contents (Elt Ideal)) (r : Fin 10000) (q : Fin 128) :
    val_main_v72 (F := Ideal) x12 (ValueIdx.ix2 r q) = vec x12 q := by
  rw [val_main_v72_apply, val_main_v71_apply]
  exact congrArg x12 (funext fun a => match a with | ⟨0, _⟩ => rfl)

/-- **The reference at row r is the row function.** -/
theorem ref_row (x0 : (⟨S10000x128, .f32⟩ : BufTy).Contents (Elt Ideal)) (x1 x2 x3 x4 x5 : (⟨S10000, .f32⟩ : BufTy).Contents (Elt Ideal)) (x6 : (⟨S10000x10000, .f32⟩ : BufTy).Contents (Elt Ideal)) (x7 : (⟨S128x261, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 x12 : (⟨S128, .f32⟩ : BufTy).Contents (Elt Ideal)) (r : Fin 10000) (q : Fin 128) :
    val_main_v73 (F := Ideal) x0 x1 x2 x3 x4 x5 x6 x7 x8 x9 x10 x11 x12 (ValueIdx.ix2 r q)
      = NodeRow.row (Wh x7) (Wu x7) (Wp x7) (vec x8) (W2 x9) (vec x10) (vec x11) (vec x12) (H x0) (arow x6 r) (hrow x0 r)
          (crow x1 x2 x3 x4 x5 r) q := by
  rw [val_main_v73_apply, val_main_v70_apply, val_main_v65_apply, val_main_v62_apply, g_read, be_read, sd_read, x_read, mean61]
  show Ideal.div (vec x11 q * (xF x0 x1 x2 x3 x4 x5 x6 x7 x8 x9 x10 r q - NodeRow.mean (xF x0 x1 x2 x3 x4 x5 x6 x7 x8 x9 x10 r)))
      (Ideal.sqrt (NodeRow.var (xF x0 x1 x2 x3 x4 x5 x6 x7 x8 x9 x10 r) + NodeRow.eps5)) + vec x12 q = _
  rw [← mul_rsqrt _ _ (var_add_eps5_pos _)]
  unfold NodeRow.row NodeRow.norm
  rfl

end Cert.NodeRow.Ref

end
-- ==== Proof.lean ====
/-
  The certificate of the fused node-update kernel against its reference.

  The kernel streams the adjacency matrix of a 10000-node graph in blocks of 200 rows, two row blocks per grid point (one
  from each half), and for each row computes the node update: the neighbours' features summed by the adjacency row, the
  signed logarithm of five physical scalars, a two-layer perceptron with a gated hidden layer on the concatenation, a
  residual connection and a layer normalisation. The reference does the same with whole-array operations. On the extended
  reals the two agree entry by entry: both are the one row function of `Proof/Spec.lean`. What joins the two sides is that
  a sum over the 261 concatenated columns is the sum of its three blocks (addition alone), and that multiplying by the
  reciprocal square root of a positive variance-plus-epsilon is dividing by its square root; no step needs the inputs
  to be finite. The kernel's sign computed from the sign bit is the rewrite the idealization records, restated as
  `preserves`. Each of the three programs runs to the end from any memory and leaves its arguments unchanged; for the
  two kernel programs this is the pipeline's run over its 25 grid points, three of its arrays read through several
  windows at parts of a share.
-/
import proofs.«149784_g58171037057130_cont_9to1_m_483_14_alg».proof.Defs
import proofs.«149784_g58171037057130_cont_9to1_m_483_14_alg».proof.Proof.Gen.Kernel
import proofs.«149784_g58171037057130_cont_9to1_m_483_14_alg».proof.Proof.Gen.KernelIdeal
import proofs.«149784_g58171037057130_cont_9to1_m_483_14_alg».proof.Proof.Gen.ReferenceIdeal
import proofs.«149784_g58171037057130_cont_9to1_m_483_14_alg».proof.Proof.Gen.Pre_finite_inputs
import proofs.«149784_g58171037057130_cont_9to1_m_483_14_alg».proof.Proof.Gen.ReferenceIdeal.Run
import proofs.«149784_g58171037057130_cont_9to1_m_483_14_alg».proof.Proof.Gen.ReferenceIdeal.Read
import proofs.«149784_g58171037057130_cont_9to1_m_483_14_alg».proof.Proof.KRun
import proofs.«149784_g58171037057130_cont_9to1_m_483_14_alg».proof.Proof.KAnsIdeal
import proofs.«149784_g58171037057130_cont_9to1_m_483_14_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end and leaves its arguments unchanged. -/
theorem frame_k : Cert.frame_Kernel := fun m ρ _ =>
  (θ_run (Cert.Kernel.defs (F := Bits)) _ _).mono (fun _ h c => (h c).2) (Cert.Kernel.Hand.run_main (F := Bits) m ρ)

/-- So does its idealization. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two places where the kernel builds ±1 from a sign bit: on the extended reals that is −1 below zero and 1 otherwise. -/
theorem preserves : Cert.preserves_Kernel_KernelIdeal :=
  ⟨IdealRules.sign_bit.statement Cert.KernelIdeal.S200x5 .f32, IdealRules.sign_bit.statement Cert.KernelIdeal.S200x5 .f32⟩

/-- From memories agreeing on the arguments both idealized programs end with the same answer: at every entry (r, q) the
    node-update row function of the arguments. -/
theorem algebraic : Cert.algebraic_KernelIdeal_ReferenceIdeal := by
  intro m ρ m' ρ' _ hagree
  refine ⟨fun c => Cert.KernelIdeal.Hand.V3 m c Cert.KernelIdeal.main_v18, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v73_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  funext i
  obtain ⟨r, q, rfl⟩ : ∃ (r : Fin 10000) (q : Fin 128), i = ix2 r q := ⟨i 0, i 1, eq_ix2 i⟩
  rw [Cert.NodeRow.Ref.ref_row]
  exact (Cert.KernelIdeal.Val.answer m c r q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
